-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 107
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x40, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x40, .f32⟩
  | .hbm, ⟨97, _⟩ => ⟨S850000x1, .f32⟩
  | .hbm, ⟨98, _⟩ => ⟨S850000x40, .f32⟩
  | .hbm, ⟨99, _⟩ => ⟨S850000x40, .f32⟩
  | .hbm, ⟨100, _⟩ => ⟨S_, .f32⟩
  | .hbm, ⟨101, _⟩ => ⟨S50000x40, .f32⟩
  | .hbm, ⟨102, _⟩ => ⟨S850000x1, .i32⟩
  | .hbm, ⟨103, _⟩ => ⟨S50000x40, .f32⟩
  | .hbm, ⟨104, _⟩ => ⟨S1x40, .f32⟩
  | .hbm, ⟨105, _⟩ => ⟨S50000x40, .f32⟩
  | .hbm, ⟨106, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | .local _ .vmem, ⟨30, _⟩ => ⟨S5000x40, .f32⟩
  | .local _ .vmem, ⟨31, _⟩ => ⟨S5000x40, .f32⟩
  | .local _ .vmem, ⟨32, _⟩ => ⟨S5000x40, .f32⟩
  | .local _ .vmem, ⟨33, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x40.size a ≤ S50000x40.size a
  hwx6_0 : ∀ i : grid6.Coords, EltTy.bits .f32 = 32 ∨ (Rect.block (s := S50000x40) S5000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x40.size a ≤ S50000x40.size a
  hwx6_1 : ∀ i : grid6.Coords, EltTy.bits .f32 = 32 ∨ (Rect.block (s := S50000x40) S5000x40.size (cc6_transform_1 i) (hinb6_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S5000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S5000x40.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x64, .f32⟩
  | 82 => ⟨S850000x1, .f32⟩
  | 83 => ⟨S850000x64, .f32⟩
  | 84 => ⟨S850000x64, .f32⟩
  | 85 => ⟨S_, .f32⟩
  | 86 => ⟨S50000x64, .f32⟩
  | 87 => ⟨S850000x1, .i32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x40, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x40, .f32⟩
  | 105 => ⟨S850000x1, .f32⟩
  | 106 => ⟨S850000x40, .f32⟩
  | 107 => ⟨S850000x40, .f32⟩
  | 108 => ⟨S_, .f32⟩
  | 109 => ⟨S50000x40, .f32⟩
  | 110 => ⟨S850000x1, .i32⟩
  | 111 => ⟨S50000x40, .f32⟩
  | 112 => ⟨S1x40, .f32⟩
  | 113 => ⟨S50000x40, .f32⟩
  | 114 => ⟨S50000x40, .f32⟩
  | 115 => ⟨S_, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x40, .f32⟩
  | 122 => ⟨S50000x40, .f32⟩
  | 123 => ⟨S50000x40, .f32⟩
  | 124 => ⟨S_, .f32⟩
  | 125 => ⟨S50000, .f32⟩
  | 126 => ⟨S50000x1, .f32⟩
  | 127 => ⟨S50000x1, .f32⟩
  | _ => ⟨S50000x128, .f32⟩

abbrev hbmTy0_1 (i : Nat) : BufTy := match i % 128 with
  | 0 => ⟨S50000x40, .f32⟩
  | 1 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result named.

  @main is thirteen segments: three stretches of host operations, then seven kernel regions with three more host
  stretches between them. The generated frame proves every segment and folds the buffer contents from the launch
  memory through the segments (`W0` … `W13`); its own conclusion keeps only the argument arrays. Here the same
  segments are launched once more and the final state is read at the RESULT buffer too: every weakly fair execution
  ends with `main_v79` holding `W13` at that buffer — the last region's output array as its write-backs leave it —
  and the arguments as launched.
-/
import proofs.«146042_j24257975287854_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's final
    contents and the argument arrays as launched. -/
theorem run : θ_run defs (onTc (τ := τ) (main (F := F))) ⟨m, fun _ => 0, ρ⟩ (fun r => ∀ c : Dev nD,
      r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Named

end
-- ==== Proof.Spec.lean ====
/-
  What each dense step of the network computes, as one whole-array function on the extended reals.

  A layer of the graph network is: multiply the node features by a weight matrix (`mm`), mix the rows along the
  edges (a gather, a scaling by the edge weights and a scatter-add: plain array plumbing that both programs spell in
  the same words, so nothing here describes it), add a bias to every row and clamp at zero (`biasClamp`; the last
  layer only adds, `bias`), and finally take the logarithm of the row-wise softmax (`logSoftmax`).

  * `mm X W` at (p, q) is the sum over k of X (p, k) · W (k, q).
  * `biasClamp A b` at (p, q) is max (A (p, q) + b q) 0, `bias A b` is A (p, q) + b q.
  * `rowMax A p` is the largest entry of row p (the fold of `max` from −∞), `logSoftmax A` at (p, q) is
    (A (p, q) − rowMax A p) − log (∑ j, exp (A (p, j) − rowMax A p)).

  The extents are parameters: the same functions serve the 128 → 64, 64 → 64 and 64 → 40 layers.
-/
import Idealize.ShloMosaic.PureOps.Ideal
import Idealize.ShloMosaic.Lib.ValueIdx

noncomputable section

open scoped BigOperators

namespace Cert.Spec

open Idealize.ShloMosaic Idealize.ShloMosaic.ValueIdx

/-- The zero of the clamp: the pattern `0x00000000` read as an extended real. -/
abbrev zeroWord : EReal := Ideal.ofBits .f32 0x00000000#32

/-- Row-by-column product: entry (p, q) is the sum over k of X (p, k) · W (k, q). -/
def mm {n K N : Nat} (X : FVec Ideal ⟨2, ![n, K]⟩ .f32) (W : FVec Ideal ⟨2, ![K, N]⟩ .f32) :
    FVec Ideal ⟨2, ![n, N]⟩ .f32 :=
  fun i => ∑ k : Fin K, X (ix2 (i 0) k) * W (ix2 k (i 1))

theorem mm_apply {n K N : Nat} (X : FVec Ideal ⟨2, ![n, K]⟩ .f32) (W : FVec Ideal ⟨2, ![K, N]⟩ .f32)
    (p : Fin n) (q : Fin N) : mm X W (ix2 p q) = ∑ k : Fin K, X (ix2 p k) * W (ix2 k q) := rfl

/-- A bias added to every row. -/
def bias {n N : Nat} (A : FVec Ideal ⟨2, ![n, N]⟩ .f32) (b : FVec Ideal ⟨1, ![N]⟩ .f32) :
    FVec Ideal ⟨2, ![n, N]⟩ .f32 :=
  fun i => A i + b (ix1 (i 1))

theorem bias_apply {n N : Nat} (A : FVec Ideal ⟨2, ![n, N]⟩ .f32) (b : FVec Ideal ⟨1, ![N]⟩ .f32)
    (p : Fin n) (q : Fin N) : bias A b (ix2 p q) = A (ix2 p q) + b (ix1 q) := rfl

/-- A bias added to every row, then the clamp at zero. -/
def biasClamp {n N : Nat} (A : FVec Ideal ⟨2, ![n, N]⟩ .f32) (b : FVec Ideal ⟨1, ![N]⟩ .f32) :
    FVec Ideal ⟨2, ![n, N]⟩ .f32 :=
  fun i => max (A i + b (ix1 (i 1))) zeroWord

theorem biasClamp_apply {n N : Nat} (A : FVec Ideal ⟨2, ![n, N]⟩ .f32) (b : FVec Ideal ⟨1, ![N]⟩ .f32)
    (p : Fin n) (q : Fin N) : biasClamp A b (ix2 p q) = max (A (ix2 p q) + b (ix1 q)) zeroWord := rfl

/-- The largest entry of row `p`: the fold of `max` from −∞ over the row. -/
def rowMax {n N : Nat} (A : FVec Ideal ⟨2, ![n, N]⟩ .f32) (p : Fin n) : EReal :=
  (Finset.univ : Finset (Fin N)).fold max (⊥ : EReal) (fun j => A (ix2 p j))

/-- The logarithm of the row-wise softmax, the way both programs compute it: shift the row by its maximum, then
    subtract the logarithm of the sum of the exponentials of the shifted row. -/
def logSoftmax {n N : Nat} (A : FVec Ideal ⟨2, ![n, N]⟩ .f32) : FVec Ideal ⟨2, ![n, N]⟩ .f32 :=
  fun i => (A i - rowMax A (i 0)) - Ideal.log (∑ j : Fin N, Ideal.exp (A (ix2 (i 0) j) - rowMax A (i 0)))

theorem logSoftmax_apply {n N : Nat} (A : FVec Ideal ⟨2, ![n, N]⟩ .f32) (p : Fin n) (q : Fin N) :
    logSoftmax A (ix2 p q)
      = (A (ix2 p q) - rowMax A p) - Ideal.log (∑ j : Fin N, Ideal.exp (A (ix2 p j) - rowMax A p)) := rfl

end Cert.Spec

end
-- ==== Proof.Region0.lean ====
/-
  Region 0: the first matrix product (node features times the first weights), block by block.

  The grid has ten points; point t loads rows 5000·t … 5000·t + 4999 of the left factor and the whole weight
  matrix, and writes back the same rows of the product. An entry of a product depends only on its own row of the
  left factor, so block t of the product of the whole arrays is the product of block t with the weights: the ten
  write-backs tile the result array, which therefore ends holding the product of the arrays as the region found them.
-/
import proofs.«146042_j24257975287854_1_alg».proof.Proof.Gen.KernelIdeal.Frame
import proofs.«146042_j24257975287854_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The left factor's block at point t is rows 5000·t … of the left array. -/
theorem iblk_lhs (c : Dev nD) (t : Fin cfg0.N) (x : S5000x128.Idx) (k : S50000x128.Idx)
    (hk0 : (k 0).val = t.val * 5000 + (x 0).val) (hk1 : (k 1).val = (x 1).val) :
    (iblk0 V c 0 t : Vec Ideal S5000x128 .f32) x = (V c main_arg0 : S50000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right factor's block at every point is the whole weight matrix. -/
theorem iblk_rhs (c : Dev nD) (t : Fin cfg0.N) (x : S128x64.Idx) :
    (iblk0 V c 1 t : Vec Ideal S128x64 .f32) x = (V c main_arg2 : S128x64.Idx → EReal) x := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- One block of the product: if x is rows 5000·tv … of X and w is W, entry y of the payload is entry
    (5000·tv + y₀, y₁) of the product of the whole arrays. -/
theorem block_eq (hpay : ∀ (x : FVec Ideal S5000x128 .f32) (w : FVec Ideal S128x64 .f32) (p : Fin 5000) (q : Fin 64),
      k0_pay1 (F := Ideal) x w (ix2 p q) = ∑ k : Fin 128, x (ix2 p k) * w (ix2 k q))
    (X : S50000x128.Idx → EReal) (W : S128x64.Idx → EReal) (x : FVec Ideal S5000x128 .f32) (w : FVec Ideal S128x64 .f32) (tv : Nat)
    (hx : ∀ (y : S5000x128.Idx) (k : S50000x128.Idx), (k 0).val = tv * 5000 + (y 0).val → (k 1).val = (y 1).val → x y = X k)
    (hw : ∀ y : S128x64.Idx, w y = W y)
    (y : S5000x64.Idx) (i : S50000x64.Idx) (hi0 : (i 0).val = tv * 5000 + (y 0).val) (hi1 : (i 1).val = (y 1).val) :
    k0_pay1 (F := Ideal) x w y = Cert.Spec.mm X W i := by
  obtain ⟨p, q, rfl⟩ : ∃ (p : Fin 5000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext hi1
  subst hq
  rw [hpay, Cert.Spec.mm_apply]
  refine Finset.sum_congr rfl fun k _ => ?_
  rw [hx (ix2 p k) (ix2 p' k) hi0 rfl, hw]

/-- What point t writes back is block t of the product of the arrays as the region finds them. -/
theorem flushed (hpay : ∀ (x : FVec Ideal S5000x128 .f32) (w : FVec Ideal S128x64 .f32) (p : Fin 5000) (q : Fin 64),
      k0_pay1 (F := Ideal) x w (ix2 p q) = ∑ k : Fin 128, x (ix2 p k) * w (ix2 k q))
    (c : Dev nD) (t : Fin cfg0.N) :
    (dat0 V c).flushed 2 t = ((cfg0.win 2).blk t).view.read (Elt Ideal)
      (Cert.Spec.mm (V c main_arg0 : S50000x128.Idx → EReal) (V c main_arg2 : S128x64.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e0, e1, -⟩ := idx_facts t
  funext j
  show k0_pay1 (F := Ideal) (iblk0 V c 0 t) (iblk0 V c 1 t) j = Cert.Spec.mm _ _ (((cfg0.win 2).blk t).view.emb j)
  refine block_eq hpay _ _ _ _ t.val (fun y k h0 h1 => iblk_lhs V c t y k h0 h1) (fun y => iblk_rhs V c t y) j _ ?_ ?_
  · show win0_2.index t 0 * 5000 + 1 * (j 0).val = t.val * 5000 + (j 0).val; rw [e0]; omega
  · show win0_2.index t 1 * 64 + 1 * (j 1).val = (j 1).val; rw [e1]; omega

/-- An index of the result array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- The result array after the region: the product of the arrays as the region finds them. -/
theorem final (hpay : ∀ (x : FVec Ideal S5000x128 .f32) (w : FVec Ideal S128x64 .f32) (p : Fin 5000) (q : Fin 64),
      k0_pay1 (F := Ideal) x w (ix2 p q) = ∑ k : Fin 128, x (ix2 p k) * w (ix2 k q))
    (c : Dev nD) :
    (dat0 V c).arrAt 2 cfg0.N = Cert.Spec.mm (V c main_arg0 : S50000x128.Idx → EReal) (V c main_arg2 : S128x64.Idx → EReal) :=
  (dat0 V c).arrAt_eq_of_cover 2 _ (fun t _ => flushed V hpay c t) fun i => by
    have hi0 : (i 0).val < 50000 := (i 0).isLt
    have hi1 : (i 1).val < 64 := (i 1).isLt
    let t : Fin cfg0.N := ⟨(i 0).val / 5000, by rw [show cfg0.N = 10 from N_0]; omega⟩
    obtain ⟨-, -, -, -, e0, e1, -⟩ := idx_facts t
    refine ⟨t, flush0_2 t, ?_⟩
    rw [mem_blk]
    intro a
    match a with
    | ⟨0, _⟩ => show win0_2.index t 0 * 5000 ≤ (i 0).val ∧ (i 0).val < win0_2.index t 0 * 5000 + 5000; rw [e0]; show (i 0).val / 5000 * 5000 ≤ (i 0).val ∧ (i 0).val < (i 0).val / 5000 * 5000 + 5000; omega
    | ⟨1, _⟩ => show win0_2.index t 1 * 64 ≤ (i 1).val ∧ (i 1).val < win0_2.index t 1 * 64 + 64; rw [e1]; omega

end Cert.KernelIdeal.Region0

end
-- ==== Proof.PayMatmul.lean ====
/-
  The kernel's three matrix products, read at an entry.

  Each product payload narrows both operands to a 16-bit format (the identity on the extended reals), and multiplies
  them into an accumulator that is zero everywhere; the second and third first recast the left operand from its shape
  onto the same shape (the identity). So entry (p, q) of the payload is the sum over k of X (p, k) · W (k, q).

  The sum the product is defined by runs over the index set of the contraction shape, which has one axis; it is
  re-indexed by the extent of that axis. On the contracted axis an operand's index is the contraction position; on the
  free axis it is the output's coordinate.
-/
import proofs.«146042_j24257975287854_1_alg».proof.Proof.Gen.KernelIdeal.Skeleton
import proofs.«146042_j24257975287854_1_alg».proof.Proof.Spec
import Idealize.ShloMosaic.Lib.ValueIdx
import Idealize.ShloMosaic.Lib.Pipeline.Value
import Idealize.ShloMosaic.PureOps.Ideal.Laws

noncomputable section
open scoped BigOperators

namespace Cert.KernelIdeal.Pay
open Cert.KernelIdeal Cert.KernelIdeal.Gen Idealize.ShloMosaic Idealize.ShloMosaic.ValueIdx
variable [Cert.KernelIdeal.Facts]
open Cert.KernelIdeal.Facts₀ Cert.KernelIdeal.Facts

/-! ### The 5000 × 128 by 128 × 64 product -/

/-- The left operand's index on its free axis (rows) is the output's row. -/
theorem lhs0_128x64 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's index on its contracted axis (columns) is the contraction position. -/
theorem lhs1_128x64 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
/-- The right operand's index on its contracted axis (rows) is the contraction position. -/
theorem rhs0_128x64 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
/-- The right operand's index on its free axis (columns) is the output's column. -/
theorem rhs1_128x64 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The sum over the contraction index set, re-indexed by the contracted extent: entry (p, q) is
    the sum over k of X (p, k) · W (k, q). -/
theorem sum_128x64 (X : S5000x128.Idx → EReal) (W : S128x64.Idx → EReal) (p : Fin 5000) (q : Fin 64) :
    (∑ c : dot_S5000x128_S128x64_S5000x64_1_0_0_1_n_n.contr.Idx, X (dot_S5000x128_S128x64_S5000x64_1_0_0_1_n_n.lhsIdx (ix2 p q) c) * W (dot_S5000x128_S128x64_S5000x64_1_0_0_1_n_n.rhsIdx (ix2 p q) c))
      = ∑ k : Fin 128, X (ix2 p k) * W (ix2 k q) := by
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs0_128x64 _ _
    | ⟨1, _⟩ => exact (lhs1_128x64 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs0_128x64 _ _).trans hk
    | ⟨1, _⟩ => exact rhs1_128x64 _ _)
  rw [el, er]

/-- Entry (p, q) of the first product's payload. Narrowing an operand is the identity on the extended reals, and the
    accumulator is zero. -/
theorem pay0_apply (x : FVec Ideal S5000x128 .f32) (w : FVec Ideal S128x64 .f32) (p : Fin 5000) (q : Fin 64) :
    k0_pay1 (F := Ideal) x w (ix2 p q) = ∑ k : Fin 128, x (ix2 p k) * w (ix2 k q) := by
  unfold k0_pay1
  refine (Ideal.matmul_constant_zero_apply dot_S5000x128_S128x64_S5000x64_1_0_0_1_n_n none _ _ (ix2 p q)).trans ?_
  exact sum_128x64 x w p q

/-! ### The 5000 × 64 by 64 × 64 product -/

/-- The left operand's index on its free axis (rows) is the output's row. -/
theorem lhs0_64x64 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's index on its contracted axis (columns) is the contraction position. -/
theorem lhs1_64x64 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's index on its contracted axis (rows) is the contraction position. -/
theorem rhs0_64x64 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- The right operand's index on its free axis (columns) is the output's column. -/
theorem rhs1_64x64 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The sum over the contraction index set, re-indexed by the contracted extent: entry (p, q) is
    the sum over k of X (p, k) · W (k, q). -/
theorem sum_64x64 (X : S5000x64.Idx → EReal) (W : S64x64.Idx → EReal) (p : Fin 5000) (q : Fin 64) :
    (∑ c : dot_S5000x64_S64x64_S5000x64_1_0_0_1_n_n.contr.Idx, X (dot_S5000x64_S64x64_S5000x64_1_0_0_1_n_n.lhsIdx (ix2 p q) c) * W (dot_S5000x64_S64x64_S5000x64_1_0_0_1_n_n.rhsIdx (ix2 p q) c))
      = ∑ k : Fin 64, X (ix2 p k) * W (ix2 k q) := by
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs0_64x64 _ _
    | ⟨1, _⟩ => exact (lhs1_64x64 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs0_64x64 _ _).trans hk
    | ⟨1, _⟩ => exact rhs1_64x64 _ _)
  rw [el, er]

/-- Entry (p, q) of the second product's payload. The left operand is first recast from its shape onto the same shape,
    which is the identity; narrowing an operand is the identity on the extended reals, and the accumulator is zero. -/
theorem pay2_apply (x : FVec Ideal S5000x64 .f32) (w : FVec Ideal S64x64 .f32) (p : Fin 5000) (q : Fin 64) :
    k2_pay1 (F := Ideal) x w (ix2 p q) = ∑ k : Fin 64, x (ix2 p k) * w (ix2 k q) := by
  unfold k2_pay1
  refine (Ideal.matmul_constant_zero_apply dot_S5000x64_S64x64_S5000x64_1_0_0_1_n_n none _ _ (ix2 p q)).trans ?_
  refine (sum_64x64 (shapeCast S5000x64 x Cert.KernelIdeal.Facts₀.shapeCasts_S5000x64_S5000x64) w p q).trans ?_
  rw [shapeCast_self]

/-! ### The 5000 × 64 by 64 × 40 product -/

/-- The left operand's index on its free axis (rows) is the output's row. -/
theorem lhs0_64x40 (i : S5000x40.Idx) (c : dot_S5000x64_S64x40_S5000x40_1_0_0_1_n_n.contr.Idx) :
    (dot_S5000x64_S64x40_S5000x40_1_0_0_1_n_n.lhsIdx i c 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's index on its contracted axis (columns) is the contraction position. -/
theorem lhs1_64x40 (i : S5000x40.Idx) (c : dot_S5000x64_S64x40_S5000x40_1_0_0_1_n_n.contr.Idx) :
    (dot_S5000x64_S64x40_S5000x40_1_0_0_1_n_n.lhsIdx i c 1).val = (c ⟨0, by decide⟩).val :=
  dot_S5000x64_S64x40_S5000x40_1_0_0_1_n_n.lhsIdx_val_of_single rfl i c
/-- The right operand's index on its contracted axis (rows) is the contraction position. -/
theorem rhs0_64x40 (i : S5000x40.Idx) (c : dot_S5000x64_S64x40_S5000x40_1_0_0_1_n_n.contr.Idx) :
    (dot_S5000x64_S64x40_S5000x40_1_0_0_1_n_n.rhsIdx i c 0).val = (c ⟨0, by decide⟩).val :=
  dot_S5000x64_S64x40_S5000x40_1_0_0_1_n_n.rhsIdx_val_of_single rfl i c
/-- The right operand's index on its free axis (columns) is the output's column. -/
theorem rhs1_64x40 (i : S5000x40.Idx) (c : dot_S5000x64_S64x40_S5000x40_1_0_0_1_n_n.contr.Idx) :
    (dot_S5000x64_S64x40_S5000x40_1_0_0_1_n_n.rhsIdx i c 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The sum over the contraction index set, re-indexed by the contracted extent: entry (p, q) is
    the sum over k of X (p, k) · W (k, q). -/
theorem sum_64x40 (X : S5000x64.Idx → EReal) (W : S64x40.Idx → EReal) (p : Fin 5000) (q : Fin 40) :
    (∑ c : dot_S5000x64_S64x40_S5000x40_1_0_0_1_n_n.contr.Idx, X (dot_S5000x64_S64x40_S5000x40_1_0_0_1_n_n.lhsIdx (ix2 p q) c) * W (dot_S5000x64_S64x40_S5000x40_1_0_0_1_n_n.rhsIdx (ix2 p q) c))
      = ∑ k : Fin 64, X (ix2 p k) * W (ix2 k q) := by
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact lhs0_64x40 _ _
    | ⟨1, _⟩ => exact (lhs1_64x40 _ _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (rhs0_64x40 _ _).trans hk
    | ⟨1, _⟩ => exact rhs1_64x40 _ _)
  rw [el, er]

/-- Entry (p, q) of the third product's payload. The left operand is first recast from its shape onto the same shape,
    which is the identity; narrowing an operand is the identity on the extended reals, and the accumulator is zero. -/
theorem pay4_apply (x : FVec Ideal S5000x64 .f32) (w : FVec Ideal S64x40 .f32) (p : Fin 5000) (q : Fin 40) :
    k4_pay1 (F := Ideal) x w (ix2 p q) = ∑ k : Fin 64, x (ix2 p k) * w (ix2 k q) := by
  unfold k4_pay1
  refine (Ideal.matmul_constant_zero_apply dot_S5000x64_S64x40_S5000x40_1_0_0_1_n_n none _ _ (ix2 p q)).trans ?_
  refine (sum_64x40 (shapeCast S5000x64 x Cert.KernelIdeal.Facts₀.shapeCasts_S5000x64_S5000x64) w p q).trans ?_
  rw [shapeCast_self]

end Cert.KernelIdeal.Pay
end
-- ==== Proof.Chain0.lean ====
/-
  The first matrix product in the kernel's fold.

  Region 0 finds the node features and the first weights as the three opening stretches of host operations left them
  (they only compute the graph normalisation, in other buffers) and leaves their product in its result array; the
  edge arrays, the normalisation and the later layers' arguments pass through the region untouched.
-/
import proofs.«146042_j24257975287854_1_alg».proof.Proof.Gen.KernelIdeal.Frame
import proofs.«146042_j24257975287854_1_alg».proof.Proof.Region0
import proofs.«146042_j24257975287854_1_alg».proof.Proof.PayMatmul

set_option maxRecDepth 16384

noncomputable section

open Idealize.ShloMosaic Idealize.ShloMosaic.TcCoe Idealize.SL.Sem Idealize.ShloMosaic.ValueIdx

namespace Cert.KernelIdeal.Chain0

open Cert.KernelIdeal Cert.KernelIdeal.Gen

variable [Cert.KernelIdeal.Facts]
variable (m : (ℓ : Loc nD τ sig) → Buf (Elt Ideal) ℓ) (ρ : Dev nD → PrngReg)

/-- After region 0 its result array holds the product of the features and the weights as the region found them. -/
theorem product (c : Dev nD) :
    W4 m ρ c (Proc.devRef .tc main_v31)
      = Cert.Spec.mm (W3 m ρ c (Proc.devRef .tc main_arg0) : S50000x128.Idx → EReal) (W3 m ρ c (Proc.devRef .tc main_arg2) : S128x64.Idx → EReal) :=
  (W4_arr m ρ c 2).trans (Cert.KernelIdeal.Region0.final (V3 m ρ) Cert.KernelIdeal.Pay.pay0_apply c)

/-- Region 0 leaves the buffers the later layers read as they were. -/
theorem kept (c : Dev nD) (b : Ref sig .tc)
    (hb : b ∈ [main_v3, main_v6, main_v30, main_arg3, main_arg4, main_arg5, main_arg6, main_arg7]) :
    W4 m ρ c (Proc.devRef .tc b) = W3 m ρ c (Proc.devRef .tc b) := by
  have hne : ∀ w, Pipeline.arrRef spec0 w ≠ b := by
    simp only [List.mem_cons, List.mem_singleton, List.not_mem_nil, or_false] at hb
    rcases hb with rfl | rfl | rfl | rfl | rfl | rfl | rfl | rfl <;> decide
  exact W4_of_ne m ρ c b hne

end Cert.KernelIdeal.Chain0

end
-- ==== Proof.SpecRow.lean ====
/-
  Two small companions of the specification, in the shape the kernel's regions meet them.

  The kernel's bias regions read the bias as a [1, N] array (the host reshapes the [N] vector first), so block by block
  they compute `biasClampRow A B` / `biasRow A B`: entry (p, q) is max (A (p, q) + B (0, q)) 0, resp. A (p, q) + B (0, q).
  When row 0 of B is the vector b these are `biasClamp A b` and `bias A b`.

  An entry of the log-softmax depends only on its own row: two arrays that agree on a row agree there.
-/
import proofs.«146042_j24257975287854_1_alg».proof.Proof.Spec

noncomputable section

open scoped BigOperators

namespace Cert.Spec

open Idealize.ShloMosaic Idealize.ShloMosaic.ValueIdx

/-- A [1, N] row added to every row, then the clamp at zero. -/
def biasClampRow {n N : Nat} (A : FVec Ideal ⟨2, ![n, N]⟩ .f32) (B : FVec Ideal ⟨2, ![1, N]⟩ .f32) :
    FVec Ideal ⟨2, ![n, N]⟩ .f32 :=
  fun i => max (A i + B (ix2 (0 : Fin 1) (i 1))) zeroWord

theorem biasClampRow_apply {n N : Nat} (A : FVec Ideal ⟨2, ![n, N]⟩ .f32) (B : FVec Ideal ⟨2, ![1, N]⟩ .f32)
    (p : Fin n) (q : Fin N) : biasClampRow A B (ix2 p q) = max (A (ix2 p q) + B (ix2 (0 : Fin 1) q)) zeroWord := rfl

/-- A [1, N] row added to every row. -/
def biasRow {n N : Nat} (A : FVec Ideal ⟨2, ![n, N]⟩ .f32) (B : FVec Ideal ⟨2, ![1, N]⟩ .f32) :
    FVec Ideal ⟨2, ![n, N]⟩ .f32 :=
  fun i => A i + B (ix2 (0 : Fin 1) (i 1))

theorem biasRow_apply {n N : Nat} (A : FVec Ideal ⟨2, ![n, N]⟩ .f32) (B : FVec Ideal ⟨2, ![1, N]⟩ .f32)
    (p : Fin n) (q : Fin N) : biasRow A B (ix2 p q) = A (ix2 p q) + B (ix2 (0 : Fin 1) q) := rfl

/-- When row 0 of B is the vector b, adding B to every row is adding b. -/
theorem biasClampRow_eq {n N : Nat} (A : FVec Ideal ⟨2, ![n, N]⟩ .f32) (B : FVec Ideal ⟨2, ![1, N]⟩ .f32)
    (b : FVec Ideal ⟨1, ![N]⟩ .f32) (h : ∀ q : Fin N, B (ix2 (0 : Fin 1) q) = b (ix1 q)) :
    biasClampRow A B = biasClamp A b := by
  funext i
  obtain ⟨p, q, rfl⟩ : ∃ (p : Fin n) (q : Fin N), i = ix2 p q := ⟨i 0, i 1, eq_ix2 i⟩
  rw [biasClampRow_apply, biasClamp_apply, h]

theorem biasRow_eq {n N : Nat} (A : FVec Ideal ⟨2, ![n, N]⟩ .f32) (B : FVec Ideal ⟨2, ![1, N]⟩ .f32)
    (b : FVec Ideal ⟨1, ![N]⟩ .f32) (h : ∀ q : Fin N, B (ix2 (0 : Fin 1) q) = b (ix1 q)) :
    biasRow A B = bias A b := by
  funext i
  obtain ⟨p, q, rfl⟩ : ∃ (p : Fin n) (q : Fin N), i = ix2 p q := ⟨i 0, i 1, eq_ix2 i⟩
  rw [biasRow_apply, bias_apply, h]

/-- The largest entry of a row depends only on that row. -/
theorem rowMax_congr {n n' N : Nat} (x : FVec Ideal ⟨2, ![n, N]⟩ .f32) (X : FVec Ideal ⟨2, ![n', N]⟩ .f32)
    (p : Fin n) (p' : Fin n') (h : ∀ j : Fin N, x (ix2 p j) = X (ix2 p' j)) : rowMax x p = rowMax X p' := by
  unfold rowMax
  have e : (fun j : Fin N => x (ix2 p j)) = fun j => X (ix2 p' j) := funext h
  rw [e]

/-- An entry of the log-softmax depends only on its own row. -/
theorem logSoftmax_congr {n n' N : Nat} (x : FVec Ideal ⟨2, ![n, N]⟩ .f32) (X : FVec Ideal ⟨2, ![n', N]⟩ .f32)
    (p : Fin n) (p' : Fin n') (h : ∀ j : Fin N, x (ix2 p j) = X (ix2 p' j)) (q : Fin N) :
    logSoftmax x (ix2 p q) = logSoftmax X (ix2 p' q) := by
  rw [logSoftmax_apply, logSoftmax_apply, rowMax_congr x X p p' h, h q]
  exact congrArg _ (congrArg _ (Finset.sum_congr rfl fun j _ => by rw [h j]))

end Cert.Spec

end
-- ==== Proof.Region1.lean ====
/-
  Region 1: the first bias and clamp, block by block.

  The grid has ten points; point t loads rows 5000·t … 5000·t + 4999 of the aggregated features and the whole [1, 64]
  bias row, and writes back the same rows with the bias added and clamped at zero. The step is entrywise in the features,
  so block t of the result of the whole arrays is the result on block t: the ten write-backs tile the result array.
-/
import proofs.«146042_j24257975287854_1_alg».proof.Proof.Gen.KernelIdeal.Frame
import proofs.«146042_j24257975287854_1_alg».proof.Proof.SpecRow
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the bias row at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The features' block at point t is rows 5000·t … of the aggregated array. -/
theorem iblk_lhs (c : Dev nD) (t : Fin cfg1.N) (x : S5000x64.Idx) (k : S50000x64.Idx)
    (hk0 : (k 0).val = t.val * 5000 + (x 0).val) (hk1 : (k 1).val = (x 1).val) :
    (iblk1 V c 0 t : Vec Ideal S5000x64 .f32) x = (V c main_v44 : S50000x64.Idx → EReal) k := by
  obtain ⟨e0, e1, -⟩ := idx_facts t
  unfold iblk1
  rw [View.read_apply]
  show V c main_v44 _ = V c main_v44 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The bias window's block at every point is the whole [1, 64] row. -/
theorem iblk_rhs (c : Dev nD) (t : Fin cfg1.N) (x : S1x64.Idx) :
    (iblk1 V c 1 t : Vec Ideal S1x64 .f32) x = (V c main_v45 : S1x64.Idx → EReal) x := by
  obtain ⟨-, -, e0, e1, -⟩ := idx_facts t
  unfold iblk1
  rw [View.read_apply]
  show V c main_v45 _ = V c main_v45 _
  congr 1
  funext a
  apply Fin.ext
  match a with
  | ⟨0, _⟩ => show win1_1.index t 0 * 1 + 1 * (x 0).val = (x 0).val; rw [e0]; omega
  | ⟨1, _⟩ => show win1_1.index t 1 * 64 + 1 * (x 1).val = (x 1).val; rw [e1]; omega

/-- One block: if x is rows 5000·tv … of X and b is B, entry y of the payload is entry (5000·tv + y₀, y₁) of the
    step applied to the whole arrays. -/
theorem block_eq (hpay : ∀ (x : FVec Ideal S5000x64 .f32) (b : FVec Ideal S1x64 .f32) (p : Fin 5000) (q : Fin 64),
      k1_pay1 (F := Ideal) x b (ix2 p q) = max (x (ix2 p q) + b (ix2 (0 : Fin 1) q)) Cert.Spec.zeroWord)
    (X : S50000x64.Idx → EReal) (B : S1x64.Idx → EReal) (x : FVec Ideal S5000x64 .f32) (b : FVec Ideal S1x64 .f32) (tv : Nat)
    (hx : ∀ (y : S5000x64.Idx) (k : S50000x64.Idx), (k 0).val = tv * 5000 + (y 0).val → (k 1).val = (y 1).val → x y = X k)
    (hb : ∀ y : S1x64.Idx, b y = B y)
    (y : S5000x64.Idx) (i : S50000x64.Idx) (hi0 : (i 0).val = tv * 5000 + (y 0).val) (hi1 : (i 1).val = (y 1).val) :
    k1_pay1 (F := Ideal) x b y = Cert.Spec.biasClampRow X B i := by
  obtain ⟨p, q, rfl⟩ : ∃ (p : Fin 5000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext hi1
  subst hq
  rw [hpay, Cert.Spec.biasClampRow_apply, hx (ix2 p q') (ix2 p' q') hi0 rfl, hb]

/-- What point t writes back is block t of the step applied to the arrays as the region finds them. -/
theorem flushed (hpay : ∀ (x : FVec Ideal S5000x64 .f32) (b : FVec Ideal S1x64 .f32) (p : Fin 5000) (q : Fin 64),
      k1_pay1 (F := Ideal) x b (ix2 p q) = max (x (ix2 p q) + b (ix2 (0 : Fin 1) q)) Cert.Spec.zeroWord)
    (c : Dev nD) (t : Fin cfg1.N) :
    (dat1 V c).flushed 2 t = ((cfg1.win 2).blk t).view.read (Elt Ideal)
      (Cert.Spec.biasClampRow (V c main_v44 : S50000x64.Idx → EReal) (V c main_v45 : S1x64.Idx → EReal)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨-, -, -, -, e0, e1, -⟩ := idx_facts t
  funext j
  show k1_pay1 (F := Ideal) (iblk1 V c 0 t) (iblk1 V c 1 t) j = Cert.Spec.biasClampRow _ _ (((cfg1.win 2).blk t).view.emb j)
  refine block_eq hpay _ _ _ _ t.val (fun y k h0 h1 => iblk_lhs V c t y k h0 h1) (fun y => iblk_rhs V c t y) j _ ?_ ?_
  · show win1_2.index t 0 * 5000 + 1 * (j 0).val = t.val * 5000 + (j 0).val; rw [e0]; omega
  · show win1_2.index t 1 * 64 + 1 * (j 1).val = (j 1).val; rw [e1]; omega

/-- An index of the result array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- The result array after the region: the step applied to the arrays as the region finds them. -/
theorem final (hpay : ∀ (x : FVec Ideal S5000x64 .f32) (b : FVec Ideal S1x64 .f32) (p : Fin 5000) (q : Fin 64),
      k1_pay1 (F := Ideal) x b (ix2 p q) = max (x (ix2 p q) + b (ix2 (0 : Fin 1) q)) Cert.Spec.zeroWord)
    (c : Dev nD) :
    (dat1 V c).arrAt 2 cfg1.N = Cert.Spec.biasClampRow (V c main_v44 : S50000x64.Idx → EReal) (V c main_v45 : S1x64.Idx → EReal) :=
  (dat1 V c).arrAt_eq_of_cover 2 _ (fun t _ => flushed V hpay c t) fun i => by
    have hi0 : (i 0).val < 50000 := (i 0).isLt
    have hi1 : (i 1).val < 64 := (i 1).isLt
    let t : Fin cfg1.N := ⟨(i 0).val / 5000, by rw [show cfg1.N = 10 from N_1]; omega⟩
    obtain ⟨-, -, -, -, e0, e1, -⟩ := idx_facts t
    refine ⟨t, flush1_2 t, ?_⟩
    rw [mem_blk]
    intro a
    match a with
    | ⟨0, _⟩ => show win1_2.index t 0 * 5000 ≤ (i 0).val ∧ (i 0).val < win1_2.index t 0 * 5000 + 5000; rw [e0]; show (i 0).val / 5000 * 5000 ≤ (i 0).val ∧ (i 0).val < (i 0).val / 5000 * 5000 + 5000; omega
    | ⟨1, _⟩ => show win1_2.index t 1 * 64 ≤ (i 1).val ∧ (i 1).val < win1_2.index t 1 * 64 + 64; rw [e1]; omega

end Cert.KernelIdeal.Region1

end
-- ==== Proof.Region2.lean ====
/-
  Region 2: the second matrix product (the first layer's output times the second weights), block by block.

  The grid has ten points; point t loads rows 5000·t … 5000·t + 4999 of the left factor and the whole weight
  matrix, and writes back the same rows of the product. An entry of a product depends only on its own row of the
  left factor, so block t of the product of the whole arrays is the product of block t with the weights: the ten
  write-backs tile the result array, which therefore ends holding the product of the arrays as the region found them.
-/
import proofs.«146042_j24257975287854_1_alg».proof.Proof.Gen.KernelIdeal.Frame
import proofs.«146042_j24257975287854_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The left factor's block at point t is rows 5000·t … of the left array. -/
theorem iblk_lhs (c : Dev nD) (t : Fin cfg2.N) (x : S5000x64.Idx) (k : S50000x64.Idx)
    (hk0 : (k 0).val = t.val * 5000 + (x 0).val) (hk1 : (k 1).val = (x 1).val) :
    (iblk2 V c 0 t : Vec Ideal S5000x64 .f32) x = (V c main_v46 : S50000x64.Idx → EReal) k := by
  obtain ⟨e0, e1, -⟩ := idx_facts t
  unfold iblk2
  rw [View.read_apply]
  show V c main_v46 _ = V c main_v46 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The right factor's block at every point is the whole weight matrix. -/
theorem iblk_rhs (c : Dev nD) (t : Fin cfg2.N) (x : S64x64.Idx) :
    (iblk2 V c 1 t : Vec Ideal S64x64 .f32) x = (V c main_arg4 : S64x64.Idx → EReal) x := by
  obtain ⟨-, -, e0, e1, -⟩ := idx_facts t
  unfold iblk2
  rw [View.read_apply]
  show V c main_arg4 _ = V c main_arg4 _
  congr 1
  funext a
  apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- One block of the product: if x is rows 5000·tv … of X and w is W, entry y of the payload is entry
    (5000·tv + y₀, y₁) of the product of the whole arrays. -/
theorem block_eq (hpay : ∀ (x : FVec Ideal S5000x64 .f32) (w : FVec Ideal S64x64 .f32) (p : Fin 5000) (q : Fin 64),
      k2_pay1 (F := Ideal) x w (ix2 p q) = ∑ k : Fin 64, x (ix2 p k) * w (ix2 k q))
    (X : S50000x64.Idx → EReal) (W : S64x64.Idx → EReal) (x : FVec Ideal S5000x64 .f32) (w : FVec Ideal S64x64 .f32) (tv : Nat)
    (hx : ∀ (y : S5000x64.Idx) (k : S50000x64.Idx), (k 0).val = tv * 5000 + (y 0).val → (k 1).val = (y 1).val → x y = X k)
    (hw : ∀ y : S64x64.Idx, w y = W y)
    (y : S5000x64.Idx) (i : S50000x64.Idx) (hi0 : (i 0).val = tv * 5000 + (y 0).val) (hi1 : (i 1).val = (y 1).val) :
    k2_pay1 (F := Ideal) x w y = Cert.Spec.mm X W i := by
  obtain ⟨p, q, rfl⟩ : ∃ (p : Fin 5000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext hi1
  subst hq
  rw [hpay, Cert.Spec.mm_apply]
  refine Finset.sum_congr rfl fun k _ => ?_
  rw [hx (ix2 p k) (ix2 p' k) hi0 rfl, hw]

/-- What point t writes back is block t of the product of the arrays as the region finds them. -/
theorem flushed (hpay : ∀ (x : FVec Ideal S5000x64 .f32) (w : FVec Ideal S64x64 .f32) (p : Fin 5000) (q : Fin 64),
      k2_pay1 (F := Ideal) x w (ix2 p q) = ∑ k : Fin 64, x (ix2 p k) * w (ix2 k q))
    (c : Dev nD) (t : Fin cfg2.N) :
    (dat2 V c).flushed 2 t = ((cfg2.win 2).blk t).view.read (Elt Ideal)
      (Cert.Spec.mm (V c main_v46 : S50000x64.Idx → EReal) (V c main_arg4 : S64x64.Idx → EReal)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e0, e1, -⟩ := idx_facts t
  funext j
  show k2_pay1 (F := Ideal) (iblk2 V c 0 t) (iblk2 V c 1 t) j = Cert.Spec.mm _ _ (((cfg2.win 2).blk t).view.emb j)
  refine block_eq hpay _ _ _ _ t.val (fun y k h0 h1 => iblk_lhs V c t y k h0 h1) (fun y => iblk_rhs V c t y) j _ ?_ ?_
  · show win2_2.index t 0 * 5000 + 1 * (j 0).val = t.val * 5000 + (j 0).val; rw [e0]; omega
  · show win2_2.index t 1 * 64 + 1 * (j 1).val = (j 1).val; rw [e1]; omega

/-- An index of the result array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- The result array after the region: the product of the arrays as the region finds them. -/
theorem final (hpay : ∀ (x : FVec Ideal S5000x64 .f32) (w : FVec Ideal S64x64 .f32) (p : Fin 5000) (q : Fin 64),
      k2_pay1 (F := Ideal) x w (ix2 p q) = ∑ k : Fin 64, x (ix2 p k) * w (ix2 k q))
    (c : Dev nD) :
    (dat2 V c).arrAt 2 cfg2.N = Cert.Spec.mm (V c main_v46 : S50000x64.Idx → EReal) (V c main_arg4 : S64x64.Idx → EReal) :=
  (dat2 V c).arrAt_eq_of_cover 2 _ (fun t _ => flushed V hpay c t) fun i => by
    have hi0 : (i 0).val < 50000 := (i 0).isLt
    have hi1 : (i 1).val < 64 := (i 1).isLt
    let t : Fin cfg2.N := ⟨(i 0).val / 5000, by rw [show cfg2.N = 10 from N_2]; omega⟩
    obtain ⟨-, -, -, -, e0, e1, -⟩ := idx_facts t
    refine ⟨t, flush2_2 t, ?_⟩
    rw [mem_blk]
    intro a
    match a with
    | ⟨0, _⟩ => show win2_2.index t 0 * 5000 ≤ (i 0).val ∧ (i 0).val < win2_2.index t 0 * 5000 + 5000; rw [e0]; show (i 0).val / 5000 * 5000 ≤ (i 0).val ∧ (i 0).val < (i 0).val / 5000 * 5000 + 5000; omega
    | ⟨1, _⟩ => show win2_2.index t 1 * 64 ≤ (i 1).val ∧ (i 1).val < win2_2.index t 1 * 64 + 64; rw [e1]; omega

end Cert.KernelIdeal.Region2

end
-- ==== Proof.PayBias.lean ====
/-
  The bias steps of the kernel, read at one entry.

  Each of the three bias regions loads a block x of 5000 rows and the bias as a one-row array b of shape [1, N],
  recasts each onto its own shape (the identity), repeats the one row of b down the 5000 rows, and adds; the first
  two regions then take the entrywise maximum with the constant array whose every entry is the word 0x00000000.
  So entry (p, q) of the result is x (p, q) + b (0, q), clamped at that word in the first two regions.

  The one-row array itself is made on the host from the bias vector of shape [N] by a reshape, which keeps the
  row-major order: entry (0, q) of the row is entry q of the vector.
-/
import proofs.«146042_j24257975287854_1_alg».proof.Proof.Gen.KernelIdeal.Skeleton
import proofs.«146042_j24257975287854_1_alg».proof.Proof.Spec
import Idealize.ShloMosaic.Lib.ValueIdx
import Idealize.ShloMosaic.Lib.ValueLayout
import Idealize.ShloMosaic.Lib.Pipeline.Value

noncomputable section

namespace Cert.KernelIdeal.Pay
open Cert.KernelIdeal Cert.KernelIdeal.Gen Idealize.ShloMosaic Idealize.ShloMosaic.ValueIdx
variable [Cert.KernelIdeal.Facts]
open Cert.KernelIdeal.Facts₀ Cert.KernelIdeal.Facts

/-- A block recast onto its own shape, plus the one row of `b` repeated down the rows, read at (p, q). -/
theorem rowBiasAdd_apply {a n : Nat} (x : FVec Ideal ⟨2, ![a, n]⟩ .f32) (b : FVec Ideal ⟨2, ![1, n]⟩ .f32)
    (hx : (⟨2, ![a, n]⟩ : Shape).ShapeCasts ⟨2, ![a, n]⟩) (hb : (⟨2, ![1, n]⟩ : Shape).ShapeCasts ⟨2, ![1, n]⟩)
    (hbc : (⟨2, ![1, n]⟩ : Shape).Broadcasts ⟨2, ![a, n]⟩) (p : Fin a) (q : Fin n) :
    addf (shapeCast ⟨2, ![a, n]⟩ x hx) (broadcastTo ⟨2, ![a, n]⟩ (shapeCast ⟨2, ![1, n]⟩ b hb) hbc) (ix2 p q)
      = x (ix2 p q) + b (ix2 (0 : Fin 1) q) := by
  rw [shapeCast_self, shapeCast_self, addf_apply, broadcastTo_1b_ab_apply]

/-- The splat of the word 0x00000000 reads, at every entry, that word as an extended real. -/
theorem zeroSplat_apply {s : Shape} (i : s.Idx) :
    broadcast s (Scalar.ofBits (F := Ideal) .f32 0x00000000#32) i = Cert.Spec.zeroWord := rfl

/-- Entry (p, q) of the first bias region: the sum of the block's entry and the row's entry, clamped at zero. -/
theorem pay1_apply (x : FVec Ideal S5000x64 .f32) (b : FVec Ideal S1x64 .f32) (p : Fin 5000) (q : Fin 64) :
    k1_pay1 (F := Ideal) x b (ix2 p q) = max (x (ix2 p q) + b (ix2 (0 : Fin 1) q)) Cert.Spec.zeroWord := by
  unfold k1_pay1
  refine (maximumf_apply _ _ _).trans ?_
  exact congrArg₂ max (rowBiasAdd_apply x b _ _ _ p q) (zeroSplat_apply _)

/-- Entry (p, q) of the second bias region: the same arithmetic as the first. -/
theorem pay3_apply (x : FVec Ideal S5000x64 .f32) (b : FVec Ideal S1x64 .f32) (p : Fin 5000) (q : Fin 64) :
    k3_pay1 (F := Ideal) x b (ix2 p q) = max (x (ix2 p q) + b (ix2 (0 : Fin 1) q)) Cert.Spec.zeroWord := by
  unfold k3_pay1
  refine (maximumf_apply _ _ _).trans ?_
  exact congrArg₂ max (rowBiasAdd_apply x b _ _ _ p q) (zeroSplat_apply _)

/-- Entry (p, q) of the last bias region: the sum only, no clamp. -/
theorem pay5_apply (x : FVec Ideal S5000x40 .f32) (b : FVec Ideal S1x40 .f32) (p : Fin 5000) (q : Fin 40) :
    k5_pay1 (F := Ideal) x b (ix2 p q) = x (ix2 p q) + b (ix2 (0 : Fin 1) q) := by
  unfold k5_pay1
  exact rowBiasAdd_apply x b _ _ _ p q

/-- The host's reshape of the 64-entry bias into one row keeps the entries: (0, q) of the row is q of the vector. -/
theorem hostRow64 (b : FVec Ideal S64 .f32) (q : Fin 64) :
    shapeCast S1x64 b Facts₀.shapeCasts_S64_S1x64 (ix2 (0 : Fin 1) q) = b (ix1 q) :=
  shapeCast_a_1a_apply b _ 0 q

/-- The host's reshape of the 40-entry bias into one row keeps the entries: (0, q) of the row is q of the vector. -/
theorem hostRow40 (b : FVec Ideal S40 .f32) (q : Fin 40) :
    shapeCast S1x40 b Facts₀.shapeCasts_S40_S1x40 (ix2 (0 : Fin 1) q) = b (ix1 q) :=
  shapeCast_a_1a_apply b _ 0 q

end Cert.KernelIdeal.Pay
end
-- ==== Proof.Chain1.lean ====
/-
  Layer 1's dense half: from the contents at W4's boundary to the next matrix product.

  Between two boundaries of the kernel's fold lie one stretch of host operations (it mixes the previous product along
  the edges into main_v44, and reshapes the bias vector into the [1, 64] row main_v45), the bias-and-clamp region and the
  next matrix-product region. The stretch is taken here as three facts about an arbitrary valuation (what it writes
  into its two results, and that it leaves the other buffers alone); each region's result array is the specification's
  function of its entry contents. Chained: the product's array ends at
      mm (biasClamp (mix previous-product) bias) weights
  of the contents at the previous boundary, and the buffers the later layers read are untouched.
-/
import proofs.«146042_j24257975287854_1_alg».proof.Proof.Gen.KernelIdeal.Frame
import proofs.«146042_j24257975287854_1_alg».proof.Proof.Region1
import proofs.«146042_j24257975287854_1_alg».proof.Proof.Region2
import proofs.«146042_j24257975287854_1_alg».proof.Proof.PayBias
import proofs.«146042_j24257975287854_1_alg».proof.Proof.PayMatmul

set_option maxRecDepth 16384

noncomputable section

open Idealize.ShloMosaic Idealize.ShloMosaic.TcCoe Idealize.SL.Sem Idealize.ShloMosaic.ValueIdx

namespace Cert.KernelIdeal.Chain1

open Cert.KernelIdeal Cert.KernelIdeal.Gen

variable [Cert.KernelIdeal.Facts]
variable (m : (ℓ : Loc nD τ sig) → Buf (Elt Ideal) ℓ) (ρ : Dev nD → PrngReg)

-- the mixing along the edges, whatever it is: a function of the previous product and of the three edge arrays
variable (agg : (S50000x64.Idx → EReal) → (S850000.Idx → BitVec 32) → (S850000.Idx → BitVec 32) → (S850000.Idx → EReal) → (S50000x64.Idx → EReal))

theorem layer
    (hagg : ∀ W : Valuation τ sig (Elt Ideal), StableHlo.after hostOps1 W (Proc.devRef .tc main_v44)
      = agg (W (Proc.devRef .tc main_v31)) (W (Proc.devRef .tc main_v3)) (W (Proc.devRef .tc main_v6)) (W (Proc.devRef .tc main_v30)))
    (hrow : ∀ W : Valuation τ sig (Elt Ideal), StableHlo.after hostOps1 W (Proc.devRef .tc main_v45)
      = shapeCast S1x64 (W (Proc.devRef .tc main_arg3)) Facts₀.shapeCasts_S64_S1x64)
    (hkeep : ∀ W : Valuation τ sig (Elt Ideal), StableHlo.after hostOps1 W (Proc.devRef .tc main_arg4) = W (Proc.devRef .tc main_arg4))
    (c : Dev nD) :
    W7 m ρ c (Proc.devRef .tc main_v47)
      = Cert.Spec.mm (Cert.Spec.biasClamp
          (agg (W4 m ρ c (Proc.devRef .tc main_v31)) (W4 m ρ c (Proc.devRef .tc main_v3)) (W4 m ρ c (Proc.devRef .tc main_v6)) (W4 m ρ c (Proc.devRef .tc main_v30)))
          (W4 m ρ c (Proc.devRef .tc main_arg3) : S64.Idx → EReal))
        (W4 m ρ c (Proc.devRef .tc main_arg4) : S64x64.Idx → EReal) := by
  have h1 : W7 m ρ c (Proc.devRef .tc main_v47)
      = Cert.Spec.mm (V6 m ρ c main_v46 : S50000x64.Idx → EReal) (V6 m ρ c main_arg4 : S64x64.Idx → EReal) :=
    (W7_arr m ρ c 2).trans (Cert.KernelIdeal.Region2.final (V6 m ρ) Cert.KernelIdeal.Pay.pay2_apply c)
  have h2 : W6 m ρ c (Proc.devRef .tc main_v46)
      = Cert.Spec.biasClampRow (V5 m ρ c main_v44 : S50000x64.Idx → EReal) (V5 m ρ c main_v45 : S1x64.Idx → EReal) :=
    (W6_arr m ρ c 2).trans (Cert.KernelIdeal.Region1.final (V5 m ρ) Cert.KernelIdeal.Pay.pay1_apply c)
  have h3 : W6 m ρ c (Proc.devRef .tc main_arg4) = W4 m ρ c (Proc.devRef .tc main_arg4) :=
    (W6_of_ne m ρ c main_arg4 (by decide)).trans (hkeep (W4 m ρ c))
  have h4 : W5 m ρ c (Proc.devRef .tc main_v44)
      = agg (W4 m ρ c (Proc.devRef .tc main_v31)) (W4 m ρ c (Proc.devRef .tc main_v3)) (W4 m ρ c (Proc.devRef .tc main_v6)) (W4 m ρ c (Proc.devRef .tc main_v30)) :=
    hagg (W4 m ρ c)
  have h5 : W5 m ρ c (Proc.devRef .tc main_v45) = shapeCast S1x64 (W4 m ρ c (Proc.devRef .tc main_arg3)) Facts₀.shapeCasts_S64_S1x64 :=
    hrow (W4 m ρ c)
  refine h1.trans ?_
  show Cert.Spec.mm (W6 m ρ c (Proc.devRef .tc main_v46) : S50000x64.Idx → EReal) (W6 m ρ c (Proc.devRef .tc main_arg4) : S64x64.Idx → EReal) = _
  rw [h2, h3]
  show Cert.Spec.mm (Cert.Spec.biasClampRow (W5 m ρ c (Proc.devRef .tc main_v44) : S50000x64.Idx → EReal) (W5 m ρ c (Proc.devRef .tc main_v45) : S1x64.Idx → EReal)) _ = _
  rw [h4, h5]
  rw [Cert.Spec.biasClampRow_eq _ _ (W4 m ρ c (Proc.devRef .tc main_arg3) : S64.Idx → EReal)
    (fun q => Cert.KernelIdeal.Pay.hostRow64 _ q)]

/-- The two regions and the stretch leave the buffers the later layers read as they were. -/
theorem kept (hkeepb : ∀ (W : Valuation τ sig (Elt Ideal)) (b : Ref sig .tc), b ∈ [main_v3, main_v6, main_v30, main_arg5, main_arg6, main_arg7] →
      StableHlo.after hostOps1 W (Proc.devRef .tc b) = W (Proc.devRef .tc b))
    (c : Dev nD) (b : Ref sig .tc) (hb : b ∈ [main_v3, main_v6, main_v30, main_arg5, main_arg6, main_arg7]) :
    W7 m ρ c (Proc.devRef .tc b) = W4 m ρ c (Proc.devRef .tc b) := by
  have hne1 : ∀ w, Pipeline.arrRef spec2 w ≠ b := by
    simp only [List.mem_cons, List.mem_singleton, List.not_mem_nil, or_false] at hb
    rcases hb with rfl | rfl | rfl | rfl | rfl | rfl <;> decide
  have hne2 : ∀ w, Pipeline.arrRef spec1 w ≠ b := by
    simp only [List.mem_cons, List.mem_singleton, List.not_mem_nil, or_false] at hb
    rcases hb with rfl | rfl | rfl | rfl | rfl | rfl <;> decide
  exact (W7_of_ne m ρ c b hne1).trans ((W6_of_ne m ρ c b hne2).trans (hkeepb (W4 m ρ c) b hb))

end Cert.KernelIdeal.Chain1

end
-- ==== Proof.Region3.lean ====
/-
  Region 3: the second bias and clamp, block by block.

  The grid has ten points; point t loads rows 5000·t … 5000·t + 4999 of the aggregated features and the whole [1, 64]
  bias row, and writes back the same rows with the bias added and clamped at zero. The step is entrywise in the features,
  so block t of the result of the whole arrays is the result on block t: the ten write-backs tile the result array.
-/
import proofs.«146042_j24257975287854_1_alg».proof.Proof.Gen.KernelIdeal.Frame
import proofs.«146042_j24257975287854_1_alg».proof.Proof.SpecRow
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the bias row at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The features' block at point t is rows 5000·t … of the aggregated array. -/
theorem iblk_lhs (c : Dev nD) (t : Fin cfg3.N) (x : S5000x64.Idx) (k : S50000x64.Idx)
    (hk0 : (k 0).val = t.val * 5000 + (x 0).val) (hk1 : (k 1).val = (x 1).val) :
    (iblk3 V c 0 t : Vec Ideal S5000x64 .f32) x = (V c main_v60 : S50000x64.Idx → EReal) k := by
  obtain ⟨e0, e1, -⟩ := idx_facts t
  unfold iblk3
  rw [View.read_apply]
  show V c main_v60 _ = V c main_v60 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The bias window's block at every point is the whole [1, 64] row. -/
theorem iblk_rhs (c : Dev nD) (t : Fin cfg3.N) (x : S1x64.Idx) :
    (iblk3 V c 1 t : Vec Ideal S1x64 .f32) x = (V c main_v61 : S1x64.Idx → EReal) x := by
  obtain ⟨-, -, e0, e1, -⟩ := idx_facts t
  unfold iblk3
  rw [View.read_apply]
  show V c main_v61 _ = V c main_v61 _
  congr 1
  funext a
  apply Fin.ext
  match a with
  | ⟨0, _⟩ => show win3_1.index t 0 * 1 + 1 * (x 0).val = (x 0).val; rw [e0]; omega
  | ⟨1, _⟩ => show win3_1.index t 1 * 64 + 1 * (x 1).val = (x 1).val; rw [e1]; omega

/-- One block: if x is rows 5000·tv … of X and b is B, entry y of the payload is entry (5000·tv + y₀, y₁) of the
    step applied to the whole arrays. -/
theorem block_eq (hpay : ∀ (x : FVec Ideal S5000x64 .f32) (b : FVec Ideal S1x64 .f32) (p : Fin 5000) (q : Fin 64),
      k3_pay1 (F := Ideal) x b (ix2 p q) = max (x (ix2 p q) + b (ix2 (0 : Fin 1) q)) Cert.Spec.zeroWord)
    (X : S50000x64.Idx → EReal) (B : S1x64.Idx → EReal) (x : FVec Ideal S5000x64 .f32) (b : FVec Ideal S1x64 .f32) (tv : Nat)
    (hx : ∀ (y : S5000x64.Idx) (k : S50000x64.Idx), (k 0).val = tv * 5000 + (y 0).val → (k 1).val = (y 1).val → x y = X k)
    (hb : ∀ y : S1x64.Idx, b y = B y)
    (y : S5000x64.Idx) (i : S50000x64.Idx) (hi0 : (i 0).val = tv * 5000 + (y 0).val) (hi1 : (i 1).val = (y 1).val) :
    k3_pay1 (F := Ideal) x b y = Cert.Spec.biasClampRow X B i := by
  obtain ⟨p, q, rfl⟩ : ∃ (p : Fin 5000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  have hq : q' = q := Fin.ext hi1
  subst hq
  rw [hpay, Cert.Spec.biasClampRow_apply, hx (ix2 p q') (ix2 p' q') hi0 rfl, hb]

/-- What point t writes back is block t of the step applied to the arrays as the region finds them. -/
theorem flushed (hpay : ∀ (x : FVec Ideal S5000x64 .f32) (b : FVec Ideal S1x64 .f32) (p : Fin 5000) (q : Fin 64),
      k3_pay1 (F := Ideal) x b (ix2 p q) = max (x (ix2 p q) + b (ix2 (0 : Fin 1) q)) Cert.Spec.zeroWord)
    (c : Dev nD) (t : Fin cfg3.N) :
    (dat3 V c).flushed 2 t = ((cfg3.win 2).blk t).view.read (Elt Ideal)
      (Cert.Spec.biasClampRow (V c main_v60 : S50000x64.Idx → EReal) (V c main_v61 : S1x64.Idx → EReal)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e0, e1, -⟩ := idx_facts t
  funext j
  show k3_pay1 (F := Ideal) (iblk3 V c 0 t) (iblk3 V c 1 t) j = Cert.Spec.biasClampRow _ _ (((cfg3.win 2).blk t).view.emb j)
  refine block_eq hpay _ _ _ _ t.val (fun y k h0 h1 => iblk_lhs V c t y k h0 h1) (fun y => iblk_rhs V c t y) j _ ?_ ?_
  · show win3_2.index t 0 * 5000 + 1 * (j 0).val = t.val * 5000 + (j 0).val; rw [e0]; omega
  · show win3_2.index t 1 * 64 + 1 * (j 1).val = (j 1).val; rw [e1]; omega

/-- An index of the result array is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v62).slice (win3_2.rect t)).set ↔ _
  rw [View.set_slice_whole, Rect.mem_set_unit]
  exact Iff.rfl

/-- The result array after the region: the step applied to the arrays as the region finds them. -/
theorem final (hpay : ∀ (x : FVec Ideal S5000x64 .f32) (b : FVec Ideal S1x64 .f32) (p : Fin 5000) (q : Fin 64),
      k3_pay1 (F := Ideal) x b (ix2 p q) = max (x (ix2 p q) + b (ix2 (0 : Fin 1) q)) Cert.Spec.zeroWord)
    (c : Dev nD) :
    (dat3 V c).arrAt 2 cfg3.N = Cert.Spec.biasClampRow (V c main_v60 : S50000x64.Idx → EReal) (V c main_v61 : S1x64.Idx → EReal) :=
  (dat3 V c).arrAt_eq_of_cover 2 _ (fun t _ => flushed V hpay c t) fun i => by
    have hi0 : (i 0).val < 50000 := (i 0).isLt
    have hi1 : (i 1).val < 64 := (i 1).isLt
    let t : Fin cfg3.N := ⟨(i 0).val / 5000, by rw [show cfg3.N = 10 from N_3]; omega⟩
    obtain ⟨-, -, -, -, e0, e1, -⟩ := idx_facts t
    refine ⟨t, flush3_2 t, ?_⟩
    rw [mem_blk]
    intro a
    match a with
    | ⟨0, _⟩ => show win3_2.index t 0 * 5000 ≤ (i 0).val ∧ (i 0).val < win3_2.index t 0 * 5000 + 5000; rw [e0]; show (i 0).val / 5000 * 5000 ≤ (i 0).val ∧ (i 0).val < (i 0).val / 5000 * 5000 + 5000; omega
    | ⟨1, _⟩ => show win3_2.index t 1 * 64 ≤ (i 1).val ∧ (i 1).val < win3_2.index t 1 * 64 + 64; rw [e1]; omega

end Cert.KernelIdeal.Region3

end
-- ==== Proof.Region4.lean ====
/-
  Region 4: the third matrix product (the second layer's output times the third weights), block by block.

  The grid has ten points; point t loads rows 5000·t … 5000·t + 4999 of the left factor and the whole weight
  matrix, and writes back the same rows of the product. An entry of a product depends only on its own row of the
  left factor, so block t of the product of the whole arrays is the product of block t with the weights: the ten
  write-backs tile the result array, which therefore ends holding the product of the arrays as the region found them.
-/
import proofs.«146042_j24257975287854_1_alg».proof.Proof.Gen.KernelIdeal.Frame
import proofs.«146042_j24257975287854_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the weights at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- The left factor's block at point t is rows 5000·t … of the left array. -/
theorem iblk_lhs (c : Dev nD) (t : Fin cfg4.N) (x : S5000x64.Idx) (k : S50000x64.Idx)
    (hk0 : (k 0).val = t.val * 5000 + (x 0).val) (hk1 : (k 1).val = (x 1).val) :
    (iblk4 V c 0 t : Vec Ideal S5000x64 .f32) x = (V c main_v62 : S50000x64.Idx → EReal) k := by
  obtain ⟨e0, e1, -⟩ := idx_facts t
  unfold iblk4
  rw [View.read_apply]
  show V c main_v62 _ = V c main_v62 _
  congr 1
  funext a
  apply Fin.ext
  match a with
  | ⟨0, _⟩ => show win4_0.index t 0 * 5000 + 1 * (x 0).val = (k 0).val; rw [e0, hk0]; omega
  | ⟨1, _⟩ => show win4_0.index t 1 * 64 + 1 * (x 1).val = (k 1).val; rw [e1, hk1]; omega

/-- The right factor's block at every point is the whole weight matrix. -/
theorem iblk_rhs (c : Dev nD) (t : Fin cfg4.N) (x : S64x40.Idx) :
    (iblk4 V c 1 t : Vec Ideal S64x40 .f32) x = (V c main_arg6 : S64x40.Idx → EReal) x := by
  obtain ⟨-, -, e0, e1, -⟩ := idx_facts t
  unfold iblk4
  rw [View.read_apply]
  show V c main_arg6 _ = V c main_arg6 _
  congr 1
  funext a
  apply Fin.ext
  match a with
  | ⟨0, _⟩ => show win4_1.index t 0 * 64 + 1 * (x 0).val = (x 0).val; rw [e0]; omega
  | ⟨1, _⟩ => show win4_1.index t 1 * 40 + 1 * (x 1).val = (x 1).val; rw [e1]; omega

/-- One block of the product: if x is rows 5000·tv … of X and w is W, entry y of the payload is entry
    (5000·tv + y₀, y₁) of the product of the whole arrays. -/
theorem block_eq (hpay : ∀ (x : FVec Ideal S5000x64 .f32) (w : FVec Ideal S64x40 .f32) (p : Fin 5000) (q : Fin 40),
      k4_pay1 (F := Ideal) x w (ix2 p q) = ∑ k : Fin 64, x (ix2 p k) * w (ix2 k q))
    (X : S50000x64.Idx → EReal) (W : S64x40.Idx → EReal) (x : FVec Ideal S5000x64 .f32) (w : FVec Ideal S64x40 .f32) (tv : Nat)
    (hx : ∀ (y : S5000x64.Idx) (k : S50000x64.Idx), (k 0).val = tv * 5000 + (y 0).val → (k 1).val = (y 1).val → x y = X k)
    (hw : ∀ y : S64x40.Idx, w y = W y)
    (y : S5000x40.Idx) (i : S50000x40.Idx) (hi0 : (i 0).val = tv * 5000 + (y 0).val) (hi1 : (i 1).val = (y 1).val) :
    k4_pay1 (F := Ideal) x w y = Cert.Spec.mm X W i := by
  obtain ⟨p, q, rfl⟩ : ∃ (p : Fin 5000) (q : Fin 40), y = ix2 p q := ⟨y 0, y 1, eq_ix2 y⟩
  obtain ⟨p', q', rfl⟩ : ∃ (p' : Fin 50000) (q' : Fin 40), i = ix2 p' q' := ⟨i 0, i 1, eq_ix2 i⟩
  have hq : q' = q := Fin.ext hi1
  subst hq
  rw [hpay, Cert.Spec.mm_apply]
  refine Finset.sum_congr rfl fun k _ => ?_
  rw [hx (ix2 p k) (ix2 p' k) hi0 rfl, hw]

/-- What point t writes back is block t of the product of the arrays as the region finds them. -/
theorem flushed (hpay : ∀ (x : FVec Ideal S5000x64 .f32) (w : FVec Ideal S64x40 .f32) (p : Fin 5000) (q : Fin 40),
      k4_pay1 (F := Ideal) x w (ix2 p q) = ∑ k : Fin 64, x (ix2 p k) * w (ix2 k q))
    (c : Dev nD) (t : Fin cfg4.N) :
    (dat4 V c).flushed 2 t = ((cfg4.win 2).blk t).view.read (Elt Ideal)
      (Cert.Spec.mm (V c main_v62 : S50000x64.Idx → EReal) (V c main_arg6 : S64x40.Idx → EReal)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x40) hz]
  obtain ⟨-, -, -, -, e0, e1, -⟩ := idx_facts t
  funext j
  show k4_pay1 (F := Ideal) (iblk4 V c 0 t) (iblk4 V c 1 t) j = Cert.Spec.mm _ _ (((cfg4.win 2).blk t).view.emb j)
  refine block_eq hpay _ _ _ _ t.val (fun y k h0 h1 => iblk_lhs V c t y k h0 h1) (fun y => iblk_rhs V c t y) j _ ?_ ?_
  · show win4_2.index t 0 * 5000 + 1 * (j 0).val = t.val * 5000 + (j 0).val; rw [e0]; omega
  · show win4_2.index t 1 * 40 + 1 * (j 1).val = (j 1).val; rw [e1]; omega

/-- An index of the result array is in point t's block iff each coordinate is in the block's range on its axis. -/
theorem mem_blk (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v63).slice (win4_2.rect t)).set ↔ _
  rw [View.set_slice_whole, Rect.mem_set_unit]
  exact Iff.rfl

/-- The result array after the region: the product of the arrays as the region finds them. -/
theorem final (hpay : ∀ (x : FVec Ideal S5000x64 .f32) (w : FVec Ideal S64x40 .f32) (p : Fin 5000) (q : Fin 40),
      k4_pay1 (F := Ideal) x w (ix2 p q) = ∑ k : Fin 64, x (ix2 p k) * w (ix2 k q))
    (c : Dev nD) :
    (dat4 V c).arrAt 2 cfg4.N = Cert.Spec.mm (V c main_v62 : S50000x64.Idx → EReal) (V c main_arg6 : S64x40.Idx → EReal) :=
  (dat4 V c).arrAt_eq_of_cover 2 _ (fun t _ => flushed V hpay c t) fun i => by
    have hi0 : (i 0).val < 50000 := (i 0).isLt
    have hi1 : (i 1).val < 40 := (i 1).isLt
    let t : Fin cfg4.N := ⟨(i 0).val / 5000, by rw [show cfg4.N = 10 from N_4]; omega⟩
    obtain ⟨-, -, -, -, e0, e1, -⟩ := idx_facts t
    refine ⟨t, flush4_2 t, ?_⟩
    rw [mem_blk]
    intro a
    match a with
    | ⟨0, _⟩ => show win4_2.index t 0 * 5000 ≤ (i 0).val ∧ (i 0).val < win4_2.index t 0 * 5000 + 5000; rw [e0]; show (i 0).val / 5000 * 5000 ≤ (i 0).val ∧ (i 0).val < (i 0).val / 5000 * 5000 + 5000; omega
    | ⟨1, _⟩ => show win4_2.index t 1 * 40 ≤ (i 1).val ∧ (i 1).val < win4_2.index t 1 * 40 + 40; rw [e1]; omega

end Cert.KernelIdeal.Region4

end
-- ==== Proof.Chain2.lean ====
/-
  Layer 2's dense half: from the contents at W7's boundary to the next matrix product.

  Between two boundaries of the kernel's fold lie one stretch of host operations (it mixes the previous product along
  the edges into main_v60, and reshapes the bias vector into the [1, 64] row main_v61), the bias-and-clamp region and the
  next matrix-product region. The stretch is taken here as three facts about an arbitrary valuation (what it writes
  into its two results, and that it leaves the other buffers alone); each region's result array is the specification's
  function of its entry contents. Chained: the product's array ends at
      mm (biasClamp (mix previous-product) bias) weights
  of the contents at the previous boundary, and the buffers the later layers read are untouched.
-/
import proofs.«146042_j24257975287854_1_alg».proof.Proof.Gen.KernelIdeal.Frame
import proofs.«146042_j24257975287854_1_alg».proof.Proof.Region3
import proofs.«146042_j24257975287854_1_alg».proof.Proof.Region4
import proofs.«146042_j24257975287854_1_alg».proof.Proof.PayBias
import proofs.«146042_j24257975287854_1_alg».proof.Proof.PayMatmul

set_option maxRecDepth 16384

noncomputable section

open Idealize.ShloMosaic Idealize.ShloMosaic.TcCoe Idealize.SL.Sem Idealize.ShloMosaic.ValueIdx

namespace Cert.KernelIdeal.Chain2

open Cert.KernelIdeal Cert.KernelIdeal.Gen

variable [Cert.KernelIdeal.Facts]
variable (m : (ℓ : Loc nD τ sig) → Buf (Elt Ideal) ℓ) (ρ : Dev nD → PrngReg)

-- the mixing along the edges, whatever it is: a function of the previous product and of the three edge arrays
variable (agg : (S50000x64.Idx → EReal) → (S850000.Idx → BitVec 32) → (S850000.Idx → BitVec 32) → (S850000.Idx → EReal) → (S50000x64.Idx → EReal))

theorem layer
    (hagg : ∀ W : Valuation τ sig (Elt Ideal), StableHlo.after hostOps3 W (Proc.devRef .tc main_v60)
      = agg (W (Proc.devRef .tc main_v47)) (W (Proc.devRef .tc main_v3)) (W (Proc.devRef .tc main_v6)) (W (Proc.devRef .tc main_v30)))
    (hrow : ∀ W : Valuation τ sig (Elt Ideal), StableHlo.after hostOps3 W (Proc.devRef .tc main_v61)
      = shapeCast S1x64 (W (Proc.devRef .tc main_arg5)) Facts₀.shapeCasts_S64_S1x64)
    (hkeep : ∀ W : Valuation τ sig (Elt Ideal), StableHlo.after hostOps3 W (Proc.devRef .tc main_arg6) = W (Proc.devRef .tc main_arg6))
    (c : Dev nD) :
    W10 m ρ c (Proc.devRef .tc main_v63)
      = Cert.Spec.mm (Cert.Spec.biasClamp
          (agg (W7 m ρ c (Proc.devRef .tc main_v47)) (W7 m ρ c (Proc.devRef .tc main_v3)) (W7 m ρ c (Proc.devRef .tc main_v6)) (W7 m ρ c (Proc.devRef .tc main_v30)))
          (W7 m ρ c (Proc.devRef .tc main_arg5) : S64.Idx → EReal))
        (W7 m ρ c (Proc.devRef .tc main_arg6) : S64x40.Idx → EReal) := by
  have h1 : W10 m ρ c (Proc.devRef .tc main_v63)
      = Cert.Spec.mm (V9 m ρ c main_v62 : S50000x64.Idx → EReal) (V9 m ρ c main_arg6 : S64x40.Idx → EReal) :=
    (W10_arr m ρ c 2).trans (Cert.KernelIdeal.Region4.final (V9 m ρ) Cert.KernelIdeal.Pay.pay4_apply c)
  have h2 : W9 m ρ c (Proc.devRef .tc main_v62)
      = Cert.Spec.biasClampRow (V8 m ρ c main_v60 : S50000x64.Idx → EReal) (V8 m ρ c main_v61 : S1x64.Idx → EReal) :=
    (W9_arr m ρ c 2).trans (Cert.KernelIdeal.Region3.final (V8 m ρ) Cert.KernelIdeal.Pay.pay3_apply c)
  have h3 : W9 m ρ c (Proc.devRef .tc main_arg6) = W7 m ρ c (Proc.devRef .tc main_arg6) :=
    (W9_of_ne m ρ c main_arg6 (by decide)).trans (hkeep (W7 m ρ c))
  have h4 : W8 m ρ c (Proc.devRef .tc main_v60)
      = agg (W7 m ρ c (Proc.devRef .tc main_v47)) (W7 m ρ c (Proc.devRef .tc main_v3)) (W7 m ρ c (Proc.devRef .tc main_v6)) (W7 m ρ c (Proc.devRef .tc main_v30)) :=
    hagg (W7 m ρ c)
  have h5 : W8 m ρ c (Proc.devRef .tc main_v61) = shapeCast S1x64 (W7 m ρ c (Proc.devRef .tc main_arg5)) Facts₀.shapeCasts_S64_S1x64 :=
    hrow (W7 m ρ c)
  refine h1.trans ?_
  show Cert.Spec.mm (W9 m ρ c (Proc.devRef .tc main_v62) : S50000x64.Idx → EReal) (W9 m ρ c (Proc.devRef .tc main_arg6) : S64x40.Idx → EReal) = _
  rw [h2, h3]
  show Cert.Spec.mm (Cert.Spec.biasClampRow (W8 m ρ c (Proc.devRef .tc main_v60) : S50000x64.Idx → EReal) (W8 m ρ c (Proc.devRef .tc main_v61) : S1x64.Idx → EReal)) _ = _
  rw [h4, h5]
  rw [Cert.Spec.biasClampRow_eq _ _ (W7 m ρ c (Proc.devRef .tc main_arg5) : S64.Idx → EReal)
    (fun q => Cert.KernelIdeal.Pay.hostRow64 _ q)]

/-- The two regions and the stretch leave the buffers the later layers read as they were. -/
theorem kept (hkeepb : ∀ (W : Valuation τ sig (Elt Ideal)) (b : Ref sig .tc), b ∈ [main_v3, main_v6, main_v30, main_arg7] →
      StableHlo.after hostOps3 W (Proc.devRef .tc b) = W (Proc.devRef .tc b))
    (c : Dev nD) (b : Ref sig .tc) (hb : b ∈ [main_v3, main_v6, main_v30, main_arg7]) :
    W10 m ρ c (Proc.devRef .tc b) = W7 m ρ c (Proc.devRef .tc b) := by
  have hne1 : ∀ w, Pipeline.arrRef spec4 w ≠ b := by
    simp only [List.mem_cons, List.mem_singleton, List.not_mem_nil, or_false] at hb
    rcases hb with rfl | rfl | rfl | rfl <;> decide
  have hne2 : ∀ w, Pipeline.arrRef spec3 w ≠ b := by
    simp only [List.mem_cons, List.mem_singleton, List.not_mem_nil, or_false] at hb
    rcases hb with rfl | rfl | rfl | rfl <;> decide
  exact (W10_of_ne m ρ c b hne1).trans ((W9_of_ne m ρ c b hne2).trans (hkeepb (W7 m ρ c) b hb))

end Cert.KernelIdeal.Chain2

end
-- ==== Proof.Region5.lean ====
/-
  Region 5: the last bias, block by block.

  The grid has ten points; point t loads rows 5000·t … 5000·t + 4999 of the aggregated features and the whole [1, 40]
  bias row, and writes back the same rows with the bias added. The step is entrywise in the features,
  so block t of the result of the whole arrays is the result on block t: the ten write-backs tile the result array.
-/
import proofs.«146042_j24257975287854_1_alg».proof.Proof.Gen.KernelIdeal.Frame
import proofs.«146042_j24257975287854_1_alg».proof.Proof.SpecRow
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the bias row at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

/-- The features' block at point t is rows 5000·t … of the aggregated array. -/
theorem iblk_lhs (c : Dev nD) (t : Fin cfg5.N) (x : S5000x40.Idx) (k : S50000x40.Idx)
    (hk0 : (k 0).val = t.val * 5000 + (x 0).val) (hk1 : (k 1).val = (x 1).val) :
    (iblk5 V c 0 t : Vec Ideal S5000x40 .f32) x = (V c main_v76 : S50000x40.Idx → EReal) k := by
  obtain ⟨e0, e1, -⟩ := idx_facts t
  unfold iblk5
  rw [View.read_apply]
  show V c main_v76 _ = V c main_v76 _
  congr 1
  funext a
  apply Fin.ext
  match a with
  | ⟨0, _⟩ => show win5_0.index t 0 * 5000 + 1 * (x 0).val = (k 0).val; rw [e0, hk0]; omega
  | ⟨1, _⟩ => show win5_0.index t 1 * 40 + 1 * (x 1).val = (k 1).val; rw [e1, hk1]; omega

/-- The bias window's block at every point is the whole [1, 40] row. -/
theorem iblk_rhs (c : Dev nD) (t : Fin cfg5.N) (x : S1x40.Idx) :
    (iblk5 V c 1 t : Vec Ideal S1x40 .f32) x = (V c main_v77 : S1x40.Idx → EReal) x := by
  obtain ⟨-, -, e0, e1, -⟩ := idx_facts t
  unfold iblk5
  rw [View.read_apply]
  show V c main_v77 _ = V c main_v77 _
  congr 1
  funext a
  apply Fin.ext
  match a with
  | ⟨0, _⟩ => show win5_1.index t 0 * 1 + 1 * (x 0).val = (x 0).val; rw [e0]; omega
  | ⟨1, _⟩ => show win5_1.index t 1 * 40 + 1 * (x 1).val = (x 1).val; rw [e1]; omega

/-- One block: if x is rows 5000·tv … of X and b is B, entry y of the payload is entry (5000·tv + y₀, y₁) of the
    step applied to the whole arrays. -/
theorem block_eq (hpay : ∀ (x : FVec Ideal S5000x40 .f32) (b : FVec Ideal S1x40 .f32) (p : Fin 5000) (q : Fin 40),
      k5_pay1 (F := Ideal) x b (ix2 p q) = x (ix2 p q) + b (ix2 (0 : Fin 1) q))
    (X : S50000x40.Idx → EReal) (B : S1x40.Idx → EReal) (x : FVec Ideal S5000x40 .f32) (b : FVec Ideal S1x40 .f32) (tv : Nat)
    (hx : ∀ (y : S5000x40.Idx) (k : S50000x40.Idx), (k 0).val = tv * 5000 + (y 0).val → (k 1).val = (y 1).val → x y = X k)
    (hb : ∀ y : S1x40.Idx, b y = B y)
    (y : S5000x40.Idx) (i : S50000x40.Idx) (hi0 : (i 0).val = tv * 5000 + (y 0).val) (hi1 : (i 1).val = (y 1).val) :
    k5_pay1 (F := Ideal) x b y = Cert.Spec.biasRow X B i := by
  obtain ⟨p, q, rfl⟩ : ∃ (p : Fin 5000) (q : Fin 40), y = ix2 p q := ⟨y 0, y 1, eq_ix2 y⟩
  obtain ⟨p', q', rfl⟩ : ∃ (p' : Fin 50000) (q' : Fin 40), i = ix2 p' q' := ⟨i 0, i 1, eq_ix2 i⟩
  have hq : q' = q := Fin.ext hi1
  subst hq
  rw [hpay, Cert.Spec.biasRow_apply, hx (ix2 p q') (ix2 p' q') hi0 rfl, hb]

/-- What point t writes back is block t of the step applied to the arrays as the region finds them. -/
theorem flushed (hpay : ∀ (x : FVec Ideal S5000x40 .f32) (b : FVec Ideal S1x40 .f32) (p : Fin 5000) (q : Fin 40),
      k5_pay1 (F := Ideal) x b (ix2 p q) = x (ix2 p q) + b (ix2 (0 : Fin 1) q))
    (c : Dev nD) (t : Fin cfg5.N) :
    (dat5 V c).flushed 2 t = ((cfg5.win 2).blk t).view.read (Elt Ideal)
      (Cert.Spec.biasRow (V c main_v76 : S50000x40.Idx → EReal) (V c main_v77 : S1x40.Idx → EReal)) := by
  show (cfg5.win 2).cut (grid5.coords t) ((dat5 V c).after 2 t) = _
  rw [after5_2]
  unfold out5_2
  rw [View.canon_unit_zero hz]
  simp only [View.ld_unit_zero (S := S5000x40) hz, View.ld_unit_zero (S := S1x40) hz]
  obtain ⟨-, -, -, -, e0, e1, -⟩ := idx_facts t
  funext j
  show k5_pay1 (F := Ideal) (iblk5 V c 0 t) (iblk5 V c 1 t) j = Cert.Spec.biasRow _ _ (((cfg5.win 2).blk t).view.emb j)
  refine block_eq hpay _ _ _ _ t.val (fun y k h0 h1 => iblk_lhs V c t y k h0 h1) (fun y => iblk_rhs V c t y) j _ ?_ ?_
  · show win5_2.index t 0 * 5000 + 1 * (j 0).val = t.val * 5000 + (j 0).val; rw [e0]; omega
  · show win5_2.index t 1 * 40 + 1 * (j 1).val = (j 1).val; rw [e1]; omega

/-- An index of the result array is in point t's block iff each coordinate is in the block's range on its axis. -/
theorem mem_blk (t : Fin cfg5.N) (i : S50000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v78).slice (win5_2.rect t)).set ↔ _
  rw [View.set_slice_whole, Rect.mem_set_unit]
  exact Iff.rfl

/-- The result array after the region: the step applied to the arrays as the region finds them. -/
theorem final (hpay : ∀ (x : FVec Ideal S5000x40 .f32) (b : FVec Ideal S1x40 .f32) (p : Fin 5000) (q : Fin 40),
      k5_pay1 (F := Ideal) x b (ix2 p q) = x (ix2 p q) + b (ix2 (0 : Fin 1) q))
    (c : Dev nD) :
    (dat5 V c).arrAt 2 cfg5.N = Cert.Spec.biasRow (V c main_v76 : S50000x40.Idx → EReal) (V c main_v77 : S1x40.Idx → EReal) :=
  (dat5 V c).arrAt_eq_of_cover 2 _ (fun t _ => flushed V hpay c t) fun i => by
    have hi0 : (i 0).val < 50000 := (i 0).isLt
    have hi1 : (i 1).val < 40 := (i 1).isLt
    let t : Fin cfg5.N := ⟨(i 0).val / 5000, by rw [show cfg5.N = 10 from N_5]; omega⟩
    obtain ⟨-, -, -, -, e0, e1, -⟩ := idx_facts t
    refine ⟨t, flush5_2 t, ?_⟩
    rw [mem_blk]
    intro a
    match a with
    | ⟨0, _⟩ => show win5_2.index t 0 * 5000 ≤ (i 0).val ∧ (i 0).val < win5_2.index t 0 * 5000 + 5000; rw [e0]; show (i 0).val / 5000 * 5000 ≤ (i 0).val ∧ (i 0).val < (i 0).val / 5000 * 5000 + 5000; omega
    | ⟨1, _⟩ => show win5_2.index t 1 * 40 ≤ (i 1).val ∧ (i 1).val < win5_2.index t 1 * 40 + 40; rw [e1]; omega

end Cert.KernelIdeal.Region5

end
-- ==== Proof.Region6.lean ====
/-
  Region 6: the row-wise log-softmax, block by block.

  The grid has ten points; point t loads rows 5000·t … 5000·t + 4999 of the last layer's output and writes back the
  logarithm of the softmax of each of those rows. An entry of the log-softmax depends only on its own row, so block t
  of the log-softmax of the whole array is the log-softmax of block t: the ten write-backs tile the result array.
-/
import proofs.«146042_j24257975287854_1_alg».proof.Proof.Gen.KernelIdeal.Frame
import proofs.«146042_j24257975287854_1_alg».proof.Proof.SpecRow
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: both windows sit at block (t, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0 ∧ t.val < 10 :=
  (by decide +kernel : ∀ t : Fin grid6.N, _)

/-- The input's block at point t is rows 5000·t … of the last layer's output. -/
theorem iblk_in (c : Dev nD) (t : Fin cfg6.N) (x : S5000x40.Idx) (k : S50000x40.Idx)
    (hk0 : (k 0).val = t.val * 5000 + (x 0).val) (hk1 : (k 1).val = (x 1).val) :
    (iblk6 V c 0 t : Vec Ideal S5000x40 .f32) x = (V c main_v78 : S50000x40.Idx → EReal) k := by
  obtain ⟨e0, e1, -⟩ := idx_facts t
  unfold iblk6
  rw [View.read_apply]
  show V c main_v78 _ = V c main_v78 _
  congr 1
  funext a
  apply Fin.ext
  match a with
  | ⟨0, _⟩ => show win6_0.index t 0 * 5000 + 1 * (x 0).val = (k 0).val; rw [e0, hk0]; omega
  | ⟨1, _⟩ => show win6_0.index t 1 * 40 + 1 * (x 1).val = (k 1).val; rw [e1, hk1]; omega

/-- One block: if x is rows 5000·tv … of X, entry y of the payload is entry (5000·tv + y₀, y₁) of the log-softmax of X. -/
theorem block_eq (hpay : ∀ (x : FVec Ideal S5000x40 .f32) (p : Fin 5000) (q : Fin 40),
      k6_pay1 (F := Ideal) x (ix2 p q) = Cert.Spec.logSoftmax x (ix2 p q))
    (X : S50000x40.Idx → EReal) (x : FVec Ideal S5000x40 .f32) (tv : Nat)
    (hx : ∀ (y : S5000x40.Idx) (k : S50000x40.Idx), (k 0).val = tv * 5000 + (y 0).val → (k 1).val = (y 1).val → x y = X k)
    (y : S5000x40.Idx) (i : S50000x40.Idx) (hi0 : (i 0).val = tv * 5000 + (y 0).val) (hi1 : (i 1).val = (y 1).val) :
    k6_pay1 (F := Ideal) x y = Cert.Spec.logSoftmax X i := by
  obtain ⟨p, q, rfl⟩ : ∃ (p : Fin 5000) (q : Fin 40), y = ix2 p q := ⟨y 0, y 1, eq_ix2 y⟩
  obtain ⟨p', q', rfl⟩ : ∃ (p' : Fin 50000) (q' : Fin 40), i = ix2 p' q' := ⟨i 0, i 1, eq_ix2 i⟩
  have hq : q' = q := Fin.ext hi1
  subst hq
  rw [hpay]
  exact Cert.Spec.logSoftmax_congr x X p p' (fun j => hx (ix2 p j) (ix2 p' j) hi0 rfl) q'

/-- What point t writes back is block t of the log-softmax of the array as the region finds it. -/
theorem flushed (hpay : ∀ (x : FVec Ideal S5000x40 .f32) (p : Fin 5000) (q : Fin 40),
      k6_pay1 (F := Ideal) x (ix2 p q) = Cert.Spec.logSoftmax x (ix2 p q))
    (c : Dev nD) (t : Fin cfg6.N) :
    (dat6 V c).flushed 1 t = ((cfg6.win 1).blk t).view.read (Elt Ideal)
      (Cert.Spec.logSoftmax (V c main_v78 : S50000x40.Idx → EReal)) := by
  show (cfg6.win 1).cut (grid6.coords t) ((dat6 V c).after 1 t) = _
  rw [after6_1]
  unfold out6_1
  rw [View.canon_unit_zero hz]
  simp only [View.ld_unit_zero (S := S5000x40) hz]
  obtain ⟨-, -, e0, e1, -⟩ := idx_facts t
  funext j
  show k6_pay1 (F := Ideal) (iblk6 V c 0 t) j = Cert.Spec.logSoftmax _ (((cfg6.win 1).blk t).view.emb j)
  refine block_eq hpay _ _ t.val (fun y k h0 h1 => iblk_in V c t y k h0 h1) j _ ?_ ?_
  · show win6_1.index t 0 * 5000 + 1 * (j 0).val = t.val * 5000 + (j 0).val; rw [e0]; omega
  · show win6_1.index t 1 * 40 + 1 * (j 1).val = (j 1).val; rw [e1]; omega

/-- An index of the result array is in point t's block iff each coordinate is in the block's range on its axis. -/
theorem mem_blk (t : Fin cfg6.N) (i : S50000x40.Idx) :
    i ∈ ((cfg6.win 1).blk t).view.set ↔ ∀ a : Fin 2, win6_1.index t a * S5000x40.size a ≤ (i a).val ∧ (i a).val < win6_1.index t a * S5000x40.size a + S5000x40.size a := by
  show i ∈ ((View.whole main_v79).slice (win6_1.rect t)).set ↔ _
  rw [View.set_slice_whole, Rect.mem_set_unit]
  exact Iff.rfl

/-- The result array after the region: the log-softmax of the array as the region finds it. -/
theorem final (hpay : ∀ (x : FVec Ideal S5000x40 .f32) (p : Fin 5000) (q : Fin 40),
      k6_pay1 (F := Ideal) x (ix2 p q) = Cert.Spec.logSoftmax x (ix2 p q))
    (c : Dev nD) :
    (dat6 V c).arrAt 1 cfg6.N = Cert.Spec.logSoftmax (V c main_v78 : S50000x40.Idx → EReal) :=
  (dat6 V c).arrAt_eq_of_cover 1 _ (fun t _ => flushed V hpay c t) fun i => by
    have hi0 : (i 0).val < 50000 := (i 0).isLt
    have hi1 : (i 1).val < 40 := (i 1).isLt
    let t : Fin cfg6.N := ⟨(i 0).val / 5000, by rw [show cfg6.N = 10 from N_6]; omega⟩
    obtain ⟨-, -, e0, e1, -⟩ := idx_facts t
    refine ⟨t, flush6_1 t, ?_⟩
    rw [mem_blk]
    intro a
    match a with
    | ⟨0, _⟩ => show win6_1.index t 0 * 5000 ≤ (i 0).val ∧ (i 0).val < win6_1.index t 0 * 5000 + 5000; rw [e0]; show (i 0).val / 5000 * 5000 ≤ (i 0).val ∧ (i 0).val < (i 0).val / 5000 * 5000 + 5000; omega
    | ⟨1, _⟩ => show win6_1.index t 1 * 40 ≤ (i 1).val ∧ (i 1).val < win6_1.index t 1 * 40 + 40; rw [e1]; omega

end Cert.KernelIdeal.Region6

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.PaySoftmax.lean ====
/-
  The last dense step of the network, read at an index: the logarithm of the row-wise softmax.

  The kernel body takes the maximum M of each row (a fold of max from −∞ along the row), keeps it as a column and
  spreads it back over the row, subtracts it, exponentiates, sums each row, keeps that sum as a column, takes its
  logarithm, spreads it back and subtracts again. At the extended reals every one of these steps is exact, so at
  (p, q) the result is (x (p, q) − M) − log (∑ j, exp (x (p, j) − M)) with M the fold of max from −∞ over row p:
  the specification's `logSoftmax`.

  The statement is first proved for any extents n × N, where an index's coordinates are plain `Fin n` and `Fin N`
  variables, and then read at the kernel's 5000 × 40 block.
-/
import proofs.«146042_j24257975287854_1_alg».proof.Proof.Gen.KernelIdeal.Skeleton
import proofs.«146042_j24257975287854_1_alg».proof.Proof.Spec
import proofs.«146042_j24257975287854_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section
open scoped BigOperators

namespace Cert.KernelIdeal.Pay
open Cert.KernelIdeal Cert.KernelIdeal.Gen Idealize.ShloMosaic Idealize.ShloMosaic.ValueIdx

/-- The pattern `0xFF800000` read as an extended real is −∞. -/
theorem negInfWord : Ideal.ofBits .f32 0xFF800000#32 = (⊥ : EReal) := by simp [Ideal.ofBits, Ideal.ieee]

/-- A row reduction's reduced index (p) with the column k put back is (p, k). -/
theorem lift_row {n N : ℕ} (h : Shape.Reduces ⟨2, ![n, N]⟩ [(1 : Fin 2)] ⟨1, ![n]⟩) (p : Fin n) (k : Fin N) :
    h.lift (ix1 p) k = ix2 p k := by
  funext c
  apply Fin.ext
  match c with
  | ⟨0, _⟩ => rfl
  | ⟨1, _⟩ => rfl

/-- The maximum reduction along the rows, from the −∞ word, is at p the fold of max from −∞ over row p. -/
theorem rowMax_read {n N : ℕ} (x : FVec Ideal ⟨2, ![n, N]⟩ .f32) (h : Shape.Reduces ⟨2, ![n, N]⟩ [(1 : Fin 2)] ⟨1, ![n]⟩)
    (hφ : FKind.Formats .f32) (hacc : (0xFF800000#32 : BitVec 32) = FKind.maximumf.neutral .f32 hφ) (p : Fin n) :
    multiReduction .maximumf [1] ⟨1, ![n]⟩ x 0xFF800000#32 h hφ hacc (ix1 p) = Cert.Spec.rowMax x p := by
  refine (Ideal.multiReduction_maximumf_single x _ h hφ hacc (ix1 p)).trans ?_
  show Finset.fold max (Ideal.ofBits .f32 0xFF800000#32) (x ∘ h.lift (ix1 p)) (Finset.univ : Finset (Fin N)) = _
  rw [negInfWord]
  exact congrArg (fun f => Finset.fold max (⊥ : EReal) f (Finset.univ : Finset (Fin N)))
    (funext fun k => congrArg x (lift_row h p k))

/-- The sum reduction along the rows, from the zero word, is at p the sum of row p. -/
theorem rowSum_read {n N : ℕ} (x : FVec Ideal ⟨2, ![n, N]⟩ .f32) (h : Shape.Reduces ⟨2, ![n, N]⟩ [(1 : Fin 2)] ⟨1, ![n]⟩)
    (hφ : FKind.Formats .f32) (hacc : (0x00000000#32 : BitVec 32) = FKind.add.neutral .f32 hφ) (p : Fin n) :
    multiReduction .add [1] ⟨1, ![n]⟩ x 0x00000000#32 h hφ hacc (ix1 p) = ∑ k : Fin N, x (ix2 p k) := by
  refine (Ideal.multiReduction_add_single x _ h hφ hacc (ix1 p)).trans ?_
  exact Finset.sum_congr rfl fun k _ => congrArg x (lift_row h p k)

/-- The whole body at any extents: shift each row by its maximum, subtract the logarithm of the row sum of the
    exponentials. -/
theorem logSoftmax_body {n N : ℕ} (x : FVec Ideal ⟨2, ![n, N]⟩ .f32)
    (h0 : Shape.ShapeCasts ⟨2, ![n, N]⟩ ⟨2, ![n, N]⟩) (hr : Shape.Reduces ⟨2, ![n, N]⟩ [(1 : Fin 2)] ⟨1, ![n]⟩)
    (hc : Shape.ShapeCasts ⟨1, ![n]⟩ ⟨2, ![n, 1]⟩) (hb : Shape.Broadcasts ⟨2, ![n, 1]⟩ ⟨2, ![n, N]⟩)
    (hφ : FKind.Formats .f32) (hm : (0xFF800000#32 : BitVec 32) = FKind.maximumf.neutral .f32 hφ)
    (hs : (0x00000000#32 : BitVec 32) = FKind.add.neutral .f32 hφ) (p : Fin n) (q : Fin N) :
    let v1 : FVec Ideal ⟨2, ![n, N]⟩ .f32 := shapeCast ⟨2, ![n, N]⟩ x h0
    let v5 : FVec Ideal ⟨2, ![n, N]⟩ .f32 := subf v1 (broadcastTo ⟨2, ![n, N]⟩
      (shapeCast ⟨2, ![n, 1]⟩ (multiReduction .maximumf [1] ⟨1, ![n]⟩ v1 0xFF800000#32 hr hφ hm) hc) hb)
    subf v5 (broadcastTo ⟨2, ![n, N]⟩
      (log (shapeCast ⟨2, ![n, 1]⟩ (multiReduction .add [1] ⟨1, ![n]⟩ (exp v5) 0x00000000#32 hr hφ hs) hc)) hb) (ix2 p q)
      = Cert.Spec.logSoftmax x (ix2 p q) := by
  intro v1 v5
  have e1 : v1 = x := shapeCast_self x h0
  have hM : ∀ c : Fin N, v5 (ix2 p c) = x (ix2 p c) - Cert.Spec.rowMax x p := fun c => by
    show v1 (ix2 p c) - broadcastTo ⟨2, ![n, N]⟩
      (shapeCast ⟨2, ![n, 1]⟩ (multiReduction .maximumf [1] ⟨1, ![n]⟩ v1 0xFF800000#32 hr hφ hm) hc) hb (ix2 p c) = _
    rw [Cert.Lib.Column.column_apply, e1, rowMax_read]
  show v5 (ix2 p q) - broadcastTo ⟨2, ![n, N]⟩
      (log (shapeCast ⟨2, ![n, 1]⟩ (multiReduction .add [1] ⟨1, ![n]⟩ (exp v5) 0x00000000#32 hr hφ hs) hc)) hb (ix2 p q) = _
  rw [Cert.Lib.Column.broadcastTo_a1_ab_apply]
  show v5 (ix2 p q) - Ideal.log (shapeCast ⟨2, ![n, 1]⟩
      (multiReduction .add [1] ⟨1, ![n]⟩ (exp v5) 0x00000000#32 hr hφ hs) hc (ix2 p (0 : Fin 1))) = _
  rw [Cert.Lib.Column.shapeCast_a_a1_apply, rowSum_read, hM q, Cert.Spec.logSoftmax_apply]
  exact congrArg (fun s => (x (ix2 p q) - Cert.Spec.rowMax x p) - Ideal.log s)
    (Finset.sum_congr rfl fun k _ => congrArg Ideal.exp (hM k))

variable [Cert.KernelIdeal.Facts]
open Cert.KernelIdeal.Facts₀ Cert.KernelIdeal.Facts

/-- The kernel's last body at (p, q) is the specification's log-softmax there. -/
theorem pay6_apply (x : FVec Ideal S5000x40 .f32) (p : Fin 5000) (q : Fin 40) :
    k6_pay1 (F := Ideal) x (ix2 p q) = Cert.Spec.logSoftmax x (ix2 p q) :=
  logSoftmax_body x Gen.shapeCasts_S5000x40_S5000x40 Gen.reduces_S5000x40_S5000 Gen.shapeCasts_S5000_S5000x1
    Gen.broadcasts_S5000x1_S5000x40 (.inl rfl) rfl rfl p q

end Cert.KernelIdeal.Pay
end
-- ==== Proof.ChainTail.lean ====
/-
  The last third of the kernel's chain of values: from the result buffer back to the host stretch before the last
  bias region.

  The result buffer after the last region is the log-softmax of what the bias region before it left; that is the
  [1, 40] bias row added to every row of the aggregated features, both as the host stretch before it left them; the
  bias row is the host's reshape of the 40-entry bias vector, whose entry (0, q) is entry q of the vector, so adding
  the row is adding the vector. The aggregation itself (gather along the edges, scale, scatter-add) is kept abstract
  here: the statement holds for any function `agg` the stretch is known to compute.
-/
import proofs.«146042_j24257975287854_1_alg».proof.Proof.Gen.KernelIdeal.Frame
import proofs.«146042_j24257975287854_1_alg».proof.Proof.Region5
import proofs.«146042_j24257975287854_1_alg».proof.Proof.Region6
import proofs.«146042_j24257975287854_1_alg».proof.Proof.PayBias
import proofs.«146042_j24257975287854_1_alg».proof.Proof.PaySoftmax
import proofs.«146042_j24257975287854_1_alg».proof.Proof.SpecRow

set_option maxRecDepth 16384

noncomputable section

namespace Cert.KernelIdeal.Chain

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The result buffer after the last region: the log-softmax of what the region before it left. -/
theorem out_eq (c : Dev nD) :
    W13 m ρ c (Proc.devRef .tc main_v79)
      = Cert.Spec.logSoftmax (W12 m ρ c (Proc.devRef .tc main_v78) : S50000x40.Idx → EReal) :=
  (W13_arr m ρ c 1).trans (Cert.KernelIdeal.Region6.final (V12 m ρ) (fun x p q => Cert.KernelIdeal.Pay.pay6_apply x p q) c)

/-- The last bias region's output: the bias row added to what the host stretch before it left. -/
theorem biased_eq (c : Dev nD) :
    W12 m ρ c (Proc.devRef .tc main_v78)
      = Cert.Spec.biasRow (W11 m ρ c (Proc.devRef .tc main_v76) : S50000x40.Idx → EReal)
          (W11 m ρ c (Proc.devRef .tc main_v77) : S1x40.Idx → EReal) :=
  (W12_arr m ρ c 2).trans (Cert.KernelIdeal.Region5.final (V11 m ρ) (fun x b p q => Cert.KernelIdeal.Pay.pay5_apply x b p q) c)

/-- The whole tail, from the two arrays the host stretch before the last bias region leaves: the aggregated features
    and the bias row. -/
theorem tail_of
    (agg : (⟨S50000x40, .f32⟩ : BufTy).Contents (Elt Ideal) → (⟨S850000, .i32⟩ : BufTy).Contents (Elt Ideal) →
      (⟨S850000, .i32⟩ : BufTy).Contents (Elt Ideal) → (⟨S850000, .f32⟩ : BufTy).Contents (Elt Ideal) →
      (⟨S50000x40, .f32⟩ : BufTy).Contents (Elt Ideal))
    (h76 : ∀ W : Valuation τ sig (Elt Ideal), StableHlo.after (hostOps5 (F := Ideal)) W (Proc.devRef .tc main_v76)
      = agg (W (Proc.devRef .tc main_v63)) (W (Proc.devRef .tc main_v3)) (W (Proc.devRef .tc main_v6)) (W (Proc.devRef .tc main_v30)))
    (h77 : ∀ W : Valuation τ sig (Elt Ideal), StableHlo.after (hostOps5 (F := Ideal)) W (Proc.devRef .tc main_v77)
      = shapeCast S1x40 (W (Proc.devRef .tc main_arg7)) Facts₀.shapeCasts_S40_S1x40)
    (c : Dev nD) :
    W13 m ρ c (Proc.devRef .tc main_v79)
      = Cert.Spec.logSoftmax (Cert.Spec.bias
          (agg (W10 m ρ c (Proc.devRef .tc main_v63)) (W10 m ρ c (Proc.devRef .tc main_v3))
            (W10 m ρ c (Proc.devRef .tc main_v6)) (W10 m ρ c (Proc.devRef .tc main_v30)) : S50000x40.Idx → EReal)
          (W10 m ρ c (Proc.devRef .tc main_arg7) : S40.Idx → EReal)) := by
  refine (out_eq m ρ c).trans (congrArg Cert.Spec.logSoftmax ?_)
  refine (biased_eq m ρ c).trans ?_
  show Cert.Spec.biasRow
      (StableHlo.after (hostOps5 (F := Ideal)) (W10 m ρ c) (Proc.devRef .tc main_v76) : S50000x40.Idx → EReal)
      (StableHlo.after (hostOps5 (F := Ideal)) (W10 m ρ c) (Proc.devRef .tc main_v77) : S1x40.Idx → EReal) = _
  rw [h76, h77]
  exact Cert.Spec.biasRow_eq _ _ _ (fun q => Cert.KernelIdeal.Pay.hostRow40 _ q)

end Cert.KernelIdeal.Chain
end
-- ==== Proof.KernelStretch.lean ====
/-
  What the host computes between the dense regions, read from arbitrary buffer contents.

  Around its seven dense regions the program runs six straight lines of array operations on the host. The first three
  prepare the graph: the sources and targets of the edges (the two rows of the edge array, each followed by the self
  loops 0, 1, …, 49999), the degree of every node (ones added up at the targets), its inverse square root where the
  degree is positive and zero elsewhere, and the weight of every edge, dinv (source) · 1 · dinv (target). Each of the
  other three mixes the rows of a feature array along the edges — gather the rows at the sources, scale by the edge
  weights, add up at the targets — and recasts a bias vector [N] as a row [1, N].

  Each line is a fold over its operations: an operation replaces the contents of the one buffer it writes by its
  function of the contents of the buffers it reads, and leaves every other buffer alone. So from ARBITRARY contents W
  the contents after a line are, at a buffer the line writes, a closed term over W at the buffers the line reads from
  outside, and, at a buffer it does not write, what W had there. This module names those closed terms (`rowOf`,
  `colOf`, `normOf`, `agg64`, `agg40`) and proves both kinds of statement for every line.
-/
import proofs.«146042_j24257975287854_1_alg».proof.Proof.Gen.KernelIdeal.Launch
import Idealize.ShloMosaic.Lib.StableHlo.Run
import Idealize.ShloMosaic.PureOps.Ideal

noncomputable section

namespace Cert.KernelIdeal.Stretch
open Cert.KernelIdeal Cert.KernelIdeal.Gen Idealize.ShloMosaic Idealize.SL.Sem

/-! ## The functions the host stretches compute -/

/-- The source of every edge: the first row of the edge array, followed by the 50000 self loops 0, 1, …, 49999. -/
def rowOf (e : (⟨S2x800000, .i32⟩ : BufTy).Contents (Elt Ideal)) : (⟨S850000, .i32⟩ : BufTy).Contents (Elt Ideal) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The target of every edge: the second row of the edge array, followed by the same self loops. -/
def colOf (e : (⟨S2x800000, .i32⟩ : BufTy).Contents (Elt Ideal)) : (⟨S850000, .i32⟩ : BufTy).Contents (Elt Ideal) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- The weight of every edge before normalisation: one. -/
def onesE : (⟨S850000, .f32⟩ : BufTy).Contents (Elt Ideal) :=
  broadcastInDim S850000 ![] bcast_S_S850000 (constant (F := Ideal) S_ .f32 0x3F800000#32)

/-- The degree of every node: the edge weights (all one) added up at each edge's target, from zero. -/
def degOf (col : (⟨S850000, .i32⟩ : BufTy).Contents (Elt Ideal)) : (⟨S50000, .f32⟩ : BufTy).Contents (Elt Ideal) :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 col) onesE

/-- Whether a node's degree is positive. -/
def degPos (col : (⟨S850000, .i32⟩ : BufTy).Contents (Elt Ideal)) : (⟨S50000, .i1⟩ : BufTy).Contents (Elt Ideal) :=
  cmpf (F := Ideal) .ogt (degOf col) (broadcastInDim S50000 ![] bcast_S_S50000 (constant (F := Ideal) S_ .f32 0x00000000#32))

/-- The inverse square root of the degree where the degree is positive, zero elsewhere. -/
def dinvOf (col : (⟨S850000, .i32⟩ : BufTy).Contents (Elt Ideal)) : (⟨S50000, .f32⟩ : BufTy).Contents (Elt Ideal) :=
  select (degPos col) (Host.rsqrt (F := Ideal) (φ := .f32) (degOf col)) (broadcastInDim S50000 ![] bcast_S_S50000 (id (constant (F := Ideal) S_ .f32 0x00000000#32)))

/-- The normalised weight of every edge from a given inverse-root-degree vector and given unit weights: the vector at
    the edge's source, times the unit weight, times the vector at the edge's target. A negative index is first moved
    up by the number of nodes. -/
def normFrom (dinv : (⟨S50000, .f32⟩ : BufTy).Contents (Elt Ideal)) (ones : (⟨S850000, .f32⟩ : BufTy).Contents (Elt Ideal)) (row col : (⟨S850000, .i32⟩ : BufTy).Contents (Elt Ideal)) : (⟨S850000, .f32⟩ : BufTy).Contents (Elt Ideal) :=
  mulf (F := Ideal) (φ := .f32) (mulf (F := Ideal) (φ := .f32) (Host.gather gather_S50000_S850000x1_S850000_n_0_n_n_0_1_1 dinv (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) ones)
    (Host.gather gather_S50000_S850000x1_S850000_n_0_n_n_0_1_1 dinv (broadcastInDim S850000x1 ![0] bcast_S850000_S850000x1_0 (select (cmpi .slt col (broadcastInDim S850000 ![] bcast_S_S850000 (constantI S_ 32 0#32))) (addi col (broadcastInDim S850000 ![] bcast_S_S850000 (constantI S_ 32 50000#32))) col)))

/-- The normalised weight of every edge: dinv (source) · 1 · dinv (target), the degrees counted at the targets. -/
def normOf (row col : (⟨S850000, .i32⟩ : BufTy).Contents (Elt Ideal)) : (⟨S850000, .f32⟩ : BufTy).Contents (Elt Ideal) :=
  normFrom (dinvOf col) onesE row col

/-- One round of mixing at 64 columns: take the rows of h at the edges' sources, scale each by its edge's weight, and
    add them up at the edges' targets, from zero. -/
def agg64 (h : (⟨S50000x64, .f32⟩ : BufTy).Contents (Elt Ideal)) (row col : (⟨S850000, .i32⟩ : BufTy).Contents (Elt Ideal)) (norm : (⟨S850000, .f32⟩ : BufTy).Contents (Elt Ideal)) : (⟨S50000x64, .f32⟩ : BufTy).Contents (Elt Ideal) :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 col) (mulf (Host.gather gather_S50000x64_S850000x1_S850000x64_1_0_n_n_0_1_164 h (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) (broadcastInDim S850000x64 ![0, 1] bcast_S850000x1_S850000x64_0_1 (broadcastInDim S850000x1 ![0] bcast_S850000_S850000x1_0 norm)))

/-- The same round at 40 columns. -/
def agg40 (h : (⟨S50000x40, .f32⟩ : BufTy).Contents (Elt Ideal)) (row col : (⟨S850000, .i32⟩ : BufTy).Contents (Elt Ideal)) (norm : (⟨S850000, .f32⟩ : BufTy).Contents (Elt Ideal)) : (⟨S50000x40, .f32⟩ : BufTy).Contents (Elt Ideal) :=
  Host.scatterAdd (F := Ideal) scatter_S50000x40_S850000x1_S850000x40_1_0_0_1 (broadcastInDim S50000x40 ![] bcast_S_S50000x40 (constant (F := Ideal) S_ .f32 0x00000000#32)) (broadcastInDim S850000x1 ![0] bcast_S850000_S850000x1_0 col) (mulf (Host.gather gather_S50000x40_S850000x1_S850000x40_1_0_n_n_0_1_140 h (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) (broadcastInDim S850000x40 ![0, 1] bcast_S850000x1_S850000x40_0_1 (broadcastInDim S850000x1 ![0] bcast_S850000_S850000x1_0 norm)))

variable (W : Valuation τ sig (Elt Ideal))

/-! ## What each list leaves untouched -/

/-- Every buffer the list writes. -/
abbrev writes0 : List (Ref sig .tc) := [main_v0, main_v1, main_v2, main_v3, main_v4, main_v5, main_v6, main_cst, main_v7, main_cst_0, main_v8, main_v9, main_v10, main_cst_1, main_v11, main_v12, main_v13, main_cst_2]
/-- Every operation of the list writes one of them. -/
theorem writes0_sub : (hostOps0 (F := Ideal)).Forall fun op => op.writes ⊆ ((writes0).map (Proc.devRef (τ := τ) .tc)).toFinset := by
  simp only [hostOps0, writes0, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the list does not write keeps its contents. -/
theorem kept0 (b : Ref sig .tc) (hb : b ∉ writes0) :
    StableHlo.after (hostOps0 (F := Ideal)) W (Proc.devRef .tc b) = W (Proc.devRef .tc b) :=
  StableHlo.after_of_writes_sub _ W writes0_sub hb

/-- Every buffer the list writes. -/
abbrev writes0_1 : List (Ref sig .tc) := [main_call0_v0, main_call0_v1, main_v14]
/-- Every operation of the list writes one of them. -/
theorem writes0_1_sub : (hostOps0_1 (F := Ideal)).Forall fun op => op.writes ⊆ ((writes0_1).map (Proc.devRef (τ := τ) .tc)).toFinset := by
  simp only [hostOps0_1, writes0_1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the list does not write keeps its contents. -/
theorem kept0_1 (b : Ref sig .tc) (hb : b ∉ writes0_1) :
    StableHlo.after (hostOps0_1 (F := Ideal)) W (Proc.devRef .tc b) = W (Proc.devRef .tc b) :=
  StableHlo.after_of_writes_sub _ W writes0_1_sub hb

/-- Every buffer the list writes. -/
abbrev writes0_2 : List (Ref sig .tc) := [main_c, main_v15, main_v16, main_c_3, main_v17, main_v18, main_v19, main_v20, main_v21, main_v22, main_c_4, main_v23, main_v24, main_c_5, main_v25, main_v26, main_v27, main_v28, main_v29, main_v30]
/-- Every operation of the list writes one of them. -/
theorem writes0_2_sub : (hostOps0_2 (F := Ideal)).Forall fun op => op.writes ⊆ ((writes0_2).map (Proc.devRef (τ := τ) .tc)).toFinset := by
  simp only [hostOps0_2, writes0_2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the list does not write keeps its contents. -/
theorem kept0_2 (b : Ref sig .tc) (hb : b ∉ writes0_2) :
    StableHlo.after (hostOps0_2 (F := Ideal)) W (Proc.devRef .tc b) = W (Proc.devRef .tc b) :=
  StableHlo.after_of_writes_sub _ W writes0_2_sub hb

/-- Every buffer the list writes. -/
abbrev writes1 : List (Ref sig .tc) := [main_c_6, main_v32, main_v33, main_c_7, main_v34, main_v35, main_v36, main_v37, main_v38, main_v39, main_v40, main_v41, main_cst_8, main_v42, main_v43, main_v44, main_v45]
/-- Every operation of the list writes one of them. -/
theorem writes1_sub : (hostOps1 (F := Ideal)).Forall fun op => op.writes ⊆ ((writes1).map (Proc.devRef (τ := τ) .tc)).toFinset := by
  simp only [hostOps1, writes1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the list does not write keeps its contents. -/
theorem kept1 (b : Ref sig .tc) (hb : b ∉ writes1) :
    StableHlo.after (hostOps1 (F := Ideal)) W (Proc.devRef .tc b) = W (Proc.devRef .tc b) :=
  StableHlo.after_of_writes_sub _ W writes1_sub hb

/-- Every buffer the list writes. -/
abbrev writes3 : List (Ref sig .tc) := [main_c_9, main_v48, main_v49, main_c_10, main_v50, main_v51, main_v52, main_v53, main_v54, main_v55, main_v56, main_v57, main_cst_11, main_v58, main_v59, main_v60, main_v61]
/-- Every operation of the list writes one of them. -/
theorem writes3_sub : (hostOps3 (F := Ideal)).Forall fun op => op.writes ⊆ ((writes3).map (Proc.devRef (τ := τ) .tc)).toFinset := by
  simp only [hostOps3, writes3, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the list does not write keeps its contents. -/
theorem kept3 (b : Ref sig .tc) (hb : b ∉ writes3) :
    StableHlo.after (hostOps3 (F := Ideal)) W (Proc.devRef .tc b) = W (Proc.devRef .tc b) :=
  StableHlo.after_of_writes_sub _ W writes3_sub hb

/-- Every buffer the list writes. -/
abbrev writes5 : List (Ref sig .tc) := [main_c_12, main_v64, main_v65, main_c_13, main_v66, main_v67, main_v68, main_v69, main_v70, main_v71, main_v72, main_v73, main_cst_14, main_v74, main_v75, main_v76, main_v77]
/-- Every operation of the list writes one of them. -/
theorem writes5_sub : (hostOps5 (F := Ideal)).Forall fun op => op.writes ⊆ ((writes5).map (Proc.devRef (τ := τ) .tc)).toFinset := by
  simp only [hostOps5, writes5, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the list does not write keeps its contents. -/
theorem kept5 (b : Ref sig .tc) (hb : b ∉ writes5) :
    StableHlo.after (hostOps5 (F := Ideal)) W (Proc.devRef .tc b) = W (Proc.devRef .tc b) :=
  StableHlo.after_of_writes_sub _ W writes5_sub hb

/-! ## The normalisation, list by list -/

/-- After the first line the sources are the sources read off the edge array. -/
theorem h0_v3 : StableHlo.after (hostOps0 (F := Ideal)) W (Proc.devRef .tc main_v3) = rowOf (W (Proc.devRef .tc main_arg1)) := by
  simp only [hostOps0]
  after_results
  rfl

/-- After the first line the targets are the targets read off the edge array. -/
theorem h0_v6 : StableHlo.after (hostOps0 (F := Ideal)) W (Proc.devRef .tc main_v6) = colOf (W (Proc.devRef .tc main_arg1)) := by
  simp only [hostOps0]
  after_results
  rfl

/-- After the first line the unit weights are ones. -/
theorem h0_v7 : StableHlo.after (hostOps0 (F := Ideal)) W (Proc.devRef .tc main_v7) = onesE := by
  simp only [hostOps0]
  after_results
  rfl

/-- After the first line the positivity mask is that of the degrees counted at the targets. -/
theorem h0_v12 : StableHlo.after (hostOps0 (F := Ideal)) W (Proc.devRef .tc main_v12) = degPos (colOf (W (Proc.devRef .tc main_arg1))) := by
  simp only [hostOps0]
  after_results
  rfl

/-- After the first line the inverse-root buffer holds the inverse square roots of the degrees. -/
theorem h0_v13 : StableHlo.after (hostOps0 (F := Ideal)) W (Proc.devRef .tc main_v13) = Host.rsqrt (F := Ideal) (φ := .f32) (degOf (colOf (W (Proc.devRef .tc main_arg1)))) := by
  simp only [hostOps0]
  after_results
  rfl

/-- After the first line the scalar the outlined selection falls back to is zero. -/
theorem h0_cst_2 : StableHlo.after (hostOps0 (F := Ideal)) W (Proc.devRef .tc main_cst_2) = constant (F := Ideal) S_ .f32 0x00000000#32 := by
  simp only [hostOps0]
  after_results

/-- The outlined selection: where the mask holds the second operand, elsewhere the scalar spread over the nodes. -/
theorem h0_1_v14 : StableHlo.after (hostOps0_1 (F := Ideal)) W (Proc.devRef .tc main_v14) = select (W (Proc.devRef .tc main_v12)) (W (Proc.devRef .tc main_v13)) (broadcastInDim S50000 ![] bcast_S_S50000 (id (W (Proc.devRef .tc main_cst_2)))) := by
  simp only [hostOps0_1]
  after_results
  rfl

/-- The third line, from arbitrary contents: the edge weights from the buffers it reads. -/
theorem h0_2_v30 : StableHlo.after (hostOps0_2 (F := Ideal)) W (Proc.devRef .tc main_v30) = normFrom (W (Proc.devRef .tc main_v14)) (W (Proc.devRef .tc main_v7)) (W (Proc.devRef .tc main_v3)) (W (Proc.devRef .tc main_v6)) := by
  simp only [hostOps0_2]
  after_results_simp
  rfl

/-! ## The normalisation, the three lists in a row -/

/-- After the three lists the edge weights are the normalised weights of the edges read off the edge array. -/
theorem norm_v30 : (StableHlo.after (hostOps0_2 (F := Ideal)) (StableHlo.after (hostOps0_1 (F := Ideal)) (StableHlo.after (hostOps0 (F := Ideal)) W))) (Proc.devRef .tc main_v30) = normOf (rowOf (W (Proc.devRef .tc main_arg1))) (colOf (W (Proc.devRef .tc main_arg1))) := by
  rw [h0_2_v30, h0_1_v14, kept0_1 _ main_v7 (by decide), kept0_1 _ main_v3 (by decide), kept0_1 _ main_v6 (by decide),
    h0_v12, h0_v13, h0_cst_2, h0_v7, h0_v3, h0_v6]
  rfl
/-- After the three lists the sources are still the sources read off the edge array. -/
theorem norm_v3 : (StableHlo.after (hostOps0_2 (F := Ideal)) (StableHlo.after (hostOps0_1 (F := Ideal)) (StableHlo.after (hostOps0 (F := Ideal)) W))) (Proc.devRef .tc main_v3) = rowOf (W (Proc.devRef .tc main_arg1)) := by
  rw [kept0_2 _ main_v3 (by decide), kept0_1 _ main_v3 (by decide), h0_v3]
/-- After the three lists the targets are still the targets read off the edge array. -/
theorem norm_v6 : (StableHlo.after (hostOps0_2 (F := Ideal)) (StableHlo.after (hostOps0_1 (F := Ideal)) (StableHlo.after (hostOps0 (F := Ideal)) W))) (Proc.devRef .tc main_v6) = colOf (W (Proc.devRef .tc main_arg1)) := by
  rw [kept0_2 _ main_v6 (by decide), kept0_1 _ main_v6 (by decide), h0_v6]
/-- A buffer none of the three lists writes is as before. -/
theorem norm_kept (b : Ref sig .tc) (h0 : b ∉ writes0) (h1 : b ∉ writes0_1) (h2 : b ∉ writes0_2) :
    (StableHlo.after (hostOps0_2 (F := Ideal)) (StableHlo.after (hostOps0_1 (F := Ideal)) (StableHlo.after (hostOps0 (F := Ideal)) W))) (Proc.devRef .tc b) = W (Proc.devRef .tc b) := by
  rw [kept0_2 _ b h2, kept0_1 _ b h1, kept0 _ b h0]
/-- The program's eight arguments are untouched by the three lists. -/
theorem norm_arg0 : (StableHlo.after (hostOps0_2 (F := Ideal)) (StableHlo.after (hostOps0_1 (F := Ideal)) (StableHlo.after (hostOps0 (F := Ideal)) W))) (Proc.devRef .tc main_arg0) = W (Proc.devRef .tc main_arg0) := norm_kept W main_arg0 (by decide) (by decide) (by decide)
theorem norm_arg1 : (StableHlo.after (hostOps0_2 (F := Ideal)) (StableHlo.after (hostOps0_1 (F := Ideal)) (StableHlo.after (hostOps0 (F := Ideal)) W))) (Proc.devRef .tc main_arg1) = W (Proc.devRef .tc main_arg1) := norm_kept W main_arg1 (by decide) (by decide) (by decide)
theorem norm_arg2 : (StableHlo.after (hostOps0_2 (F := Ideal)) (StableHlo.after (hostOps0_1 (F := Ideal)) (StableHlo.after (hostOps0 (F := Ideal)) W))) (Proc.devRef .tc main_arg2) = W (Proc.devRef .tc main_arg2) := norm_kept W main_arg2 (by decide) (by decide) (by decide)
theorem norm_arg3 : (StableHlo.after (hostOps0_2 (F := Ideal)) (StableHlo.after (hostOps0_1 (F := Ideal)) (StableHlo.after (hostOps0 (F := Ideal)) W))) (Proc.devRef .tc main_arg3) = W (Proc.devRef .tc main_arg3) := norm_kept W main_arg3 (by decide) (by decide) (by decide)
theorem norm_arg4 : (StableHlo.after (hostOps0_2 (F := Ideal)) (StableHlo.after (hostOps0_1 (F := Ideal)) (StableHlo.after (hostOps0 (F := Ideal)) W))) (Proc.devRef .tc main_arg4) = W (Proc.devRef .tc main_arg4) := norm_kept W main_arg4 (by decide) (by decide) (by decide)
theorem norm_arg5 : (StableHlo.after (hostOps0_2 (F := Ideal)) (StableHlo.after (hostOps0_1 (F := Ideal)) (StableHlo.after (hostOps0 (F := Ideal)) W))) (Proc.devRef .tc main_arg5) = W (Proc.devRef .tc main_arg5) := norm_kept W main_arg5 (by decide) (by decide) (by decide)
theorem norm_arg6 : (StableHlo.after (hostOps0_2 (F := Ideal)) (StableHlo.after (hostOps0_1 (F := Ideal)) (StableHlo.after (hostOps0 (F := Ideal)) W))) (Proc.devRef .tc main_arg6) = W (Proc.devRef .tc main_arg6) := norm_kept W main_arg6 (by decide) (by decide) (by decide)
theorem norm_arg7 : (StableHlo.after (hostOps0_2 (F := Ideal)) (StableHlo.after (hostOps0_1 (F := Ideal)) (StableHlo.after (hostOps0 (F := Ideal)) W))) (Proc.devRef .tc main_arg7) = W (Proc.devRef .tc main_arg7) := norm_kept W main_arg7 (by decide) (by decide) (by decide)

/-! ## The later stretches -/

/-- The first mixing round, from arbitrary contents. -/
theorem h1_v44 : StableHlo.after (hostOps1 (F := Ideal)) W (Proc.devRef .tc main_v44) = agg64 (W (Proc.devRef .tc main_v31)) (W (Proc.devRef .tc main_v3)) (W (Proc.devRef .tc main_v6)) (W (Proc.devRef .tc main_v30)) := by
  simp only [hostOps1]
  after_results_simp
  rfl

/-- The first bias vector recast as a row. -/
theorem h1_v45 : StableHlo.after (hostOps1 (F := Ideal)) W (Proc.devRef .tc main_v45) = shapeCast S1x64 (W (Proc.devRef .tc main_arg3)) Cert.KernelIdeal.Facts₀.shapeCasts_S64_S1x64 := by
  simp only [hostOps1]
  after_results_simp
  rfl

/-- The second mixing round, from arbitrary contents. -/
theorem h3_v60 : StableHlo.after (hostOps3 (F := Ideal)) W (Proc.devRef .tc main_v60) = agg64 (W (Proc.devRef .tc main_v47)) (W (Proc.devRef .tc main_v3)) (W (Proc.devRef .tc main_v6)) (W (Proc.devRef .tc main_v30)) := by
  simp only [hostOps3]
  after_results_simp
  rfl

/-- The second bias vector recast as a row. -/
theorem h3_v61 : StableHlo.after (hostOps3 (F := Ideal)) W (Proc.devRef .tc main_v61) = shapeCast S1x64 (W (Proc.devRef .tc main_arg5)) Cert.KernelIdeal.Facts₀.shapeCasts_S64_S1x64 := by
  simp only [hostOps3]
  after_results_simp
  rfl

/-- The third mixing round (40 columns), from arbitrary contents. -/
theorem h5_v76 : StableHlo.after (hostOps5 (F := Ideal)) W (Proc.devRef .tc main_v76) = agg40 (W (Proc.devRef .tc main_v63)) (W (Proc.devRef .tc main_v3)) (W (Proc.devRef .tc main_v6)) (W (Proc.devRef .tc main_v30)) := by
  simp only [hostOps5]
  after_results_simp
  rfl

/-- The third bias vector recast as a row. -/
theorem h5_v77 : StableHlo.after (hostOps5 (F := Ideal)) W (Proc.devRef .tc main_v77) = shapeCast S1x40 (W (Proc.devRef .tc main_arg7)) Cert.KernelIdeal.Facts₀.shapeCasts_S40_S1x40 := by
  simp only [hostOps5]
  after_results_simp
  rfl

end Cert.KernelIdeal.Stretch
end
-- ==== Proof.SpecNet.lean ====
/-
  The whole network as one function of the argument arrays.

  Three layers — multiply by the weights, mix the rows along the edges, add the bias (and clamp at zero in the first
  two) — and the row-wise log-softmax at the end. The mixing along the edges (a gather of source rows, a scaling by
  the symmetric normalisation, a scatter-add onto the target rows) is a parameter here: both programs apply the very
  same host operations for it, so the comparison never opens it.
-/
import proofs.«146042_j24257975287854_1_alg».proof.Proof.Spec

noncomputable section

namespace Cert.Spec

open Idealize.ShloMosaic

/-- log_softmax (mix₄₀ (relu (mix₆₄ (relu (mix₆₄ (X·W1)) + b1) · W2) + b2) · W3) + b3), with relu folded into `biasClamp`. -/
def network
    (mix64 : FVec Ideal ⟨2, ![50000, 64]⟩ .f32 → FVec Ideal ⟨2, ![50000, 64]⟩ .f32)
    (mix40 : FVec Ideal ⟨2, ![50000, 40]⟩ .f32 → FVec Ideal ⟨2, ![50000, 40]⟩ .f32)
    (X : FVec Ideal ⟨2, ![50000, 128]⟩ .f32) (W1 : FVec Ideal ⟨2, ![128, 64]⟩ .f32) (b1 : FVec Ideal ⟨1, ![64]⟩ .f32)
    (W2 : FVec Ideal ⟨2, ![64, 64]⟩ .f32) (b2 : FVec Ideal ⟨1, ![64]⟩ .f32)
    (W3 : FVec Ideal ⟨2, ![64, 40]⟩ .f32) (b3 : FVec Ideal ⟨1, ![40]⟩ .f32) : FVec Ideal ⟨2, ![50000, 40]⟩ .f32 :=
  logSoftmax (bias (mix40 (mm (biasClamp (mix64 (mm (biasClamp (mix64 (mm X W1)) b1) W2)) b2) W3)) b3)

end Cert.Spec

end
-- ==== Proof.KernelNet.lean ====
/-
  What the idealized kernel computes: the network of the specification, of the arguments as launched.

  The fold of buffer contents through @main is walked backwards from the result buffer: the log-softmax region and the
  last bias region over the third mixing; the second and first dense layers (a matrix product over a bias-and-clamp
  over a mixing, each reading the edge arrays and the normalisation, which pass through every region and stretch
  untouched); the first matrix product; and the three opening stretches, which compute the edge arrays and the
  normalisation from the edge list and leave the arguments alone. The mixing along the edges is kept as the host
  operations spell it (`mix64`, `mix40`: gather by source, scale by the normalisation, scatter-add by target).
-/
import proofs.«146042_j24257975287854_1_alg».proof.Proof.Chain0
import proofs.«146042_j24257975287854_1_alg».proof.Proof.Chain1
import proofs.«146042_j24257975287854_1_alg».proof.Proof.Chain2
import proofs.«146042_j24257975287854_1_alg».proof.Proof.ChainTail
import proofs.«146042_j24257975287854_1_alg».proof.Proof.KernelStretch
import proofs.«146042_j24257975287854_1_alg».proof.Proof.SpecNet

set_option maxRecDepth 16384

noncomputable section

open Idealize.ShloMosaic Idealize.ShloMosaic.TcCoe Idealize.SL.Sem

namespace Cert.KernelIdeal.Net

open Cert.KernelIdeal Cert.KernelIdeal.Gen Cert.KernelIdeal.Stretch

variable [Cert.KernelIdeal.Facts]
variable (m : (ℓ : Loc nD τ sig) → Buf (Elt Ideal) ℓ) (ρ : Dev nD → PrngReg)

/-- The mixing along the edges at 64 columns, from the edge list: the edge arrays and the normalisation are functions
    of the edge list alone. -/
def mix64 (e : S2x800000.Idx → BitVec 32) : (S50000x64.Idx → EReal) → (S50000x64.Idx → EReal) :=
  fun h => agg64 h (rowOf e) (colOf e) (normOf (rowOf e) (colOf e))

/-- The same at 40 columns. -/
def mix40 (e : S2x800000.Idx → BitVec 32) : (S50000x40.Idx → EReal) → (S50000x40.Idx → EReal) :=
  fun h => agg40 h (rowOf e) (colOf e) (normOf (rowOf e) (colOf e))

theorem value (c : Dev nD) :
    W13 m ρ c (Proc.devRef .tc main_v79)
      = Cert.Spec.network (mix64 (m ((c.tc : Thread nD τ).loc main_arg1))) (mix40 (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) := by
  -- the stretches leave alone what the later layers read
  have k1 : ∀ (W : Valuation τ sig (Elt Ideal)) (b : Ref sig .tc), b ∈ [main_v3, main_v6, main_v30, main_arg5, main_arg6, main_arg7] →
      StableHlo.after (hostOps1 (F := Ideal)) W (Proc.devRef .tc b) = W (Proc.devRef .tc b) := by
    intro W b hb
    simp only [List.mem_cons, List.mem_singleton, List.not_mem_nil, or_false] at hb
    rcases hb with rfl | rfl | rfl | rfl | rfl | rfl <;> exact kept1 W _ (by decide)
  have k3 : ∀ (W : Valuation τ sig (Elt Ideal)) (b : Ref sig .tc), b ∈ [main_v3, main_v6, main_v30, main_arg7] →
      StableHlo.after (hostOps3 (F := Ideal)) W (Proc.devRef .tc b) = W (Proc.devRef .tc b) := by
    intro W b hb
    simp only [List.mem_cons, List.mem_singleton, List.not_mem_nil, or_false] at hb
    rcases hb with rfl | rfl | rfl | rfl <;> exact kept3 W _ (by decide)
  -- the layers, last first
  have t := Cert.KernelIdeal.Chain.tail_of m ρ agg40 (fun W => h5_v76 W) (fun W => h5_v77 W) c
  have l2 := Cert.KernelIdeal.Chain2.layer m ρ agg64 (fun W => h3_v60 W) (fun W => h3_v61 W) (fun W => kept3 W main_arg6 (by decide)) c
  have l2k := Cert.KernelIdeal.Chain2.kept m ρ k3 c
  have l1 := Cert.KernelIdeal.Chain1.layer m ρ agg64 (fun W => h1_v44 W) (fun W => h1_v45 W) (fun W => kept1 W main_arg4 (by decide)) c
  have l1k := Cert.KernelIdeal.Chain1.kept m ρ k1 c
  have l0 := Cert.KernelIdeal.Chain0.product m ρ c
  have l0k := Cert.KernelIdeal.Chain0.kept m ρ c
  -- the opening stretches, from the launch contents
  have r3 : W3 m ρ c (Proc.devRef .tc main_v3) = rowOf (m ((c.tc : Thread nD τ).loc main_arg1)) := norm_v3 (W0 m ρ c)
  have c3 : W3 m ρ c (Proc.devRef .tc main_v6) = colOf (m ((c.tc : Thread nD τ).loc main_arg1)) := norm_v6 (W0 m ρ c)
  have n3 : W3 m ρ c (Proc.devRef .tc main_v30) = normOf (rowOf (m ((c.tc : Thread nD τ).loc main_arg1))) (colOf (m ((c.tc : Thread nD τ).loc main_arg1))) := norm_v30 (W0 m ρ c)
  have a0 : W3 m ρ c (Proc.devRef .tc main_arg0) = m ((c.tc : Thread nD τ).loc main_arg0) := norm_arg0 (W0 m ρ c)
  have a2 : W3 m ρ c (Proc.devRef .tc main_arg2) = m ((c.tc : Thread nD τ).loc main_arg2) := norm_arg2 (W0 m ρ c)
  have a3 : W3 m ρ c (Proc.devRef .tc main_arg3) = m ((c.tc : Thread nD τ).loc main_arg3) := norm_arg3 (W0 m ρ c)
  have a4 : W3 m ρ c (Proc.devRef .tc main_arg4) = m ((c.tc : Thread nD τ).loc main_arg4) := norm_arg4 (W0 m ρ c)
  have a5 : W3 m ρ c (Proc.devRef .tc main_arg5) = m ((c.tc : Thread nD τ).loc main_arg5) := norm_arg5 (W0 m ρ c)
  have a6 : W3 m ρ c (Proc.devRef .tc main_arg6) = m ((c.tc : Thread nD τ).loc main_arg6) := norm_arg6 (W0 m ρ c)
  have a7 : W3 m ρ c (Proc.devRef .tc main_arg7) = m ((c.tc : Thread nD τ).loc main_arg7) := norm_arg7 (W0 m ρ c)
  rw [t, l2, l2k main_v3 (by decide), l2k main_v6 (by decide), l2k main_v30 (by decide), l2k main_arg7 (by decide),
    l1, l1k main_v3 (by decide), l1k main_v6 (by decide), l1k main_v30 (by decide), l1k main_arg5 (by decide), l1k main_arg6 (by decide), l1k main_arg7 (by decide),
    l0, l0k main_v3 (by decide), l0k main_v6 (by decide), l0k main_v30 (by decide), l0k main_arg3 (by decide), l0k main_arg4 (by decide),
    l0k main_arg5 (by decide), l0k main_arg6 (by decide), l0k main_arg7 (by decide),
    r3, c3, n3, a0, a2, a3, a4, a5, a6, a7]
  rfl

end Cert.KernelIdeal.Net

end
-- ==== Proof.RefBias.lean ====
/-
  The bias steps of the reference, as whole arrays.

  The reference adds the bias to every row by first making the bias vector b of shape [N] into a one-row array
  [1, N] and then repeating that row down the 50000 rows, both by a broadcast that names which result axis each
  operand axis lands on. Entry (p, q) of the repeated array is b q, so the sum is the array whose entry (p, q) is
  A (p, q) + b q. In the first two layers the reference then takes the entrywise maximum with the array whose every
  entry is the constant 0x00000000: the clamp at zero.
-/
import proofs.«146042_j24257975287854_1_alg».proof.ReferenceIdeal
import proofs.«146042_j24257975287854_1_alg».proof.Proof.Spec
import Idealize.ShloMosaic.Lib.ValueIdx
import Idealize.ShloMosaic.Lib.Pipeline.Value

noncomputable section

namespace Cert.ReferenceIdeal.Bridge
open Cert.ReferenceIdeal Idealize.ShloMosaic Idealize.ShloMosaic.ValueIdx
variable [Cert.ReferenceIdeal.Facts]
open Cert.ReferenceIdeal.Facts₀ Cert.ReferenceIdeal.Facts

/-- A vector of shape [N] made into one row [1, N] and the row repeated down n rows reads, at the index i, the
    vector at i's column. -/
theorem rowOfVec_apply {α : Type} {n N : Nat} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![n, N]⟩ ![0, 1]) (i : (⟨2, ![n, N]⟩ : Shape).Idx) :
    broadcastInDim ⟨2, ![n, N]⟩ ![0, 1] h2 (broadcastInDim ⟨2, ![1, N]⟩ ![1] h1 b) i = b (ix1 (i 1)) := by
  have hcol : (i 1).val = if N = 1 then 0 else (i 1).val := by
    have hlt : (i 1).val < N := (i 1).isLt
    by_cases hN : N = 1
    · rw [if_pos hN]; omega
    · rw [if_neg hN]
  refine (broadcastInDim_apply _ h2 _ i (ix2 (0 : Fin 1) (i 1)) (fun a => ?_)).trans ?_
  · match a with
    | ⟨0, _⟩ => exact (if_pos rfl).symm
    | ⟨1, _⟩ => exact hcol
  · refine broadcastInDim_apply _ h1 b _ (ix1 (i 1)) (fun a => ?_)
    match a with
    | ⟨0, _⟩ => exact hcol

/-- A scalar repeated over a whole array reads, at every index, the scalar. -/
theorem scalarBcast_apply {α : Type} {t : Shape} (c : (⟨0, ![]⟩ : Shape).Idx → α)
    (h : (⟨0, ![]⟩ : Shape).BroadcastsInDim t ![]) (i : t.Idx) :
    broadcastInDim t ![] h c i = c ix0 :=
  broadcastInDim_apply _ h c i ix0 (fun a => a.elim0)

/-- the reference's bias and clamp, as it spells them -/
def refBiasClamp64 (A : FVec Ideal S50000x64 .f32) (b : FVec Ideal S64 .f32) : FVec Ideal S50000x64 .f32 :=
  maximumf (addf A (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- The reference's bias and clamp is the specification's: entry (p, q) is max (A (p, q) + b q) 0. -/
theorem refBiasClamp64_eq (A : FVec Ideal S50000x64 .f32) (b : FVec Ideal S64 .f32) : refBiasClamp64 A b = Cert.Spec.biasClamp A b := by
  funext i
  unfold refBiasClamp64
  refine (maximumf_apply _ _ _).trans ?_
  exact congrArg₂ max (congrArg (A i + ·) (rowOfVec_apply b _ _ i)) (scalarBcast_apply _ _ i)

/-- the reference's last bias, as it spells it -/
def refBias40 (A : FVec Ideal S50000x40 .f32) (b : FVec Ideal S40 .f32) : FVec Ideal S50000x40 .f32 :=
  addf A (broadcastInDim S50000x40 ![0, 1] bcast_S1x40_S50000x40_0_1 (broadcastInDim S1x40 ![1] bcast_S40_S1x40_1 b))

/-- The reference's last bias is the specification's: entry (p, q) is A (p, q) + b q. -/
theorem refBias40_eq (A : FVec Ideal S50000x40 .f32) (b : FVec Ideal S40 .f32) : refBias40 A b = Cert.Spec.bias A b := by
  funext i
  unfold refBias40
  exact congrArg (A i + ·) (rowOfVec_apply b _ _ i)

end Cert.ReferenceIdeal.Bridge
end
-- ==== Proof.RefSoftmaxDef.lean ====
/-
  The reference's log-softmax, in the reference's own words (jax.nn.log_softmax as the host runs it): the row maximum
  reduced from −∞ and compared once more against −∞, kept as a column and broadcast back; the shifted array; the
  exponentials summed over each row from zero, kept as a column; the logarithm; the second subtraction.
-/
import proofs.«146042_j24257975287854_1_alg».proof.ReferenceIdeal
import Idealize.ShloMosaic.PureOps.Ideal

noncomputable section

namespace Cert.ReferenceIdeal.Bridge

open Cert.ReferenceIdeal Idealize.ShloMosaic
variable [Cert.ReferenceIdeal.Facts]
open Cert.ReferenceIdeal.Facts₀ Cert.ReferenceIdeal.Facts

/-- The array minus its row maxima. -/
def refShift (A : FVec Ideal S50000x40 .f32) : FVec Ideal S50000x40 .f32 :=
  subf A (broadcastInDim S50000x40 ![0, 1] bcast_S50000x1_S50000x40_0_1 (broadcastInDim S50000x1 ![0] bcast_S50000_S50000x1_0
    (maximumf (broadcastInDim S50000 ![] bcast_S_S50000 (constant (F := Ideal) S_ .f32 0xFF800000#32))
      (Host.reduce FloatOps.maximumf A (constant (F := Ideal) S_ .f32 0xFF800000#32) reducesTo_S50000x40_S50000_d1 h_S_))))

/-- The shifted array minus the logarithm of each row's sum of exponentials. -/
def refLogSoftmax (A : FVec Ideal S50000x40 .f32) : FVec Ideal S50000x40 .f32 :=
  subf (refShift A) (broadcastInDim S50000x40 ![0, 1] bcast_S50000x1_S50000x40_0_1 (Host.log (broadcastInDim S50000x1 ![0] bcast_S50000_S50000x1_0
    (Host.reduceAdd (Host.exp (refShift A)) (constant (F := Ideal) S_ .f32 0x00000000#32) reducesTo_S50000x40_S50000_d1 h_S_))))

end Cert.ReferenceIdeal.Bridge

end
-- ==== Proof.RefStages.lean ====
/-
  The reference's run, read back in stages.

  The reference is one straight line of 122 array operations. Each operation replaces the contents of the one buffer
  it writes by its function of the contents of the buffers it reads, and leaves every other buffer alone; the
  contents after the whole line are the fold of these replacements over the contents at launch.

  The line is cut by position into six consecutive pieces: the edge lists (the two rows of the edge array, each
  followed by the self loops), the edge weights (the inverse square roots of the in-degrees, multiplied over each
  edge's two ends), the three layers (a matrix product, the mixing of rows along the edges, a bias, and in the first
  two a clamp at zero), and the row-wise log-softmax. For each piece, and for ARBITRARY contents W before it, the
  contents after it are read at the buffers a later piece needs: at a buffer the piece writes they are a closed term
  over W at the buffers the piece reads from outside; at a buffer it does not write they are what W had there.
  Chaining the six readings gives the result buffer as one closed term of the eight arguments (refResult), and
  every argument buffer unchanged.
-/
import proofs.«146042_j24257975287854_1_alg».proof.Proof.RefRun
import proofs.«146042_j24257975287854_1_alg».proof.Proof.RefBias
import proofs.«146042_j24257975287854_1_alg».proof.Proof.RefSoftmaxDef
import Idealize.ShloMosaic.Lib.StableHlo.Run
import Idealize.ShloMosaic.PureOps.Ideal

noncomputable section

namespace Cert.ReferenceIdeal.Stages
open Cert.ReferenceIdeal Cert.ReferenceIdeal.ValueP Cert.ReferenceIdeal.Bridge Idealize.ShloMosaic Idealize.ShloMosaic.StableHlo Idealize.SL.Sem
variable [Cert.ReferenceIdeal.Facts]
open Cert.ReferenceIdeal.Facts₀ Cert.ReferenceIdeal.Facts

/-! ## The fold over a concatenation, and the cut -/

/-- Running two lists of operations one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The reference's operations over the extended reals. -/
abbrev opsI : List (HloOp τ sig (Elt Ideal)) := ops (F := Ideal)

/-- The edge lists: operations 0 to 6. -/
def sEdges : List (HloOp τ sig (Elt Ideal)) := opsI.take 7
/-- The edge weights: operations 7 to 40. -/
def sNorm : List (HloOp τ sig (Elt Ideal)) := (opsI.drop 7).take 34
/-- The first layer: operations 41 to 63. -/
def sL1 : List (HloOp τ sig (Elt Ideal)) := (opsI.drop 41).take 23
/-- The second layer: operations 64 to 86. -/
def sL2 : List (HloOp τ sig (Elt Ideal)) := (opsI.drop 64).take 23
/-- The third layer: operations 87 to 106. -/
def sL3 : List (HloOp τ sig (Elt Ideal)) := (opsI.drop 87).take 20
/-- The row-wise log-softmax: operations 107 to 121. -/
def sSm : List (HloOp τ sig (Elt Ideal)) := opsI.drop 107

set_option maxRecDepth 8192 in
/-- The six pieces, in order, are the whole line. -/
theorem ops_split : opsI = sEdges ++ sNorm ++ sL1 ++ sL2 ++ sL3 ++ sSm := rfl

/-- The contents after the whole line are those after the six pieces, one after the other. -/
theorem after_ops_eq (V : Valuation τ sig (Elt Ideal)) :
    after opsI V = after sSm (after sL3 (after sL2 (after sL1 (after sNorm (after sEdges V))))) :=
  (congrArg (fun l => after l V) ops_split).trans (by simp only [after_append])

/-! ## The functions the pieces compute -/

/-- The source of every edge: the first row of the edge array, followed by the 50000 self loops 0, 1, …, 49999. -/
def rowOf (e : (⟨S2x800000, .i32⟩ : BufTy).Contents (Elt Ideal)) : (⟨S850000, .i32⟩ : BufTy).Contents (Elt Ideal) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The target of every edge: the second row of the edge array, followed by the same self loops. -/
def colOf (e : (⟨S2x800000, .i32⟩ : BufTy).Contents (Elt Ideal)) : (⟨S850000, .i32⟩ : BufTy).Contents (Elt Ideal) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- The weight of every edge before normalisation: one. -/
def onesE : (⟨S850000, .f32⟩ : BufTy).Contents (Elt Ideal) :=
  broadcastInDim S850000 ![] bcast_S_S850000 (constant (F := Ideal) S_ .f32 0x3F800000#32)

/-- The degree of every node: the edge weights (all one) added up at each edge's target, from zero. -/
def degOf (col : (⟨S850000, .i32⟩ : BufTy).Contents (Elt Ideal)) : (⟨S50000, .f32⟩ : BufTy).Contents (Elt Ideal) :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 col) onesE

/-- Whether a node's degree is positive. -/
def degPos (col : (⟨S850000, .i32⟩ : BufTy).Contents (Elt Ideal)) : (⟨S50000, .i1⟩ : BufTy).Contents (Elt Ideal) :=
  cmpf (F := Ideal) .ogt (degOf col) (broadcastInDim S50000 ![] bcast_S_S50000 (constant (F := Ideal) S_ .f32 0x00000000#32))

/-- The inverse square root of the degree where the degree is positive, zero elsewhere. -/
def dinvOf (col : (⟨S850000, .i32⟩ : BufTy).Contents (Elt Ideal)) : (⟨S50000, .f32⟩ : BufTy).Contents (Elt Ideal) :=
  select (degPos col) (Host.rsqrt (F := Ideal) (φ := .f32) (degOf col)) (broadcastInDim S50000 ![] bcast_S_S50000 (id (constant (F := Ideal) S_ .f32 0x00000000#32)))

/-- The normalised weight of every edge from a given inverse-root-degree vector and given unit weights: the vector at
    the edge's source, times the unit weight, times the vector at the edge's target. A negative index is first moved
    up by the number of nodes. -/
def normFrom (dinv : (⟨S50000, .f32⟩ : BufTy).Contents (Elt Ideal)) (ones : (⟨S850000, .f32⟩ : BufTy).Contents (Elt Ideal)) (row col : (⟨S850000, .i32⟩ : BufTy).Contents (Elt Ideal)) : (⟨S850000, .f32⟩ : BufTy).Contents (Elt Ideal) :=
  mulf (F := Ideal) (φ := .f32) (mulf (F := Ideal) (φ := .f32) (Host.gather gather_S50000_S850000x1_S850000_n_0_n_n_0_1_1 dinv (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) ones)
    (Host.gather gather_S50000_S850000x1_S850000_n_0_n_n_0_1_1 dinv (broadcastInDim S850000x1 ![0] bcast_S850000_S850000x1_0 (select (cmpi .slt col (broadcastInDim S850000 ![] bcast_S_S850000 (constantI S_ 32 0#32))) (addi col (broadcastInDim S850000 ![] bcast_S_S850000 (constantI S_ 32 50000#32))) col)))

/-- The normalised weight of every edge: dinv (source) · 1 · dinv (target), the degrees counted at the targets. -/
def normOf (row col : (⟨S850000, .i32⟩ : BufTy).Contents (Elt Ideal)) : (⟨S850000, .f32⟩ : BufTy).Contents (Elt Ideal) :=
  normFrom (dinvOf col) onesE row col

/-- One round of mixing at 64 columns: take the rows of h at the edges' sources, scale each by its edge's weight, and
    add them up at the edges' targets, from zero. -/
def agg64 (h : (⟨S50000x64, .f32⟩ : BufTy).Contents (Elt Ideal)) (row col : (⟨S850000, .i32⟩ : BufTy).Contents (Elt Ideal)) (norm : (⟨S850000, .f32⟩ : BufTy).Contents (Elt Ideal)) : (⟨S50000x64, .f32⟩ : BufTy).Contents (Elt Ideal) :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 col) (mulf (Host.gather gather_S50000x64_S850000x1_S850000x64_1_0_n_n_0_1_164 h (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) (broadcastInDim S850000x64 ![0, 1] bcast_S850000x1_S850000x64_0_1 (broadcastInDim S850000x1 ![0] bcast_S850000_S850000x1_0 norm)))

/-- The same round at 40 columns. -/
def agg40 (h : (⟨S50000x40, .f32⟩ : BufTy).Contents (Elt Ideal)) (row col : (⟨S850000, .i32⟩ : BufTy).Contents (Elt Ideal)) (norm : (⟨S850000, .f32⟩ : BufTy).Contents (Elt Ideal)) : (⟨S50000x40, .f32⟩ : BufTy).Contents (Elt Ideal) :=
  Host.scatterAdd (F := Ideal) scatter_S50000x40_S850000x1_S850000x40_1_0_0_1 (broadcastInDim S50000x40 ![] bcast_S_S50000x40 (constant (F := Ideal) S_ .f32 0x00000000#32)) (broadcastInDim S850000x1 ![0] bcast_S850000_S850000x1_0 col) (mulf (Host.gather gather_S50000x40_S850000x1_S850000x40_1_0_n_n_0_1_140 h (broadcastInDim S850000x1 ![0] bcast_S850000_S850000x1_0 (select (cmpi .slt row (broadcastInDim S850000 ![] bcast_S_S850000 (constantI S_ 32 0#32))) (addi row (broadcastInDim S850000 ![] bcast_S_S850000 (constantI S_ 32 50000#32))) row))) (broadcastInDim S850000x40 ![0, 1] bcast_S850000x1_S850000x40_0_1 (broadcastInDim S850000x1 ![0] bcast_S850000_S850000x1_0 norm)))

/-- Makes a piece a literal list of operations, reads every operation's result, and removes the identity recasts
    between a buffer's type and the type of the value it holds. -/
macro "read_piece" : tactic =>
  `(tactic| (simp only [sEdges, sNorm, sL1, sL2, sL3, sSm, opsI, ops, List.take_succ_cons, List.take_zero, List.drop_succ_cons, List.drop_zero]
             after_results_simp
             try simp only [TRef.toBuf, TRef.ofBuf]
             repeat rw [cast_eq]))

/-! ## What each piece leaves untouched

An operation rewrites only the buffer it writes. So a piece leaves alone every buffer that is not among the ones its
operations write, whatever the contents it starts from. -/

/-- Every buffer that the edge lists piece writes. -/
abbrev writesE : List (Ref sig .tc) := [main_v0, main_v1, main_v2, main_v3, main_v4, main_v5, main_v6]
/-- Every operation of the piece writes one of them. -/
theorem writesE_sub : sEdges.Forall fun op => op.writes ⊆ ((writesE).map (Proc.devRef (τ := τ) .tc)).toFinset := by
  simp only [sEdges, opsI, ops, List.take_succ_cons, List.take_zero, List.drop_succ_cons, List.drop_zero, writesE, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the piece does not write keeps its contents. -/
theorem keptE (W : Valuation τ sig (Elt Ideal)) (b : Ref sig .tc) (hb : b ∉ writesE) :
    after sEdges W (Proc.devRef .tc b) = W (Proc.devRef .tc b) :=
  after_of_writes_sub _ W writesE_sub hb

/-- Every buffer that the edge weights piece writes. -/
abbrev writesN : List (Ref sig .tc) := [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_v22, main_c_4, main_v23, main_v24, main_c_5, main_v25, main_v26, main_v27, main_v28, main_v29, main_v30]
/-- Every operation of the piece writes one of them. -/
theorem writesN_sub : sNorm.Forall fun op => op.writes ⊆ ((writesN).map (Proc.devRef (τ := τ) .tc)).toFinset := by
  simp only [sNorm, opsI, ops, List.take_succ_cons, List.take_zero, List.drop_succ_cons, List.drop_zero, writesN, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the piece does not write keeps its contents. -/
theorem keptN (W : Valuation τ sig (Elt Ideal)) (b : Ref sig .tc) (hb : b ∉ writesN) :
    after sNorm W (Proc.devRef .tc b) = W (Proc.devRef .tc b) :=
  after_of_writes_sub _ W writesN_sub hb

/-- Every buffer that the first layer piece writes. -/
abbrev writes1 : List (Ref sig .tc) := [main_v31, main_c_6, main_v32, main_v33, main_c_7, main_v34, main_v35, main_v36, main_v37, main_v38, main_v39, main_v40, main_v41, main_cst_8, main_v42, main_v43, main_v44, main_v45, main_v46, main_v47, main_call1_cst, main_call1_v0, main_v48]
/-- Every operation of the piece writes one of them. -/
theorem writes1_sub : sL1.Forall fun op => op.writes ⊆ ((writes1).map (Proc.devRef (τ := τ) .tc)).toFinset := by
  simp only [sL1, opsI, ops, List.take_succ_cons, List.take_zero, List.drop_succ_cons, List.drop_zero, writes1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the piece does not write keeps its contents. -/
theorem kept1 (W : Valuation τ sig (Elt Ideal)) (b : Ref sig .tc) (hb : b ∉ writes1) :
    after sL1 W (Proc.devRef .tc b) = W (Proc.devRef .tc b) :=
  after_of_writes_sub _ W writes1_sub hb

/-- Every buffer that the second layer piece writes. -/
abbrev writes2 : List (Ref sig .tc) := [main_v49, main_c_9, main_v50, main_v51, main_c_10, main_v52, main_v53, main_v54, main_v55, main_v56, main_v57, main_v58, main_v59, main_cst_11, main_v60, main_v61, main_v62, main_v63, main_v64, main_v65, main_call2_cst, main_call2_v0, main_v66]
/-- Every operation of the piece writes one of them. -/
theorem writes2_sub : sL2.Forall fun op => op.writes ⊆ ((writes2).map (Proc.devRef (τ := τ) .tc)).toFinset := by
  simp only [sL2, opsI, ops, List.take_succ_cons, List.take_zero, List.drop_succ_cons, List.drop_zero, writes2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the piece does not write keeps its contents. -/
theorem kept2 (W : Valuation τ sig (Elt Ideal)) (b : Ref sig .tc) (hb : b ∉ writes2) :
    after sL2 W (Proc.devRef .tc b) = W (Proc.devRef .tc b) :=
  after_of_writes_sub _ W writes2_sub hb

/-- Every buffer that the third layer piece writes. -/
abbrev writes3 : List (Ref sig .tc) := [main_v67, main_c_12, main_v68, main_v69, main_c_13, main_v70, main_v71, main_v72, main_v73, main_v74, main_v75, main_v76, main_v77, main_cst_14, main_v78, main_v79, main_v80, main_v81, main_v82, main_v83]
/-- Every operation of the piece writes one of them. -/
theorem writes3_sub : sL3.Forall fun op => op.writes ⊆ ((writes3).map (Proc.devRef (τ := τ) .tc)).toFinset := by
  simp only [sL3, opsI, ops, List.take_succ_cons, List.take_zero, List.drop_succ_cons, List.drop_zero, writes3, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the piece does not write keeps its contents. -/
theorem kept3 (W : Valuation τ sig (Elt Ideal)) (b : Ref sig .tc) (hb : b ∉ writes3) :
    after sL3 W (Proc.devRef .tc b) = W (Proc.devRef .tc b) :=
  after_of_writes_sub _ W writes3_sub hb

/-- Every buffer that the log-softmax piece writes. -/
abbrev writesS : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v84]
/-- Every operation of the piece writes one of them. -/
theorem writesS_sub : sSm.Forall fun op => op.writes ⊆ ((writesS).map (Proc.devRef (τ := τ) .tc)).toFinset := by
  simp only [sSm, opsI, ops, List.take_succ_cons, List.take_zero, List.drop_succ_cons, List.drop_zero, writesS, List.Forall, StableHlo.nullary_writes, StableHlo.unary_writes, StableHlo.binary_writes, StableHlo.ternary_writes, StableHlo.reshape_writes, Finset.singleton_subset_iff]
  repeat' apply And.intro
  all_goals exact List.mem_toFinset.mpr (List.mem_map.mpr ⟨_, by decide, rfl⟩)
/-- A buffer the piece does not write keeps its contents. -/
theorem keptS (W : Valuation τ sig (Elt Ideal)) (b : Ref sig .tc) (hb : b ∉ writesS) :
    after sSm W (Proc.devRef .tc b) = W (Proc.devRef .tc b) :=
  after_of_writes_sub _ W writesS_sub hb

/-! ## What each piece computes -/

/-- After the first piece the sources of the edges are in place. -/
theorem edges_v3 (W : Valuation τ sig (Elt Ideal)) :
    after sEdges W (Proc.devRef .tc main_v3) = rowOf (W (Proc.devRef .tc main_arg1)) := by
  read_piece <;> rfl

/-- After the first piece the targets of the edges are in place. -/
theorem edges_v6 (W : Valuation τ sig (Elt Ideal)) :
    after sEdges W (Proc.devRef .tc main_v6) = colOf (W (Proc.devRef .tc main_arg1)) := by
  read_piece <;> rfl

set_option maxRecDepth 8192 in
/-- The second piece leaves the weight of every edge, from the edge lists it finds. -/
theorem norm_v30 (W : Valuation τ sig (Elt Ideal)) :
    after sNorm W (Proc.devRef .tc main_v30) = normOf (W (Proc.devRef .tc main_v3)) (W (Proc.devRef .tc main_v6)) := by
  read_piece <;> rfl

set_option maxRecDepth 8192 in
/-- The first layer: product with the first weight matrix, mixing along the edges, bias and clamp. -/
theorem l1_v48 (W : Valuation τ sig (Elt Ideal)) :
    after sL1 W (Proc.devRef .tc main_v48)
      = refBiasClamp64 (agg64 (Host.dotGeneral (F := Ideal) (φ₁ := .f32) (φ₂ := .f32) dot_S50000x128_S128x64_S50000x64_1_0_0_1_n_n none (W (Proc.devRef .tc main_arg0)) (W (Proc.devRef .tc main_arg2)))
          (W (Proc.devRef .tc main_v3)) (W (Proc.devRef .tc main_v6)) (W (Proc.devRef .tc main_v30))) (W (Proc.devRef .tc main_arg3)) := by
  read_piece <;> rfl

set_option maxRecDepth 8192 in
/-- The second layer: the same with the second weight matrix and bias, from the first layer's output. -/
theorem l2_v66 (W : Valuation τ sig (Elt Ideal)) :
    after sL2 W (Proc.devRef .tc main_v66)
      = refBiasClamp64 (agg64 (Host.dotGeneral (F := Ideal) (φ₁ := .f32) (φ₂ := .f32) dot_S50000x64_S64x64_S50000x64_1_0_0_1_n_n none (W (Proc.devRef .tc main_v48)) (W (Proc.devRef .tc main_arg4)))
          (W (Proc.devRef .tc main_v3)) (W (Proc.devRef .tc main_v6)) (W (Proc.devRef .tc main_v30))) (W (Proc.devRef .tc main_arg5)) := by
  read_piece <;> rfl

set_option maxRecDepth 8192 in
/-- The third layer: product with the third weight matrix, mixing along the edges, bias; no clamp. -/
theorem l3_v83 (W : Valuation τ sig (Elt Ideal)) :
    after sL3 W (Proc.devRef .tc main_v83)
      = refBias40 (agg40 (Host.dotGeneral (F := Ideal) (φ₁ := .f32) (φ₂ := .f32) dot_S50000x64_S64x40_S50000x40_1_0_0_1_n_n none (W (Proc.devRef .tc main_v66)) (W (Proc.devRef .tc main_arg6)))
          (W (Proc.devRef .tc main_v3)) (W (Proc.devRef .tc main_v6)) (W (Proc.devRef .tc main_v30))) (W (Proc.devRef .tc main_arg7)) := by
  read_piece <;> rfl

set_option maxRecDepth 8192 in
/-- The last piece: the row-wise log-softmax of the third layer's output. -/
theorem sm_v84 (W : Valuation τ sig (Elt Ideal)) :
    after sSm W (Proc.devRef .tc main_v84) = refLogSoftmax (W (Proc.devRef .tc main_v83)) := by
  read_piece <;> rfl

/-! ## The six readings chained -/

/-- The reference's result as one closed term of its eight arguments: three layers over the same edge lists and edge
    weights, then the row-wise log-softmax. -/
def refResult (x0 : FVec Ideal S50000x128 .f32) (x1 : IVec S2x800000 32) (x2 : FVec Ideal S128x64 .f32) (x3 : FVec Ideal S64 .f32)
    (x4 : FVec Ideal S64x64 .f32) (x5 : FVec Ideal S64 .f32) (x6 : FVec Ideal S64x40 .f32) (x7 : FVec Ideal S40 .f32) : FVec Ideal S50000x40 .f32 :=
  refLogSoftmax (refBias40 (agg40 (Host.dotGeneral (F := Ideal) (φ₁ := .f32) (φ₂ := .f32) dot_S50000x64_S64x40_S50000x40_1_0_0_1_n_n none
    (refBiasClamp64 (agg64 (Host.dotGeneral (F := Ideal) (φ₁ := .f32) (φ₂ := .f32) dot_S50000x64_S64x64_S50000x64_1_0_0_1_n_n none
      (refBiasClamp64 (agg64 (Host.dotGeneral (F := Ideal) (φ₁ := .f32) (φ₂ := .f32) dot_S50000x128_S128x64_S50000x64_1_0_0_1_n_n none x0 x2)
        (rowOf x1) (colOf x1) (normOf (rowOf x1) (colOf x1))) x3) x4)
      (rowOf x1) (colOf x1) (normOf (rowOf x1) (colOf x1))) x5) x6)
    (rowOf x1) (colOf x1) (normOf (rowOf x1) (colOf x1))) x7)

/-- A buffer that no piece writes holds after the whole line what it held before. -/
theorem chain_kept (V : Valuation τ sig (Elt Ideal)) (b : Ref sig .tc) (hE : b ∉ writesE) (hN : b ∉ writesN) (h1 : b ∉ writes1)
    (h2 : b ∉ writes2) (h3 : b ∉ writes3) (hS : b ∉ writesS) :
    after opsI V (Proc.devRef .tc b) = V (Proc.devRef .tc b) := by
  rw [after_ops_eq, keptS _ b hS, kept3 _ b h3, kept2 _ b h2, kept1 _ b h1, keptN _ b hN, keptE _ b hE]

/-- From any contents, the result buffer after the whole line is the closed term of the argument buffers. -/
theorem chain_v84 (V : Valuation τ sig (Elt Ideal)) :
    after opsI V (Proc.devRef .tc main_v84)
      = refResult (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [after_ops_eq, sm_v84, l3_v83, l2_v66,
    kept2 _ main_arg6 (by decide), kept2 _ main_arg7 (by decide), kept2 _ main_v3 (by decide), kept2 _ main_v6 (by decide), kept2 _ main_v30 (by decide),
    l1_v48,
    kept1 _ main_arg4 (by decide), kept1 _ main_arg5 (by decide), kept1 _ main_arg6 (by decide), kept1 _ main_arg7 (by decide), kept1 _ main_v3 (by decide), kept1 _ main_v6 (by decide), kept1 _ main_v30 (by decide),
    norm_v30,
    keptN _ main_arg0 (by decide), keptN _ main_arg2 (by decide), keptN _ main_arg3 (by decide), keptN _ main_arg4 (by decide), keptN _ main_arg5 (by decide), keptN _ main_arg6 (by decide), keptN _ main_arg7 (by decide), keptN _ main_v3 (by decide), keptN _ main_v6 (by decide),
    edges_v3, edges_v6,
    keptE _ main_arg0 (by decide), keptE _ main_arg2 (by decide), keptE _ main_arg3 (by decide), keptE _ main_arg4 (by decide), keptE _ main_arg5 (by decide), keptE _ main_arg6 (by decide), keptE _ main_arg7 (by decide)]
  rfl

/-! ## The run -/

/-- The result buffer after the whole line, from the launch contents of a device. -/
theorem after_ops (m : (ℓ : Loc nD τ sig) → Buf (Elt Ideal) ℓ) (d : Dev nD) :
    after opsI (launchContents m d) (Proc.devRef .tc main_v84)
      = refResult (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) :=
  chain_v84 (launchContents m d)

/-- Argument 0 is not written. -/
theorem after_arg0 (m : (ℓ : Loc nD τ sig) → Buf (Elt Ideal) ℓ) (d : Dev nD) :
    after opsI (launchContents m d) (Proc.devRef .tc main_arg0) = m ((d.tc : Thread nD τ).loc main_arg0) :=
  chain_kept (launchContents m d) main_arg0 (by decide) (by decide) (by decide) (by decide) (by decide) (by decide)

/-- Argument 1 is not written. -/
theorem after_arg1 (m : (ℓ : Loc nD τ sig) → Buf (Elt Ideal) ℓ) (d : Dev nD) :
    after opsI (launchContents m d) (Proc.devRef .tc main_arg1) = m ((d.tc : Thread nD τ).loc main_arg1) :=
  chain_kept (launchContents m d) main_arg1 (by decide) (by decide) (by decide) (by decide) (by decide) (by decide)

/-- Argument 2 is not written. -/
theorem after_arg2 (m : (ℓ : Loc nD τ sig) → Buf (Elt Ideal) ℓ) (d : Dev nD) :
    after opsI (launchContents m d) (Proc.devRef .tc main_arg2) = m ((d.tc : Thread nD τ).loc main_arg2) :=
  chain_kept (launchContents m d) main_arg2 (by decide) (by decide) (by decide) (by decide) (by decide) (by decide)

/-- Argument 3 is not written. -/
theorem after_arg3 (m : (ℓ : Loc nD τ sig) → Buf (Elt Ideal) ℓ) (d : Dev nD) :
    after opsI (launchContents m d) (Proc.devRef .tc main_arg3) = m ((d.tc : Thread nD τ).loc main_arg3) :=
  chain_kept (launchContents m d) main_arg3 (by decide) (by decide) (by decide) (by decide) (by decide) (by decide)

/-- Argument 4 is not written. -/
theorem after_arg4 (m : (ℓ : Loc nD τ sig) → Buf (Elt Ideal) ℓ) (d : Dev nD) :
    after opsI (launchContents m d) (Proc.devRef .tc main_arg4) = m ((d.tc : Thread nD τ).loc main_arg4) :=
  chain_kept (launchContents m d) main_arg4 (by decide) (by decide) (by decide) (by decide) (by decide) (by decide)

/-- Argument 5 is not written. -/
theorem after_arg5 (m : (ℓ : Loc nD τ sig) → Buf (Elt Ideal) ℓ) (d : Dev nD) :
    after opsI (launchContents m d) (Proc.devRef .tc main_arg5) = m ((d.tc : Thread nD τ).loc main_arg5) :=
  chain_kept (launchContents m d) main_arg5 (by decide) (by decide) (by decide) (by decide) (by decide) (by decide)

/-- Argument 6 is not written. -/
theorem after_arg6 (m : (ℓ : Loc nD τ sig) → Buf (Elt Ideal) ℓ) (d : Dev nD) :
    after opsI (launchContents m d) (Proc.devRef .tc main_arg6) = m ((d.tc : Thread nD τ).loc main_arg6) :=
  chain_kept (launchContents m d) main_arg6 (by decide) (by decide) (by decide) (by decide) (by decide) (by decide)

/-- Argument 7 is not written. -/
theorem after_arg7 (m : (ℓ : Loc nD τ sig) → Buf (Elt Ideal) ℓ) (d : Dev nD) :
    after opsI (launchContents m d) (Proc.devRef .tc main_arg7) = m ((d.tc : Thread nD τ).loc main_arg7) :=
  chain_kept (launchContents m d) main_arg7 (by decide) (by decide) (by decide) (by decide) (by decide) (by decide)

set_option maxRecDepth 8192 in
set_option maxHeartbeats 48800000 in
/-- On every device, from any memory with zero counters: every weakly fair execution of the reference terminates
    with the result buffer at the closed term of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (after_ops m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c)⟩)
    (run_seq scopedRefs_eq scopedSems_eq defs main (fun _ => ops) main_eq (fun _ => ops_sub) m ρ)

end Cert.ReferenceIdeal.Stages
end
-- ==== Proof.RefMatmul.lean ====
/-
  The reference's three matrix products are the row-by-column product of the specification.

  The host's general dot product of a [50000, K] array with a [K, N] array contracts the columns of the first against
  the rows of the second, with no batch axis. On the extended reals its entry at an output index is the sum, over the
  index set of the contraction shape, of the products of the operands at the indices the dimension numbers assign. That
  shape has one axis of extent K, so the sum is re-indexed by k < K; on the contracted axis an operand's index is k, on
  the free axis it is the output's coordinate. Entry (p, q) is therefore the sum over k of X (p, k) · W (k, q).
-/
import proofs.«146042_j24257975287854_1_alg».proof.ReferenceIdeal
import proofs.«146042_j24257975287854_1_alg».proof.Proof.Spec
import Idealize.ShloMosaic.Lib.ValueIdx
import Idealize.ShloMosaic.PureOps.Ideal.Laws

noncomputable section
open scoped BigOperators

namespace Cert.ReferenceIdeal.Bridge
open Cert.ReferenceIdeal Idealize.ShloMosaic Idealize.ShloMosaic.ValueIdx
variable [Cert.ReferenceIdeal.Facts]
open Cert.ReferenceIdeal.Facts₀ Cert.ReferenceIdeal.Facts

/-! ### The 50000 × 128 by 128 × 64 product -/

/-- The left operand's index on its free axis (rows) is the output's row: rows are not a batch axis (there is none) and
    are the one free axis of the left operand. -/
theorem lhs0_128x64 (i : S50000x64.Idx) (c : dot_S50000x128_S128x64_S50000x64_1_0_0_1_n_n.contr.Idx) :
    (dot_S50000x128_S128x64_S50000x64_1_0_0_1_n_n.lhsIdx i c 0).val = (i 0).val := by
  have hb : ¬(0 : Fin S50000x128.rank) ∈ dot_S50000x128_S128x64_S50000x64_1_0_0_1_n_n.lhsBatch := by
    show ¬(0 : Fin S50000x128.rank) ∈ ([] : List (Fin S50000x128.rank))
    simp
  have hn : (0 : Fin S50000x128.rank) ∈ dot_S50000x128_S128x64_S50000x64_1_0_0_1_n_n.lhsNonContracting := by
    show (0 : Fin S50000x128.rank) ∈ ([0] : List (Fin S50000x128.rank))
    simp
  unfold DotDims.lhsIdx
  rw [dif_neg hb, dif_pos hn]
  rfl
/-- The right operand's index on its free axis (columns) is the output's column. -/
theorem rhs1_128x64 (i : S50000x64.Idx) (c : dot_S50000x128_S128x64_S50000x64_1_0_0_1_n_n.contr.Idx) :
    (dot_S50000x128_S128x64_S50000x64_1_0_0_1_n_n.rhsIdx i c 1).val = (i 1).val := by
  have hb : ¬(1 : Fin S128x64.rank) ∈ dot_S50000x128_S128x64_S50000x64_1_0_0_1_n_n.rhsBatch := by
    show ¬(1 : Fin S128x64.rank) ∈ ([] : List (Fin S128x64.rank))
    simp
  have hn : (1 : Fin S128x64.rank) ∈ dot_S50000x128_S128x64_S50000x64_1_0_0_1_n_n.rhsNonContracting := by
    show (1 : Fin S128x64.rank) ∈ ([1] : List (Fin S128x64.rank))
    simp
  unfold DotDims.rhsIdx
  rw [dif_neg hb, dif_pos hn]
  rfl

/-- The sum over the contraction index set, re-indexed by the contracted extent: entry (p, q) is
    the sum over k of X (p, k) · W (k, q). On the contracted axis (the left operand's columns, the right operand's
    rows) an operand's index is the contraction position. -/
theorem sum_128x64 (X : S50000x128.Idx → EReal) (W : S128x64.Idx → EReal) (p : Fin 50000) (q : Fin 64) :
    (∑ c : dot_S50000x128_S128x64_S50000x64_1_0_0_1_n_n.contr.Idx, X (dot_S50000x128_S128x64_S50000x64_1_0_0_1_n_n.lhsIdx (ix2 p q) c) * W (dot_S50000x128_S128x64_S50000x64_1_0_0_1_n_n.rhsIdx (ix2 p q) c))
      = ∑ k : Fin 128, X (ix2 p k) * W (ix2 k q) := by
  rw [← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 p q) ((contrEquiv1 dot_S50000x128_S128x64_S50000x64_1_0_0_1_n_n 128 rfl rfl).symm k) = ix2 p k := funext fun a => Fin.ext (by
    match a with
    | ⟨0, _⟩ => exact lhs0_128x64 _ _
    | ⟨1, _⟩ => exact (dot_S50000x128_S128x64_S50000x64_1_0_0_1_n_n.lhsIdx_val_of_single rfl _ _).trans hk)
  have er : dot_S50000x128_S128x64_S50000x64_1_0_0_1_n_n.rhsIdx (ix2 p q) ((contrEquiv1 dot_S50000x128_S128x64_S50000x64_1_0_0_1_n_n 128 rfl rfl).symm k) = ix2 k q := funext fun a => Fin.ext (by
    match a with
    | ⟨0, _⟩ => exact (dot_S50000x128_S128x64_S50000x64_1_0_0_1_n_n.rhsIdx_val_of_single rfl _ _).trans hk
    | ⟨1, _⟩ => exact rhs1_128x64 _ _)
  rw [el, er]

/-- The host's product of the whole [50000, 128] and [128, 64] arrays is the specification's product: entry by entry, the
    sum over the contraction index set is the sum over k. -/
theorem dot1_eq (x : FVec Ideal S50000x128 .f32) (w : FVec Ideal S128x64 .f32) :
    Host.dotGeneral (F := Ideal) dot_S50000x128_S128x64_S50000x64_1_0_0_1_n_n none x w = Cert.Spec.mm x w := by
  funext i
  obtain ⟨p, q, rfl⟩ : ∃ (p : Fin 50000) (q : Fin 64), i = ix2 p q := ⟨i 0, i 1, eq_ix2 i⟩
  simp only [Host.dotGeneral]
  refine (Ideal.dotGeneral_apply dot_S50000x128_S128x64_S50000x64_1_0_0_1_n_n none _ x w (ix2 p q)).trans ?_
  exact (sum_128x64 x w p q).trans (Cert.Spec.mm_apply x w p q).symm

/-! ### The 50000 × 64 by 64 × 64 product -/

/-- The left operand's index on its free axis (rows) is the output's row: rows are not a batch axis (there is none) and
    are the one free axis of the left operand. -/
theorem lhs0_64x64 (i : S50000x64.Idx) (c : dot_S50000x64_S64x64_S50000x64_1_0_0_1_n_n.contr.Idx) :
    (dot_S50000x64_S64x64_S50000x64_1_0_0_1_n_n.lhsIdx i c 0).val = (i 0).val := by
  have hb : ¬(0 : Fin S50000x64.rank) ∈ dot_S50000x64_S64x64_S50000x64_1_0_0_1_n_n.lhsBatch := by
    show ¬(0 : Fin S50000x64.rank) ∈ ([] : List (Fin S50000x64.rank))
    simp
  have hn : (0 : Fin S50000x64.rank) ∈ dot_S50000x64_S64x64_S50000x64_1_0_0_1_n_n.lhsNonContracting := by
    show (0 : Fin S50000x64.rank) ∈ ([0] : List (Fin S50000x64.rank))
    simp
  unfold DotDims.lhsIdx
  rw [dif_neg hb, dif_pos hn]
  rfl
/-- The right operand's index on its free axis (columns) is the output's column. -/
theorem rhs1_64x64 (i : S50000x64.Idx) (c : dot_S50000x64_S64x64_S50000x64_1_0_0_1_n_n.contr.Idx) :
    (dot_S50000x64_S64x64_S50000x64_1_0_0_1_n_n.rhsIdx i c 1).val = (i 1).val := by
  have hb : ¬(1 : Fin S64x64.rank) ∈ dot_S50000x64_S64x64_S50000x64_1_0_0_1_n_n.rhsBatch := by
    show ¬(1 : Fin S64x64.rank) ∈ ([] : List (Fin S64x64.rank))
    simp
  have hn : (1 : Fin S64x64.rank) ∈ dot_S50000x64_S64x64_S50000x64_1_0_0_1_n_n.rhsNonContracting := by
    show (1 : Fin S64x64.rank) ∈ ([1] : List (Fin S64x64.rank))
    simp
  unfold DotDims.rhsIdx
  rw [dif_neg hb, dif_pos hn]
  rfl

/-- The sum over the contraction index set, re-indexed by the contracted extent: entry (p, q) is
    the sum over k of X (p, k) · W (k, q). On the contracted axis (the left operand's columns, the right operand's
    rows) an operand's index is the contraction position. -/
theorem sum_64x64 (X : S50000x64.Idx → EReal) (W : S64x64.Idx → EReal) (p : Fin 50000) (q : Fin 64) :
    (∑ c : dot_S50000x64_S64x64_S50000x64_1_0_0_1_n_n.contr.Idx, X (dot_S50000x64_S64x64_S50000x64_1_0_0_1_n_n.lhsIdx (ix2 p q) c) * W (dot_S50000x64_S64x64_S50000x64_1_0_0_1_n_n.rhsIdx (ix2 p q) c))
      = ∑ k : Fin 64, X (ix2 p k) * W (ix2 k q) := by
  rw [← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 p q) ((contrEquiv1 dot_S50000x64_S64x64_S50000x64_1_0_0_1_n_n 64 rfl rfl).symm k) = ix2 p k := funext fun a => Fin.ext (by
    match a with
    | ⟨0, _⟩ => exact lhs0_64x64 _ _
    | ⟨1, _⟩ => exact (dot_S50000x64_S64x64_S50000x64_1_0_0_1_n_n.lhsIdx_val_of_single rfl _ _).trans hk)
  have er : dot_S50000x64_S64x64_S50000x64_1_0_0_1_n_n.rhsIdx (ix2 p q) ((contrEquiv1 dot_S50000x64_S64x64_S50000x64_1_0_0_1_n_n 64 rfl rfl).symm k) = ix2 k q := funext fun a => Fin.ext (by
    match a with
    | ⟨0, _⟩ => exact (dot_S50000x64_S64x64_S50000x64_1_0_0_1_n_n.rhsIdx_val_of_single rfl _ _).trans hk
    | ⟨1, _⟩ => exact rhs1_64x64 _ _)
  rw [el, er]

/-- The host's product of the whole [50000, 64] and [64, 64] arrays is the specification's product: entry by entry, the
    sum over the contraction index set is the sum over k. -/
theorem dot2_eq (x : FVec Ideal S50000x64 .f32) (w : FVec Ideal S64x64 .f32) :
    Host.dotGeneral (F := Ideal) dot_S50000x64_S64x64_S50000x64_1_0_0_1_n_n none x w = Cert.Spec.mm x w := by
  funext i
  obtain ⟨p, q, rfl⟩ : ∃ (p : Fin 50000) (q : Fin 64), i = ix2 p q := ⟨i 0, i 1, eq_ix2 i⟩
  simp only [Host.dotGeneral]
  refine (Ideal.dotGeneral_apply dot_S50000x64_S64x64_S50000x64_1_0_0_1_n_n none _ x w (ix2 p q)).trans ?_
  exact (sum_64x64 x w p q).trans (Cert.Spec.mm_apply x w p q).symm

/-! ### The 50000 × 64 by 64 × 40 product -/

/-- The left operand's index on its free axis (rows) is the output's row: rows are not a batch axis (there is none) and
    are the one free axis of the left operand. -/
theorem lhs0_64x40 (i : S50000x40.Idx) (c : dot_S50000x64_S64x40_S50000x40_1_0_0_1_n_n.contr.Idx) :
    (dot_S50000x64_S64x40_S50000x40_1_0_0_1_n_n.lhsIdx i c 0).val = (i 0).val := by
  have hb : ¬(0 : Fin S50000x64.rank) ∈ dot_S50000x64_S64x40_S50000x40_1_0_0_1_n_n.lhsBatch := by
    show ¬(0 : Fin S50000x64.rank) ∈ ([] : List (Fin S50000x64.rank))
    simp
  have hn : (0 : Fin S50000x64.rank) ∈ dot_S50000x64_S64x40_S50000x40_1_0_0_1_n_n.lhsNonContracting := by
    show (0 : Fin S50000x64.rank) ∈ ([0] : List (Fin S50000x64.rank))
    simp
  unfold DotDims.lhsIdx
  rw [dif_neg hb, dif_pos hn]
  rfl
/-- The right operand's index on its free axis (columns) is the output's column. -/
theorem rhs1_64x40 (i : S50000x40.Idx) (c : dot_S50000x64_S64x40_S50000x40_1_0_0_1_n_n.contr.Idx) :
    (dot_S50000x64_S64x40_S50000x40_1_0_0_1_n_n.rhsIdx i c 1).val = (i 1).val := by
  have hb : ¬(1 : Fin S64x40.rank) ∈ dot_S50000x64_S64x40_S50000x40_1_0_0_1_n_n.rhsBatch := by
    show ¬(1 : Fin S64x40.rank) ∈ ([] : List (Fin S64x40.rank))
    simp
  have hn : (1 : Fin S64x40.rank) ∈ dot_S50000x64_S64x40_S50000x40_1_0_0_1_n_n.rhsNonContracting := by
    show (1 : Fin S64x40.rank) ∈ ([1] : List (Fin S64x40.rank))
    simp
  unfold DotDims.rhsIdx
  rw [dif_neg hb, dif_pos hn]
  rfl

/-- The sum over the contraction index set, re-indexed by the contracted extent: entry (p, q) is
    the sum over k of X (p, k) · W (k, q). On the contracted axis (the left operand's columns, the right operand's
    rows) an operand's index is the contraction position. -/
theorem sum_64x40 (X : S50000x64.Idx → EReal) (W : S64x40.Idx → EReal) (p : Fin 50000) (q : Fin 40) :
    (∑ c : dot_S50000x64_S64x40_S50000x40_1_0_0_1_n_n.contr.Idx, X (dot_S50000x64_S64x40_S50000x40_1_0_0_1_n_n.lhsIdx (ix2 p q) c) * W (dot_S50000x64_S64x40_S50000x40_1_0_0_1_n_n.rhsIdx (ix2 p q) c))
      = ∑ k : Fin 64, X (ix2 p k) * W (ix2 k q) := by
  rw [← Equiv.sum_comp (contrEquiv1 dot_S50000x64_S64x40_S50000x40_1_0_0_1_n_n 64 rfl rfl).symm]
  refine Finset.sum_congr rfl fun k _ => ?_
  have hk := contrEquiv1_symm_val dot_S50000x64_S64x40_S50000x40_1_0_0_1_n_n 64 rfl rfl k
  have el : dot_S50000x64_S64x40_S50000x40_1_0_0_1_n_n.lhsIdx (ix2 p q) ((contrEquiv1 dot_S50000x64_S64x40_S50000x40_1_0_0_1_n_n 64 rfl rfl).symm k) = ix2 p k := funext fun a => Fin.ext (by
    match a with
    | ⟨0, _⟩ => exact lhs0_64x40 _ _
    | ⟨1, _⟩ => exact (dot_S50000x64_S64x40_S50000x40_1_0_0_1_n_n.lhsIdx_val_of_single rfl _ _).trans hk)
  have er : dot_S50000x64_S64x40_S50000x40_1_0_0_1_n_n.rhsIdx (ix2 p q) ((contrEquiv1 dot_S50000x64_S64x40_S50000x40_1_0_0_1_n_n 64 rfl rfl).symm k) = ix2 k q := funext fun a => Fin.ext (by
    match a with
    | ⟨0, _⟩ => exact (dot_S50000x64_S64x40_S50000x40_1_0_0_1_n_n.rhsIdx_val_of_single rfl _ _).trans hk
    | ⟨1, _⟩ => exact rhs1_64x40 _ _)
  rw [el, er]

/-- The host's product of the whole [50000, 64] and [64, 40] arrays is the specification's product: entry by entry, the
    sum over the contraction index set is the sum over k. -/
theorem dot3_eq (x : FVec Ideal S50000x64 .f32) (w : FVec Ideal S64x40 .f32) :
    Host.dotGeneral (F := Ideal) dot_S50000x64_S64x40_S50000x40_1_0_0_1_n_n none x w = Cert.Spec.mm x w := by
  funext i
  obtain ⟨p, q, rfl⟩ : ∃ (p : Fin 50000) (q : Fin 40), i = ix2 p q := ⟨i 0, i 1, eq_ix2 i⟩
  simp only [Host.dotGeneral]
  refine (Ideal.dotGeneral_apply dot_S50000x64_S64x40_S50000x40_1_0_0_1_n_n none _ x w (ix2 p q)).trans ?_
  exact (sum_64x40 x w p q).trans (Cert.Spec.mm_apply x w p q).symm

end Cert.ReferenceIdeal.Bridge
end
-- ==== Proof.RefSoftmax.lean ====
/-
  The reference's log-softmax, as the host program spells it, is the specification's.

  The host takes the maximum of each row by a reduction from −∞ (and once more against a splat of −∞, which changes
  nothing: max ⊥ m = m), keeps it as a column [n, 1] and spreads it over the row, subtracts it, exponentiates, sums
  each row from 0, keeps the sum as a column, takes its logarithm, spreads that over the row and subtracts again. At
  the extended reals every step is exact, so at (p, q) the result is
  (A (p, q) − M) − log (∑ j, exp (A (p, j) − M)) with M the fold of max from −∞ over row p.

  The reads are first proved at any extents n × N, where an index's coordinates are plain `Fin n` and `Fin N`
  variables, and then used at the reference's 50000 × 40 array.
-/
import proofs.«146042_j24257975287854_1_alg».proof.ReferenceIdeal
import proofs.«146042_j24257975287854_1_alg».proof.Proof.Spec
import proofs.«146042_j24257975287854_1_alg».proof.Proof.RefSoftmaxDef
import Idealize.ShloMosaic.Lib.ValueIdx
import Idealize.ShloMosaic.Lib.Pipeline.Value
import Idealize.ShloMosaic.PureOps.Ideal.Laws

noncomputable section
open scoped BigOperators

namespace Cert.ReferenceIdeal.Bridge
open Cert.ReferenceIdeal Idealize.ShloMosaic Idealize.ShloMosaic.ValueIdx

/-- The pattern `0xFF800000` read as an extended real is −∞. -/
theorem ofBits_negInf : Ideal.ofBits .f32 0xFF800000#32 = (⊥ : EReal) := by simp [Ideal.ofBits, Ideal.ieee]

/-- A row reduction's reduced index (p) with the column k put back is (p, k). -/
theorem reduce_lift_row {n N : ℕ} (h : Shape.Reduces ⟨2, ![n, N]⟩ [(1 : Fin 2)] ⟨1, ![n]⟩) (p : Fin n) (k : Fin N) :
    h.lift (ix1 p) k = ix2 p k := by
  funext c
  apply Fin.ext
  match c with
  | ⟨0, _⟩ => rfl
  | ⟨1, _⟩ => rfl

/-- The host's maximum reduction along the rows, from the −∞ word, is at p the fold of max from −∞ over row p. -/
theorem hostRowMax_read {n N : ℕ} (A : FVec Ideal ⟨2, ![n, N]⟩ .f32)
    (h' : Shape.ReducesTo ⟨2, ![n, N]⟩ [(1 : Fin 2)] ⟨1, ![n]⟩) (h : Shape.Reduces ⟨2, ![n, N]⟩ [(1 : Fin 2)] ⟨1, ![n]⟩)
    (hu : 0 < (⟨0, ![]⟩ : Shape).numel) (p : Fin n) :
    Host.reduce FloatOps.maximumf A (constant (F := Ideal) ⟨0, ![]⟩ .f32 0xFF800000#32) h' hu (ix1 p)
      = Cert.Spec.rowMax A p := by
  refine (Host.reduce_eq_fold_single FloatOps.maximumf A _ h' h hu (ix1 p)).trans ?_
  show Finset.fold max (Ideal.ofBits .f32 0xFF800000#32) (A ∘ h.lift (ix1 p)) (Finset.univ : Finset (Fin N)) = _
  rw [ofBits_negInf]
  exact congrArg (fun f => Finset.fold max (⊥ : EReal) f (Finset.univ : Finset (Fin N)))
    (funext fun k => congrArg A (reduce_lift_row h p k))

/-- The host's sum reduction along the rows, from the zero word, is at p the sum of row p. -/
theorem hostRowSum_read {n N : ℕ} (x : FVec Ideal ⟨2, ![n, N]⟩ .f32)
    (h' : Shape.ReducesTo ⟨2, ![n, N]⟩ [(1 : Fin 2)] ⟨1, ![n]⟩) (h : Shape.Reduces ⟨2, ![n, N]⟩ [(1 : Fin 2)] ⟨1, ![n]⟩)
    (hu : 0 < (⟨0, ![]⟩ : Shape).numel) (p : Fin n) :
    Host.reduceAdd x (constant (F := Ideal) ⟨0, ![]⟩ .f32 0x00000000#32) h' hu (ix1 p) = ∑ k : Fin N, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (reduce_lift_row h p k)

/-- A scalar spread over a vector reads the scalar everywhere. -/
theorem splat_read {n : ℕ} (w : BitVec 32) (h : (⟨0, ![]⟩ : Shape).BroadcastsInDim ⟨1, ![n]⟩ (![] : Fin 0 → Fin 1)) (p : Fin n) :
    broadcastInDim ⟨1, ![n]⟩ ![] h (constant (F := Ideal) ⟨0, ![]⟩ .f32 w) (ix1 p) = Ideal.ofBits .f32 w :=
  broadcastInDim_apply _ h _ (ix1 p) (fun a => a.elim0) (fun a => a.elim0)

/-- A vector placed as the column [n, 1] reads, at (p, u), the vector at p. -/
theorem bcastCol_read {α : Type} {n : ℕ} (v : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h v (ix2 p u) = v (ix1 p) := by
  refine broadcastInDim_apply _ h v (ix2 p u) (ix1 p) fun a => ?_
  match a with
  | ⟨0, _⟩ =>
    show p.val = if n = 1 then 0 else p.val
    split
    · have := p.isLt; omega
    · rfl

/-- A column [n, 1] spread over N columns reads, at (p, c), the column at (p, 0). -/
theorem bcastRow_read {α : Type} {n N : ℕ} (v : (⟨2, ![n, 1]⟩ : Shape).Idx → α)
    (h : (⟨2, ![n, 1]⟩ : Shape).BroadcastsInDim ⟨2, ![n, N]⟩ (![0, 1] : Fin 2 → Fin 2)) (p : Fin n) (c : Fin N) :
    broadcastInDim ⟨2, ![n, N]⟩ ![0, 1] h v (ix2 p c) = v (ix2 p (0 : Fin 1)) := by
  refine broadcastInDim_apply _ h v (ix2 p c) (ix2 p (0 : Fin 1)) fun a => ?_
  match a with
  | ⟨0, _⟩ =>
    show p.val = if n = 1 then 0 else p.val
    split
    · have := p.isLt; omega
    · rfl
  | ⟨1, _⟩ =>
    show (0 : ℕ) = if (1 : ℕ) = 1 then 0 else c.val
    rw [if_pos rfl]

/-- The host's whole log-softmax at any extents: shift each row by its maximum, subtract the logarithm of the row sum
    of the exponentials. -/
theorem hostLogSoftmax_body {n N : ℕ} (A : FVec Ideal ⟨2, ![n, N]⟩ .f32)
    (hs : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (hb : (⟨2, ![n, 1]⟩ : Shape).BroadcastsInDim ⟨2, ![n, N]⟩ (![0, 1] : Fin 2 → Fin 2))
    (h' : Shape.ReducesTo ⟨2, ![n, N]⟩ [(1 : Fin 2)] ⟨1, ![n]⟩) (h : Shape.Reduces ⟨2, ![n, N]⟩ [(1 : Fin 2)] ⟨1, ![n]⟩)
    (hu : 0 < (⟨0, ![]⟩ : Shape).numel) (p : Fin n) (q : Fin N) :
    let sh : FVec Ideal ⟨2, ![n, N]⟩ .f32 := subf A (broadcastInDim ⟨2, ![n, N]⟩ ![0, 1] hb (broadcastInDim ⟨2, ![n, 1]⟩ ![0] hc
      (maximumf (broadcastInDim ⟨1, ![n]⟩ ![] hs (constant (F := Ideal) ⟨0, ![]⟩ .f32 0xFF800000#32))
        (Host.reduce FloatOps.maximumf A (constant (F := Ideal) ⟨0, ![]⟩ .f32 0xFF800000#32) h' hu))))
    subf sh (broadcastInDim ⟨2, ![n, N]⟩ ![0, 1] hb (Host.log (broadcastInDim ⟨2, ![n, 1]⟩ ![0] hc
      (Host.reduceAdd (Host.exp sh) (constant (F := Ideal) ⟨0, ![]⟩ .f32 0x00000000#32) h' hu)))) (ix2 p q)
      = Cert.Spec.logSoftmax A (ix2 p q) := by
  intro sh
  have hM : ∀ c : Fin N, sh (ix2 p c) = A (ix2 p c) - Cert.Spec.rowMax A p := fun c => by
    show A (ix2 p c) - broadcastInDim ⟨2, ![n, N]⟩ ![0, 1] hb (broadcastInDim ⟨2, ![n, 1]⟩ ![0] hc
      (maximumf (broadcastInDim ⟨1, ![n]⟩ ![] hs (constant (F := Ideal) ⟨0, ![]⟩ .f32 0xFF800000#32))
        (Host.reduce FloatOps.maximumf A (constant (F := Ideal) ⟨0, ![]⟩ .f32 0xFF800000#32) h' hu))) (ix2 p c) = _
    rw [bcastRow_read, bcastCol_read]
    show A (ix2 p c) - max (broadcastInDim ⟨1, ![n]⟩ ![] hs (constant (F := Ideal) ⟨0, ![]⟩ .f32 0xFF800000#32) (ix1 p))
      (Host.reduce FloatOps.maximumf A (constant (F := Ideal) ⟨0, ![]⟩ .f32 0xFF800000#32) h' hu (ix1 p)) = _
    rw [splat_read, hostRowMax_read A h' h hu p, ofBits_negInf, max_bot_left]
  show sh (ix2 p q) - broadcastInDim ⟨2, ![n, N]⟩ ![0, 1] hb (Host.log (broadcastInDim ⟨2, ![n, 1]⟩ ![0] hc
      (Host.reduceAdd (Host.exp sh) (constant (F := Ideal) ⟨0, ![]⟩ .f32 0x00000000#32) h' hu))) (ix2 p q) = _
  rw [bcastRow_read]
  show sh (ix2 p q) - Ideal.log (broadcastInDim ⟨2, ![n, 1]⟩ ![0] hc
      (Host.reduceAdd (Host.exp sh) (constant (F := Ideal) ⟨0, ![]⟩ .f32 0x00000000#32) h' hu) (ix2 p (0 : Fin 1))) = _
  rw [bcastCol_read, hostRowSum_read (Host.exp sh) h' h hu p, hM q, Cert.Spec.logSoftmax_apply]
  exact congrArg (fun s => (A (ix2 p q) - Cert.Spec.rowMax A p) - Ideal.log s)
    (Finset.sum_congr rfl fun k _ => congrArg Ideal.exp (hM k))

variable [Cert.ReferenceIdeal.Facts]
open Cert.ReferenceIdeal.Facts₀ Cert.ReferenceIdeal.Facts

/-- The reference's log-softmax is the specification's. -/
theorem refLogSoftmax_eq (A : FVec Ideal S50000x40 .f32) : refLogSoftmax A = Cert.Spec.logSoftmax A := by
  funext i
  rw [eq_ix2 i]
  exact hostLogSoftmax_body A bcast_S_S50000 bcast_S50000_S50000x1_0 bcast_S50000x1_S50000x40_0_1
    reducesTo_S50000x40_S50000_d1 (by decide) h_S_ (i 0) (i 1)

end Cert.ReferenceIdeal.Bridge
end
-- ==== Proof.RefNet.lean ====
/-
  The reference's dense steps, put together, are the specification's network.

  The reference multiplies by the weights, mixes the rows along the edges, adds the bias and clamps at zero, twice;
  then multiplies, mixes and adds the last bias, and takes the row-wise log-softmax. Each dense step, as the host
  spells it, is the specification's function of the same name (the three products, the two clamped biases, the last
  bias, the log-softmax); the mixing maps are left arbitrary, the same on both sides. Rewriting step by step, from the
  innermost product outwards, turns the reference's expression into `network`.
-/
import proofs.«146042_j24257975287854_1_alg».proof.Proof.RefMatmul
import proofs.«146042_j24257975287854_1_alg».proof.Proof.RefBias
import proofs.«146042_j24257975287854_1_alg».proof.Proof.RefSoftmaxDef
import proofs.«146042_j24257975287854_1_alg».proof.Proof.RefSoftmax
import proofs.«146042_j24257975287854_1_alg».proof.Proof.SpecNet

noncomputable section

namespace Cert.ReferenceIdeal.Bridge
open Cert.ReferenceIdeal Idealize.ShloMosaic Idealize.ShloMosaic.ValueIdx
variable [Cert.ReferenceIdeal.Facts]
open Cert.ReferenceIdeal.Facts₀ Cert.ReferenceIdeal.Facts

/-- The reference's three layers and its log-softmax, for any mixing maps, are the specification's network. -/
theorem net_eq (mix64 : FVec Ideal S50000x64 .f32 → FVec Ideal S50000x64 .f32)
    (mix40 : FVec Ideal S50000x40 .f32 → FVec Ideal S50000x40 .f32)
    (x0 : FVec Ideal S50000x128 .f32) (x2 : FVec Ideal S128x64 .f32) (x3 : FVec Ideal S64 .f32)
    (x4 : FVec Ideal S64x64 .f32) (x5 : FVec Ideal S64 .f32) (x6 : FVec Ideal S64x40 .f32) (x7 : FVec Ideal S40 .f32) :
    refLogSoftmax (refBias40 (mix40 (Host.dotGeneral (F := Ideal) dot_S50000x64_S64x40_S50000x40_1_0_0_1_n_n none
      (refBiasClamp64 (mix64 (Host.dotGeneral (F := Ideal) dot_S50000x64_S64x64_S50000x64_1_0_0_1_n_n none
        (refBiasClamp64 (mix64 (Host.dotGeneral (F := Ideal) dot_S50000x128_S128x64_S50000x64_1_0_0_1_n_n none x0 x2)) x3) x4)) x5) x6)) x7)
      = Cert.Spec.network mix64 mix40 x0 x2 x3 x4 x5 x6 x7 := by
  unfold Cert.Spec.network
  rw [dot1_eq, refBiasClamp64_eq _ x3, dot2_eq, refBiasClamp64_eq _ x5, dot3_eq, refBias40_eq, refLogSoftmax_eq]

end Cert.ReferenceIdeal.Bridge
end
-- ==== Proof.PlumbBridge.lean ====
/-
  The two programs route their arrays in the same words.

  Between the dense steps both programs do the same array plumbing: read the sources and targets of the edges off the
  edge array (each row followed by the self loops), count the degree of every node at the targets, take its inverse
  square root where it is positive, weigh every edge by the product over its two ends, and mix the rows of a feature
  array along the edges (gather at the sources, scale by the weights, add up at the targets). Each program spells
  these with its own copies of the shape names and of the gather, scatter and broadcast dimension records; the copies
  have equal fields and differ only in the proofs of their side conditions, so corresponding pieces are equal as
  functions. The pieces are compared one definition at a time, with the arguments kept as variables: a lower piece is
  first rewritten to its counterpart, so no comparison ever unfolds more than one definition.
-/
import proofs.«146042_j24257975287854_1_alg».proof.Proof.KernelStretch
import proofs.«146042_j24257975287854_1_alg».proof.Proof.RefStages

noncomputable section

namespace Cert.Bridge
open Idealize.ShloMosaic

/-! ## The pieces, one definition at a time -/

/-- Both programs read the sources off the edge array in the same words. -/
theorem rowOf_eq : Cert.KernelIdeal.Stretch.rowOf = Cert.ReferenceIdeal.Stages.rowOf := rfl
/-- Both programs read the targets off the edge array in the same words. -/
theorem colOf_eq : Cert.KernelIdeal.Stretch.colOf = Cert.ReferenceIdeal.Stages.colOf := rfl
/-- Both programs count the degrees in the same words. -/
theorem degOf_eq : Cert.KernelIdeal.Stretch.degOf = Cert.ReferenceIdeal.Stages.degOf := rfl
/-- Both programs spell the unit edge weights in the same words. -/
theorem onesE_eq : Cert.KernelIdeal.Stretch.onesE = Cert.ReferenceIdeal.Stages.onesE := rfl
/-- Both programs test the degrees for positivity in the same words. -/
theorem degPos_eq : Cert.KernelIdeal.Stretch.degPos = Cert.ReferenceIdeal.Stages.degPos := by
  funext col
  unfold Cert.KernelIdeal.Stretch.degPos Cert.ReferenceIdeal.Stages.degPos
  rw [degOf_eq]
/-- Both programs weigh the edges from a given inverse-root vector in the same words. -/
theorem normFrom_eq : Cert.KernelIdeal.Stretch.normFrom = Cert.ReferenceIdeal.Stages.normFrom := rfl
/-- Both programs take the inverse square roots of the degrees in the same words. -/
theorem dinvOf_eq : Cert.KernelIdeal.Stretch.dinvOf = Cert.ReferenceIdeal.Stages.dinvOf := by
  funext col
  unfold Cert.KernelIdeal.Stretch.dinvOf Cert.ReferenceIdeal.Stages.dinvOf Cert.KernelIdeal.Stretch.degPos
  rw [degOf_eq]
  rfl
/-- Both programs weigh the edges in the same words. -/
theorem normOf_eq : Cert.KernelIdeal.Stretch.normOf = Cert.ReferenceIdeal.Stages.normOf := by
  funext row col
  unfold Cert.KernelIdeal.Stretch.normOf Cert.KernelIdeal.Stretch.normFrom Cert.ReferenceIdeal.Stages.normOf
  rw [dinvOf_eq]
  rfl
/-- Both programs mix 64 columns along the edges in the same words. -/
theorem agg64_eq : Cert.KernelIdeal.Stretch.agg64 = Cert.ReferenceIdeal.Stages.agg64 := rfl
/-- Both programs mix 40 columns along the edges in the same words. -/
theorem agg40_eq : Cert.KernelIdeal.Stretch.agg40 = Cert.ReferenceIdeal.Stages.agg40 := rfl

/-! ## The two mixing maps of an edge array -/

/-- Mixing 64 columns along the edges of a given edge array, with the weights that array determines, is the same
    function in both programs. -/
theorem mix64_eq (e : (⟨Cert.KernelIdeal.S2x800000, .i32⟩ : BufTy).Contents (Elt Ideal)) :
    (fun h => Cert.KernelIdeal.Stretch.agg64 h (Cert.KernelIdeal.Stretch.rowOf e) (Cert.KernelIdeal.Stretch.colOf e) (Cert.KernelIdeal.Stretch.normOf (Cert.KernelIdeal.Stretch.rowOf e) (Cert.KernelIdeal.Stretch.colOf e)))
      = (fun h => Cert.ReferenceIdeal.Stages.agg64 h (Cert.ReferenceIdeal.Stages.rowOf e) (Cert.ReferenceIdeal.Stages.colOf e) (Cert.ReferenceIdeal.Stages.normOf (Cert.ReferenceIdeal.Stages.rowOf e) (Cert.ReferenceIdeal.Stages.colOf e))) := by
  rw [agg64_eq, rowOf_eq, colOf_eq, normOf_eq]
/-- The same at 40 columns. -/
theorem mix40_eq (e : (⟨Cert.KernelIdeal.S2x800000, .i32⟩ : BufTy).Contents (Elt Ideal)) :
    (fun h => Cert.KernelIdeal.Stretch.agg40 h (Cert.KernelIdeal.Stretch.rowOf e) (Cert.KernelIdeal.Stretch.colOf e) (Cert.KernelIdeal.Stretch.normOf (Cert.KernelIdeal.Stretch.rowOf e) (Cert.KernelIdeal.Stretch.colOf e)))
      = (fun h => Cert.ReferenceIdeal.Stages.agg40 h (Cert.ReferenceIdeal.Stages.rowOf e) (Cert.ReferenceIdeal.Stages.colOf e) (Cert.ReferenceIdeal.Stages.normOf (Cert.ReferenceIdeal.Stages.rowOf e) (Cert.ReferenceIdeal.Stages.colOf e))) := by
  rw [agg40_eq, rowOf_eq, colOf_eq, normOf_eq]
end Cert.Bridge

end
-- ==== Proof.lean ====
/-
  The certificate: the kernel, its idealization and the reference each run to the end without fault and leave their
  arguments alone, and at the ideal values the kernel and the reference compute the same array.

  Both programs are the same three-layer graph network. What differs is where the dense steps run: the kernel does
  each matrix product, each bias (with its clamp at zero) and the final row-wise log-softmax in a region of ten row
  blocks, the reference in single host operations. At the ideal values a matrix product is the exact sum of products
  on either side (the kernel's change of format before it is the identity, its zero accumulator adds nothing), the
  bias steps are entrywise, and the log-softmax of a row depends on that row only — with the reference's extra
  comparison of the row maximum against −∞ the identity on the extended reals. So every region's result array is the
  specification's function of the arrays it found (one block at a time, the blocks tiling the array), and every host
  step of the reference is the same function. The mixing of rows along the graph's edges between the dense steps is
  spelt by both programs in the same host operations, applied to equal arrays, and is never opened. No law used needs
  the inputs to be finite; the precondition is not consulted.

  The ideal pass rewrote nothing, so "preserves" has no conjunct.
-/
import proofs.«146042_j24257975287854_1_alg».proof.Defs
import proofs.«146042_j24257975287854_1_alg».proof.Proof.Gen.Kernel
import proofs.«146042_j24257975287854_1_alg».proof.Proof.Gen.Kernel.Skeleton
import proofs.«146042_j24257975287854_1_alg».proof.Proof.Gen.Kernel.Launch
import proofs.«146042_j24257975287854_1_alg».proof.Proof.Gen.Kernel.Points
import proofs.«146042_j24257975287854_1_alg».proof.Proof.Gen.Kernel.Frame
import proofs.«146042_j24257975287854_1_alg».proof.Proof.Gen.KernelIdeal
import proofs.«146042_j24257975287854_1_alg».proof.Proof.Gen.KernelIdeal.Skeleton
import proofs.«146042_j24257975287854_1_alg».proof.Proof.Gen.KernelIdeal.Launch
import proofs.«146042_j24257975287854_1_alg».proof.Proof.Gen.KernelIdeal.Points
import proofs.«146042_j24257975287854_1_alg».proof.Proof.Gen.KernelIdeal.Frame
import proofs.«146042_j24257975287854_1_alg».proof.Proof.Gen.ReferenceIdeal
import proofs.«146042_j24257975287854_1_alg».proof.Proof.Gen.Pre_finite_inputs
import proofs.«146042_j24257975287854_1_alg».proof.Proof.KernelRun
import proofs.«146042_j24257975287854_1_alg».proof.Proof.KernelNet
import proofs.«146042_j24257975287854_1_alg».proof.Proof.RefStages
import proofs.«146042_j24257975287854_1_alg».proof.Proof.RefNet
import proofs.«146042_j24257975287854_1_alg».proof.Proof.PlumbBridge
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs and keeps its arguments: the generated frame of its seven regions. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run read back in stages, the result dropped. -/
theorem frame_referenceIdeal : Cert.frame_ReferenceIdeal := fun m ρ _ =>
  (θ_run Cert.ReferenceIdeal.defs _ _).mono (fun _ h c => (h c).2) (Cert.ReferenceIdeal.Stages.run m ρ)

/-- At the ideal values both programs end with the specification's network of the arguments in their result. -/
theorem algebraic : Cert.algebraic_KernelIdeal_ReferenceIdeal := by
  intro m ρ m' ρ' _ hagree
  refine ⟨fun c => Cert.Spec.network
      (Cert.KernelIdeal.Net.mix64 (m ((c.tc : Thread Cert.KernelIdeal.nD Cert.KernelIdeal.τ).loc Cert.KernelIdeal.main_arg1)))
      (Cert.KernelIdeal.Net.mix40 (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Net.value m ρ c), (h c).2⟩) (Cert.KernelIdeal.Named.run m ρ)
  · refine (θ_run Cert.ReferenceIdeal.defs _ _).mono (fun r h c => ⟨(h c).1.trans ?_, (h c).2⟩)
      (Cert.ReferenceIdeal.Stages.run m' ρ')
    obtain ⟨e0, e1, e2, e3, e4, e5, e6, e7⟩ := hagree c
    rw [e0, e1, e2, e3, e4, e5, e6, e7]
    beta_reduce
    generalize m ((c.tc : Thread Cert.KernelIdeal.nD Cert.KernelIdeal.τ).loc Cert.KernelIdeal.main_arg0) = X0
    generalize m ((c.tc : Thread Cert.KernelIdeal.nD Cert.KernelIdeal.τ).loc Cert.KernelIdeal.main_arg1) = X1
    generalize m ((c.tc : Thread Cert.KernelIdeal.nD Cert.KernelIdeal.τ).loc Cert.KernelIdeal.main_arg2) = X2
    generalize m ((c.tc : Thread Cert.KernelIdeal.nD Cert.KernelIdeal.τ).loc Cert.KernelIdeal.main_arg3) = X3
    generalize m ((c.tc : Thread Cert.KernelIdeal.nD Cert.KernelIdeal.τ).loc Cert.KernelIdeal.main_arg4) = X4
    generalize m ((c.tc : Thread Cert.KernelIdeal.nD Cert.KernelIdeal.τ).loc Cert.KernelIdeal.main_arg5) = X5
    generalize m ((c.tc : Thread Cert.KernelIdeal.nD Cert.KernelIdeal.τ).loc Cert.KernelIdeal.main_arg6) = X6
    generalize m ((c.tc : Thread Cert.KernelIdeal.nD Cert.KernelIdeal.τ).loc Cert.KernelIdeal.main_arg7) = X7
    -- the reference's dense steps are the specification's, whatever the mixing; and the two programs' mixings are one
    have hmix64 : (fun h => Cert.ReferenceIdeal.Stages.agg64 h (Cert.ReferenceIdeal.Stages.rowOf X1) (Cert.ReferenceIdeal.Stages.colOf X1)
          (Cert.ReferenceIdeal.Stages.normOf (Cert.ReferenceIdeal.Stages.rowOf X1) (Cert.ReferenceIdeal.Stages.colOf X1)))
        = Cert.KernelIdeal.Net.mix64 X1 := (Cert.Bridge.mix64_eq X1).symm
    have hmix40 : (fun h => Cert.ReferenceIdeal.Stages.agg40 h (Cert.ReferenceIdeal.Stages.rowOf X1) (Cert.ReferenceIdeal.Stages.colOf X1)
          (Cert.ReferenceIdeal.Stages.normOf (Cert.ReferenceIdeal.Stages.rowOf X1) (Cert.ReferenceIdeal.Stages.colOf X1)))
        = Cert.KernelIdeal.Net.mix40 X1 := (Cert.Bridge.mix40_eq X1).symm
    refine (Cert.ReferenceIdeal.Bridge.net_eq
        (fun h => Cert.ReferenceIdeal.Stages.agg64 h (Cert.ReferenceIdeal.Stages.rowOf X1) (Cert.ReferenceIdeal.Stages.colOf X1)
          (Cert.ReferenceIdeal.Stages.normOf (Cert.ReferenceIdeal.Stages.rowOf X1) (Cert.ReferenceIdeal.Stages.colOf X1)))
        (fun h => Cert.ReferenceIdeal.Stages.agg40 h (Cert.ReferenceIdeal.Stages.rowOf X1) (Cert.ReferenceIdeal.Stages.colOf X1)
          (Cert.ReferenceIdeal.Stages.normOf (Cert.ReferenceIdeal.Stages.rowOf X1) (Cert.ReferenceIdeal.Stages.colOf X1)))
        X0 X2 X3 X4 X5 X6 X7).trans ?_
    rw [hmix64, hmix40]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
